-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384 : Shape := ⟨1, ![16384]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) (main_arg1 : IVec S16384 32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S16384 : Shape := ⟨1, ![16384]⟩
abbrev S16384x1 : Shape := ⟨2, ![16384, 1]⟩
abbrev S2048x128 : Shape := ⟨2, ![2048, 128]⟩
abbrev S512x128 : Shape := ⟨2, ![512, 128]⟩
abbrev S2048x1 : Shape := ⟨2, ![2048, 1]⟩
abbrev S2048 : Shape := ⟨1, ![2048]⟩
abbrev S512 : Shape := ⟨1, ![512]⟩
abbrev S512x1 : Shape := ⟨2, ![512, 1]⟩
abbrev S1x512 : Shape := ⟨2, ![1, 512]⟩
abbrev S128x512 : Shape := ⟨2, ![128, 512]⟩
abbrev S2048x512 : Shape := ⟨2, ![2048, 512]⟩
abbrev S8192x128 : Shape := ⟨2, ![8192, 128]⟩
abbrev S_ : Shape := ⟨0, ![]⟩

abbrev nBuf : Space → Nat
  | .hbm => 35
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S16384x1, .f32⟩
  | .hbm, ⟨3, _⟩ => ⟨S16384, .f32⟩
  | .hbm, ⟨4, _⟩ => ⟨S8192x128, .f32⟩
  | .hbm, ⟨5, _⟩ => ⟨S8192x128, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S16384, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S512x128, .f32⟩
  | .local _ .vmem, ⟨3, _⟩ => ⟨S512x128, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v35 : BitVec 1 := Scalar.cmpi .eq arg1 c31_i32
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  inb_S512x128_S512x128_0_0 : ∀ a, (![0, 0] : Fin 2 → Nat) a + S512x128.size a ≤ S512x128.size a
  h_S512x128 : 0 < S512x128.numel
  reduces_S2048x128_S2048 : S2048x128.Reduces [1] S2048
  shapeCasts_S2048_S2048x1 : S2048.ShapeCasts S2048x1
  reduces_S512x128_S512 : S512x128.Reduces [1] S512
  shapeCasts_S512_S512x1 : S512.ShapeCasts S512x1
  transposes_S512x1_p1_0_S1x512 : S512x1.Transposes [1, 0] S1x512
  bitsLt_bf16_f32 : FTy.bits .bf16 < FTy.bits .f32
  transposes_S512x128_p1_0_S128x512 : S512x128.Transposes [1, 0] S128x512
  broadcasts_S2048x1_S2048x512 : S2048x1.Broadcasts S2048x512
  broadcasts_S1x512_S2048x512 : S1x512.Broadcasts S2048x512
  reduces_S2048x512_S2048 : S2048x512.Reduces [1] S2048
  shapeCasts_S16384x1_S16384 : S16384x1.ShapeCasts S16384
  slices_S16384x128_S8192x128_8192_0 : S16384x128.Slices ![8192, 0] S8192x128
  slices_S16384x128_S8192x128_0_0 : S16384x128.Slices ![0, 0] S8192x128
  concatenates_S8192x128_S8192x128_S16384x128_d0 : Shape.Concatenates [S8192x128, S8192x128] S16384x128 0
  reducesTo_S16384x128_S16384_d1 : S16384x128.ReducesTo [1] S16384
  h_S_ : 0 < S_.numel
  bcast_S_S16384 : S_.BroadcastsInDim S16384 (![] : Fin 0 → Fin S16384.rank)
  reducesTo_S16384_S_d0 : S16384.ReducesTo [0] S_
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S16384x128.size a
  hwx0_1 : ∀ i : grid0.Coords, EltTy.bits .f32 = 32 ∨ (Rect.block (s := S16384x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x128 : Shape := ⟨2, ![16384, 128]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩
abbrev S128x16384 : Shape := ⟨2, ![128, 16384]⟩
abbrev S16384x2 : Shape := ⟨2, ![16384, 2]⟩

abbrev nBuf : Space → Nat
  | .hbm => 86
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S16384x128, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1x16384, .f32⟩
  | .hbm, ⟨7, _⟩ => ⟨S16384x16384, .f32⟩
  | .hbm, ⟨8, _⟩ => ⟨S16384x16384, .f32⟩
  | .hbm, ⟨9, _⟩ => ⟨S16384x16384, .f32⟩
  | .hbm, ⟨10, _⟩ => ⟨S128x16384, .f32⟩
  | .hbm, ⟨11, _⟩ => ⟨S16384x16384, .f32⟩
  | .hbm, ⟨12, _⟩ => ⟨S_, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384x16384, .f32⟩
  | .hbm, ⟨24, _⟩ => ⟨S16384x16384, .f32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S_, .i32⟩
  | .hbm, ⟨38, _⟩ => ⟨S16384, .i32⟩
  | .hbm, ⟨39, _⟩ => ⟨S16384, .i1⟩
  | .hbm, ⟨40, _⟩ => ⟨S_, .i32⟩
  | .hbm, ⟨41, _⟩ => ⟨S16384, .i32⟩
  | .hbm, ⟨42, _⟩ => ⟨S16384, .i1⟩
  | .hbm, ⟨43, _⟩ => ⟨S_, .i32⟩
  | .hbm, ⟨44, _⟩ => ⟨S_, .i1⟩
  | .hbm, ⟨45, _⟩ => ⟨S16384, .i1⟩
  | .hbm, ⟨46, _⟩ => ⟨S16384, .i1⟩
  | .hbm, ⟨47, _⟩ => ⟨S16384, .i1⟩
  | .hbm, ⟨48, _⟩ => ⟨S16384, .i32⟩
  | .hbm, ⟨49, _⟩ => ⟨S16384, .i32⟩
  | .hbm, ⟨50, _⟩ => ⟨S16384, .i32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S_, .i32⟩
  | .hbm, ⟨59, _⟩ => ⟨S16384, .i32⟩
  | .hbm, ⟨60, _⟩ => ⟨S16384, .i1⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S16384x1, .i32⟩
  | .hbm, ⟨66, _⟩ => ⟨S16384x1, .i32⟩
  | .hbm, ⟨67, _⟩ => ⟨S16384x2, .i32⟩
  | .hbm, ⟨68, _⟩ => ⟨S16384, .f32⟩
  | .hbm, ⟨69, _⟩ => ⟨S16384, .f32⟩
  | .hbm, ⟨70, _⟩ => ⟨S16384, .f32⟩
  | .hbm, ⟨71, _⟩ => ⟨S_, .f32⟩
  | .hbm, ⟨72, _⟩ => ⟨S16384, .f32⟩
  | .hbm, ⟨73, _⟩ => ⟨S16384, .f32⟩
  | .hbm, ⟨74, _⟩ => ⟨S_, .f32⟩
  | .hbm, ⟨75, _⟩ => ⟨S16384, .f32⟩
  | .hbm, ⟨76, _⟩ => ⟨S16384, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v21 : Ref sig .tc := ⟨.hbm, 50, rfl⟩
abbrev main_c_5 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_7 : Ref sig .tc := ⟨.hbm, 58, rfl⟩
abbrev main_v27 : Ref sig .tc := ⟨.hbm, 59, rfl⟩
abbrev main_v28 : Ref sig .tc := ⟨.hbm, 60, rfl⟩
abbrev main_c_8 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_9 : Ref sig .tc := ⟨.hbm, 71, rfl⟩
abbrev main_v38 : Ref sig .tc := ⟨.hbm, 72, rfl⟩
abbrev main_v39 : Ref sig .tc := ⟨.hbm, 73, rfl⟩
abbrev main_cst_10 : Ref sig .tc := ⟨.hbm, 74, rfl⟩
abbrev main_v40 : Ref sig .tc := ⟨.hbm, 75, rfl⟩
abbrev main_v41 : Ref sig .tc := ⟨.hbm, 76, rfl⟩
abbrev main_cst_11 : Ref sig .tc := ⟨.hbm, 77, rfl⟩
abbrev main_v42 : Ref sig .tc := ⟨.hbm, 78, rfl⟩
abbrev main_cst_12 : Ref sig .tc := ⟨.hbm, 79, rfl⟩
abbrev main_v43 : Ref sig .tc := ⟨.hbm, 80, rfl⟩
abbrev main_cst_13 : Ref sig .tc := ⟨.hbm, 81, rfl⟩
abbrev main_v44 : Ref sig .tc := ⟨.hbm, 82, rfl⟩
abbrev main_cst_14 : Ref sig .tc := ⟨.hbm, 83, rfl⟩
abbrev main_v45 : Ref sig .tc := ⟨.hbm, 84, rfl⟩
abbrev main_v46 : Ref sig .tc := ⟨.hbm, 85, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x128_S128x16384_1_0 : S16384x128.Transposes [1, 0] S128x16384
  bcast_S_S16384x16384 : S_.BroadcastsInDim S16384x16384 (![] : Fin 0 → Fin S16384x16384.rank)
  bcast_S_S16384 : S_.BroadcastsInDim S16384 (![] : Fin 0 → Fin S16384.rank)
  concatenates_S16384x1_S16384x1_S16384x2_d1 : Shape.Concatenates [S16384x1, S16384x1] S16384x2 1
  reducesTo_S16384x16384_S16384_d1 : S16384x16384.ReducesTo [1] S16384
  reducesTo_S16384_S_d0 : S16384.ReducesTo [0] S_
  dot_S16384x128_S128x16384_S16384x16384_1_0_0_1_n_n_wf : DotDims.WF S16384x128 S128x16384 S16384x16384 [1] [0] [0] [1] [] []
  gather_S16384x16384_S16384x2_S16384_n_01_n_n_01_1_11_wf : GatherDims.WF S16384x16384 S16384x2 S16384 [] [0, 1] [] [0, 1] [] 1 ![1, 1]

variable [Facts₀]

def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf
def gather_S16384x16384_S16384x2_S16384_n_01_n_n_01_1_11 : GatherDims S16384x16384 S16384x2 S16384 where
  offsetDims := []
  collapsedSliceDims := [0, 1]
  operandBatchingDims := []
  startIndicesBatchingDims := []
  startIndexMap := [0, 1]
  indexVectorDim := 1
  sliceSizes := ![1, 1]
  wf := gather_S16384x16384_S16384x2_S16384_n_01_n_n_01_1_11_wf

class Facts : Prop extends Facts₀ where

variable [Facts]
-- ==== Proof.KIEntry.lean ====
/-
  What the three runs of the kernel body share.

  The grid is 8 row blocks by 32 column blocks, walked row block by row block: point t is column block t % 32 of row
  block t / 32. The body keeps a running column of 2048 row sums in a scratch buffer: at the first column block of a
  run it stores the zero column into it, at every column block it adds the block's 2048 partial sums to it, and at the
  last column block it copies the finished column into the output window's staging buffer, which it touches at no
  other point. Here: the arrays as the region finds them, a window's block at a point, the two conditions of the body
  in closed form over the grid, where the output window is idle and where it is written back, and the names of the
  staging and scratch memrefs the runs are stated over.
-/
import proofs.«164351_j84774064488939_1_alg».proof.Proof.Gen.KernelIdeal.Launch
import proofs.«164351_j84774064488939_1_alg».proof.Proof.Gen.KernelIdeal.Skeleton
import proofs.«164351_j84774064488939_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and a window's block -/

/-- The TensorCore buffers of core `c` when the region is entered: no host operation comes before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's staging buffer holds its block at every point, fetched there or not (it is fetched only at
    the first column block of a run, and its block index does not move within a run), for any proof data over `V`'s
    arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same of the column-block window, which is fetched at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- The body's first condition, as it computes it from the grid coordinates: the column block is the first. -/
abbrev atFirst (i : grid0.Coords) : Prop := (Scalar.cmpi .ne (Scalar.extui (Scalar.cmpi .eq (BitVec.ofNat 32 (i 1).val) 0#32)) 0#32) = 1#1
/-- It holds exactly at the points t with t % 32 = 0. -/
theorem atFirst_iff : ∀ t : Fin cfg0.N, atFirst (grid0.coords t) ↔ t.val % 32 = 0 :=
  (by decide +kernel : ∀ t : Fin grid0.N, atFirst (grid0.coords t) ↔ t.val % 32 = 0)

/-- The body's second condition: the column block is the last. -/
abbrev atLast (i : grid0.Coords) : Prop := k0_cond2 i = 1#1
/-- It holds exactly at the points t with t % 32 = 31. -/
theorem atLast_iff : ∀ t : Fin cfg0.N, atLast (grid0.coords t) ↔ t.val % 32 = 31 :=
  (by decide +kernel : ∀ t : Fin grid0.N, atLast (grid0.coords t) ↔ t.val % 32 = 31)

/-! ## Where the windows are idle -/

/-- The two input windows are never idle. -/
theorem live0 : ∀ t : Fin cfg0.N, cfg0.idle 0 (grid0.coords t) = false := by decide +kernel
theorem live1 : ∀ t : Fin cfg0.N, cfg0.idle 1 (grid0.coords t) = false := by decide +kernel
/-- Away from the last column block the output window is idle, and its block is not written back. -/
theorem idle2_of_not_last : ∀ t : Fin cfg0.N, ¬atLast (grid0.coords t) → cfg0.idle 2 (grid0.coords t) = true := by decide +kernel
theorem noFlush2_of_not_last : ∀ t : Fin cfg0.N, ¬atLast (grid0.coords t) → (cfg0.win 2).flush t = false := by decide +kernel
/-- At the last column block it is live. -/
theorem live2_of_last : ∀ t : Fin cfg0.N, atLast (grid0.coords t) → cfg0.idle 2 (grid0.coords t) = false := by decide +kernel

/-! ## The memrefs the runs are stated over -/

/-- One staging buffer of the output window, through which its contents are stated (the choice does not matter). -/
abbrev outV : View sig .tc .vmem S2048x1 .f32 := (Memref.whole cc0_stg2_0 : Memref sig .tc .vmem S2048x1 .f32).view
/-- Each window's current staging memref at point `t`, as the pipeline passes it, and its wholeness. -/
abbrev rowM (t : Fin cfg0.N) : Memref sig .tc .vmem S2048x128 .f32 := win0_0.stage (cfg0.slots t 0)
abbrev rowM_whole (t : Fin cfg0.N) : (rowM t).IsWhole := hstage0_0 ((cfg0.slots t 0).cast nbuf0_0)
abbrev colM (t : Fin cfg0.N) : Memref sig .tc .vmem S512x128 .f32 := win0_1.stage (cfg0.slots t 1)
abbrev colM_whole (t : Fin cfg0.N) : (colM t).IsWhole := hstage0_1 ((cfg0.slots t 1).cast nbuf0_1)
abbrev outM (t : Fin cfg0.N) : Memref sig .tc .vmem S2048x1 .f32 := win0_2.stage (cfg0.slots t 2)
abbrev outM_whole (t : Fin cfg0.N) : (outM t).IsWhole := hstage0_2 ((cfg0.slots t 2).cast nbuf0_2)
/-- The scratch column the kernel carries between points, as a memref and as a view. -/
abbrev accM : Memref sig .tc .vmem S2048x1 .f32 := Memref.whole cc0_scratch0
abbrev accV : View sig .tc .vmem S2048x1 .f32 := accM.view

/-- The core's scoped buffers that are no staging buffer: the scratch column, owned at some contents. -/
theorem scopedRest_eq (c : Dev nD) :
    (Pipeline.scopedRest spec0 c : sProp 𝕄) = iprop(∃ d, owns (c : Thread nD τ) accM fullShare d) := by
  rw [scopedRest0_eq]; simp only [accM, owns_whole]; try rfl

end Cert.KernelIdeal.Hand

end
-- ==== Proof.KIRunFirst.lean ====
/-
  The body at the first column block of a run (the first condition holds, the second does not).

  It stores the zero column into the scratch, loads the row block, the column block and the scratch, and stores the
  zero column plus the block's partial row sums back into the scratch. The output window's staging buffer is handed
  back as it was found. What the scratch holds afterwards is given as the list of the two stores, last first.
-/
import proofs.«164351_j84774064488939_1_alg».proof.Proof.KIEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body's triple at a first column block: from the two input blocks in their staging memrefs, the output's
    staging memref at any contents `xi2` and the scratch at some contents, it runs to the inputs as they were, the
    output's memref untouched and the scratch with the pieces `LS` written, which the run finds. -/
noncomputable def runFirst (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : atFirst i) (hc1 : ¬atLast i) (x0 : Vec F S2048x128 .f32) (x1 : Vec F S512x128 .f32) :
    { LS : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc0__row_sum_kernel i arg2 harg2 arg3 harg3 arg4 harg4 arg5 harg5) K } := by
  refine ⟨?_, fun xi2 E K => ?run⟩
  case run =>
    simp only [cc0__row_sum_kernel_eq_skeleton]; unfold cc0__row_sum_kernel_skel
    simp only [k0_part1_eq_skeleton]; unfold k0_part1_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KIRunMiddle.lean ====
/-
  The body at a column block that is neither the first nor the last of its run (neither condition holds).

  It loads the row block, the column block and the scratch, and stores the scratch's column plus the block's partial
  row sums back into the scratch. The output window's staging buffer is handed back as it was found.
-/
import proofs.«164351_j84774064488939_1_alg».proof.Proof.KIRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body's triple at a middle column block: from the two input blocks, the output's staging memref at any
    contents `xi2` and the scratch at the column `xs` the point before left, it runs to the inputs as they were, the
    output's memref untouched and the scratch with the pieces `LS` written, which the run finds. -/
noncomputable def runMiddle (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : ¬atLast i) (x0 : Vec F S2048x128 .f32) (x1 : Vec F S512x128 .f32) (xs : Vec F S2048x1 .f32) :
    { LS : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc0__row_sum_kernel i arg2 harg2 arg3 harg3 arg4 harg4 arg5 harg5) K } := by
  refine ⟨?_, fun xi2 E K => ?run⟩
  case run =>
    simp only [cc0__row_sum_kernel_eq_skeleton]; unfold cc0__row_sum_kernel_skel
    simp only [k0_part1_eq_skeleton]; unfold k0_part1_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KIRunLast.lean ====
/-
  The body at the last column block of a run (the second condition holds, the first does not).

  It loads the row block, the column block and the scratch, stores the scratch's column plus the block's partial row
  sums back into the scratch, then loads the scratch and the output's staging buffer and stores the scratch's finished
  column into the output's staging buffer.
-/
import proofs.«164351_j84774064488939_1_alg».proof.Proof.KIRunMiddle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body's triple at a last column block: from the two input blocks, the output's staging memref at anything and
    the scratch at the column `xs` the point before left, it runs to the inputs as they were, the output's memref with
    the pieces `L2` written and the scratch with the pieces `LS` written; the run finds both lists. -/
noncomputable def runLast (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : atLast i) (x0 : Vec F S2048x128 .f32) (x1 : Vec F S512x128 .f32) (xs : Vec F S2048x1 .f32) :
    Σ' (L2 : List (View.Piece (Elt F) S2048x1 .f32)), { LS : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__row_sum_kernel i arg2 harg2 arg3 harg3 arg4 harg4 arg5 harg5) K } := by
  refine ⟨?_, ?_, fun E K => ?run⟩
  case run =>
    simp only [cc0__row_sum_kernel_eq_skeleton]; unfold cc0__row_sum_kernel_skel
    simp only [k0_part1_eq_skeleton]; unfold k0_part1_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KIData.lean ====
/-
  What the scratch column and the output window hold after each grid point, and the pipeline's proof data.

  Each run leaves the scratch as a list of whole-column stores; read back, that is one column (`accFirst`, `accMiddle`,
  `accLast`), and at a last column block the output's staging buffer likewise (`outLast`). `outsAt0` walks the grid:
  after point n the scratch holds the case's column, computed from the point's two input blocks and (away from a first
  column block) from the column the point before left. The region invariant is the scratch owned at that column; before
  the first point it is the scratch at anything.
-/
import proofs.«164351_j84774064488939_1_alg».proof.Proof.KIRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves, read back -/

/-- The stores of a first column block cover the scratch. -/
theorem accCover_first (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : atFirst i) (hc1 : ¬atLast i) (x0 : Vec F S2048x128 .f32) (x1 : Vec F S512x128 .f32) (y : S2048x1.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S2048x1.size (by sl_kernel_rfl) y

/-- What a first column block leaves in the scratch. -/
def accFirst (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : atFirst i) (hc1 : ¬atLast i) (x0 : Vec F S2048x128 .f32) (x1 : Vec F S512x128 .f32) : Vec F S2048x1 .f32 :=
  accV.read (Elt F) (accV.writes (Elt F) accV.junk (runFirst c i arg2 harg2 arg3 harg3 arg4 harg4 arg5 harg5 hc0 hc1 x0 x1).1)

/-- The store of a middle column block covers the scratch. -/
theorem accCover_middle (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : ¬atLast i) (x0 : Vec F S2048x128 .f32) (x1 : Vec F S512x128 .f32) (xs : Vec F S2048x1 .f32) (y : S2048x1.Idx) :
    ∃ pc ∈ (runMiddle c i arg2 harg2 arg3 harg3 arg4 harg4 arg5 harg5 hc0 hc1 x0 x1 xs).1, y ∈ pc.1.set :=
  View.cover_of_tiledL (runMiddle c i arg2 harg2 arg3 harg3 arg4 harg4 arg5 harg5 hc0 hc1 x0 x1 xs).1 S2048x1.size (by sl_kernel_rfl) y

/-- What a middle column block leaves in the scratch. -/
def accMiddle (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : ¬atLast i) (x0 : Vec F S2048x128 .f32) (x1 : Vec F S512x128 .f32) (xs : Vec F S2048x1 .f32) : Vec F S2048x1 .f32 :=
  accV.read (Elt F) (accV.writes (Elt F) accV.junk (runMiddle c i arg2 harg2 arg3 harg3 arg4 harg4 arg5 harg5 hc0 hc1 x0 x1 xs).1)

/-- The store of a last column block into the output's staging buffer covers it. -/
theorem outCover_last (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : atLast i) (x0 : Vec F S2048x128 .f32) (x1 : Vec F S512x128 .f32) (xs : Vec F S2048x1 .f32) (y : S2048x1.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S2048x1.size (by sl_kernel_rfl) y

/-- What a last column block leaves in the output's staging buffer. -/
def outLast (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : atLast i) (x0 : Vec F S2048x128 .f32) (x1 : Vec F S512x128 .f32) (xs : Vec F S2048x1 .f32) : Vec F S2048x1 .f32 :=
  outV.read (Elt F) (outV.writes (Elt F) outV.junk (runLast c i arg2 harg2 arg3 harg3 arg4 harg4 arg5 harg5 hc0 hc1 x0 x1 xs).1)

/-- The store of a last column block into the scratch covers it. -/
theorem accCover_last (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : atLast i) (x0 : Vec F S2048x128 .f32) (x1 : Vec F S512x128 .f32) (xs : Vec F S2048x1 .f32) (y : S2048x1.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S2048x1.size (by sl_kernel_rfl) y

/-- What a last column block leaves in the scratch. -/
def accLast (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : atLast i) (x0 : Vec F S2048x128 .f32) (x1 : Vec F S512x128 .f32) (xs : Vec F S2048x1 .f32) : Vec F S2048x1 .f32 :=
  accV.read (Elt F) (accV.writes (Elt F) accV.junk (runLast c i arg2 harg2 arg3 harg3 arg4 harg4 arg5 harg5 hc0 hc1 x0 x1 xs).2.1)

/-! ## Point by point -/

/-- THE ACCUMULATION. After the body at position `n`: (the output window's staging contents, the scratch column). The
    scratch column is the case's, from the point's input blocks and, away from a first column block, the column the
    point before left. The output's contents are named only at a last column block (what the body stores there);
    elsewhere the window is idle and not written back, nothing reads the name, and it is set to the scratch column. -/
def outsAt0 (c : Dev nD) : (n : ℕ) → n < cfg0.N → Vec F S2048x1 .f32 × Vec F S2048x1 .f32
  | 0, hn =>
    (accFirst c (grid0.coords ⟨0, hn⟩) (rowM ⟨0, hn⟩) (rowM_whole ⟨0, hn⟩) (colM ⟨0, hn⟩) (colM_whole ⟨0, hn⟩) (outM ⟨0, hn⟩) (outM_whole ⟨0, hn⟩) accM (Memref.isWhole_whole _) ((atFirst_iff ⟨0, hn⟩).mpr (Nat.zero_mod _)) (fun h => (fun h => by (try dsimp only at h); omega) ((atLast_iff ⟨0, hn⟩).mp h)) (iblk m c 0 ⟨0, hn⟩) (iblk m c 1 ⟨0, hn⟩),
     accFirst c (grid0.coords ⟨0, hn⟩) (rowM ⟨0, hn⟩) (rowM_whole ⟨0, hn⟩) (colM ⟨0, hn⟩) (colM_whole ⟨0, hn⟩) (outM ⟨0, hn⟩) (outM_whole ⟨0, hn⟩) accM (Memref.isWhole_whole _) ((atFirst_iff ⟨0, hn⟩).mpr (Nat.zero_mod _)) (fun h => (fun h => by (try dsimp only at h); omega) ((atLast_iff ⟨0, hn⟩).mp h)) (iblk m c 0 ⟨0, hn⟩) (iblk m c 1 ⟨0, hn⟩))
  | n + 1, hn =>
    if h0 : (n + 1) % 32 = 0 then
      (accFirst c (grid0.coords ⟨n + 1, hn⟩) (rowM ⟨n + 1, hn⟩) (rowM_whole ⟨n + 1, hn⟩) (colM ⟨n + 1, hn⟩) (colM_whole ⟨n + 1, hn⟩) (outM ⟨n + 1, hn⟩) (outM_whole ⟨n + 1, hn⟩) accM (Memref.isWhole_whole _) ((atFirst_iff ⟨n + 1, hn⟩).mpr h0) (fun h => (fun h => by (try dsimp only at h); omega) ((atLast_iff ⟨n + 1, hn⟩).mp h)) (iblk m c 0 ⟨n + 1, hn⟩) (iblk m c 1 ⟨n + 1, hn⟩),
       accFirst c (grid0.coords ⟨n + 1, hn⟩) (rowM ⟨n + 1, hn⟩) (rowM_whole ⟨n + 1, hn⟩) (colM ⟨n + 1, hn⟩) (colM_whole ⟨n + 1, hn⟩) (outM ⟨n + 1, hn⟩) (outM_whole ⟨n + 1, hn⟩) accM (Memref.isWhole_whole _) ((atFirst_iff ⟨n + 1, hn⟩).mpr h0) (fun h => (fun h => by (try dsimp only at h); omega) ((atLast_iff ⟨n + 1, hn⟩).mp h)) (iblk m c 0 ⟨n + 1, hn⟩) (iblk m c 1 ⟨n + 1, hn⟩))
    else
      if h1 : (n + 1) % 32 = 31 then
        (outLast c (grid0.coords ⟨n + 1, hn⟩) (rowM ⟨n + 1, hn⟩) (rowM_whole ⟨n + 1, hn⟩) (colM ⟨n + 1, hn⟩) (colM_whole ⟨n + 1, hn⟩) (outM ⟨n + 1, hn⟩) (outM_whole ⟨n + 1, hn⟩) accM (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (outsAt0 c n (Nat.lt_of_succ_lt hn)).2,
         accLast c (grid0.coords ⟨n + 1, hn⟩) (rowM ⟨n + 1, hn⟩) (rowM_whole ⟨n + 1, hn⟩) (colM ⟨n + 1, hn⟩) (colM_whole ⟨n + 1, hn⟩) (outM ⟨n + 1, hn⟩) (outM_whole ⟨n + 1, hn⟩) accM (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (outsAt0 c n (Nat.lt_of_succ_lt hn)).2)
      else
        (accMiddle c (grid0.coords ⟨n + 1, hn⟩) (rowM ⟨n + 1, hn⟩) (rowM_whole ⟨n + 1, hn⟩) (colM ⟨n + 1, hn⟩) (colM_whole ⟨n + 1, hn⟩) (outM ⟨n + 1, hn⟩) (outM_whole ⟨n + 1, hn⟩) accM (Memref.isWhole_whole _) (fun h => h0 ((atFirst_iff ⟨n + 1, hn⟩).mp h)) (fun h => h1 ((atLast_iff ⟨n + 1, hn⟩).mp h)) (iblk m c 0 ⟨n + 1, hn⟩) (iblk m c 1 ⟨n + 1, hn⟩) (outsAt0 c n (Nat.lt_of_succ_lt hn)).2,
         accMiddle c (grid0.coords ⟨n + 1, hn⟩) (rowM ⟨n + 1, hn⟩) (rowM_whole ⟨n + 1, hn⟩) (colM ⟨n + 1, hn⟩) (colM_whole ⟨n + 1, hn⟩) (outM ⟨n + 1, hn⟩) (outM_whole ⟨n + 1, hn⟩) accM (Memref.isWhole_whole _) (fun h => h0 ((atFirst_iff ⟨n + 1, hn⟩).mp h)) (fun h => h1 ((atLast_iff ⟨n + 1, hn⟩).mp h)) (iblk m c 0 ⟨n + 1, hn⟩) (iblk m c 1 ⟨n + 1, hn⟩) (outsAt0 c n (Nat.lt_of_succ_lt hn)).2)

/-- `outsAt0` at a first column block. -/
theorem outsAt0_first (c : Dev nD) (t : Fin cfg0.N) (h0 : t.val % 32 = 0) (h1 : ¬t.val % 32 = 31) :
    outsAt0 m c t.val t.isLt =
      (accFirst c (grid0.coords t) (rowM t) (rowM_whole t) (colM t) (colM_whole t) (outM t) (outM_whole t) accM (Memref.isWhole_whole _) ((atFirst_iff t).mpr h0) (fun h => h1 ((atLast_iff t).mp h)) (iblk m c 0 t) (iblk m c 1 t),
       accFirst c (grid0.coords t) (rowM t) (rowM_whole t) (colM t) (colM_whole t) (outM t) (outM_whole t) accM (Memref.isWhole_whole _) ((atFirst_iff t).mpr h0) (fun h => h1 ((atLast_iff t).mp h)) (iblk m c 0 t) (iblk m c 1 t)) := by
  obtain ⟨n, hn⟩ := t
  cases n with
  | zero => exact rfl
  | succ n => exact (dif_pos h0).trans rfl

/-- `outsAt0` at a middle column block, over the column the point before left. -/
theorem outsAt0_middle (c : Dev nD) (t : Fin cfg0.N) (h0 : ¬t.val % 32 = 0) (h1 : ¬t.val % 32 = 31) :
    outsAt0 m c t.val t.isLt =
      (accMiddle c (grid0.coords t) (rowM t) (rowM_whole t) (colM t) (colM_whole t) (outM t) (outM_whole t) accM (Memref.isWhole_whole _) (fun h => h0 ((atFirst_iff t).mp h)) (fun h => h1 ((atLast_iff t).mp h)) (iblk m c 0 t) (iblk m c 1 t) (outsAt0 m c (t.val - 1) (Nat.lt_of_le_of_lt (Nat.sub_le _ _) t.isLt)).2,
       accMiddle c (grid0.coords t) (rowM t) (rowM_whole t) (colM t) (colM_whole t) (outM t) (outM_whole t) accM (Memref.isWhole_whole _) (fun h => h0 ((atFirst_iff t).mp h)) (fun h => h1 ((atLast_iff t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last column block, over the column the point before left. -/
theorem outsAt0_last (c : Dev nD) (t : Fin cfg0.N) (h0 : ¬t.val % 32 = 0) (h1 : t.val % 32 = 31) :
    outsAt0 m c t.val t.isLt =
      (outLast c (grid0.coords t) (rowM t) (rowM_whole t) (colM t) (colM_whole t) (outM t) (outM_whole t) accM (Memref.isWhole_whole _) (fun h => h0 ((atFirst_iff t).mp h)) ((atLast_iff t).mpr h1) (iblk m c 0 t) (iblk m c 1 t) (outsAt0 m c (t.val - 1) (Nat.lt_of_le_of_lt (Nat.sub_le _ _) t.isLt)).2,
       accLast c (grid0.coords t) (rowM t) (rowM_whole t) (colM t) (colM_whole t) (outM t) (outM_whole t) accM (Memref.isWhole_whole _) (fun h => h0 ((atFirst_iff t).mp h)) ((atLast_iff t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the core's scoped rest (the scratch at anything); afterwards the scratch
    owned at the column the point before left. -/
def PhiS (c : Dev nD) : (n : ℕ) → n ≤ cfg0.N → sProp 𝕄
  | 0, _ => Pipeline.scopedRest spec0 c
  | n + 1, hn => owns (c : Thread nD τ) (Memref.whole cc0_scratch0) fullShare (outsAt0 m c n hn).2

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) accM fullShare (outsAt0 m c n hn).2 := rfl

theorem PhiS_pos (c : Dev nD) (n : ℕ) (h : n ≤ cfg0.N) (hz : n ≠ 0) :
    PhiS m c n h = owns (c : Thread nD τ) accM fullShare (outsAt0 m c (n - 1) (by omega)).2 := by
  cases n with
  | zero => exact absurd rfl hz
  | succ n => rfl

/-! ## The pipeline's proof data -/

/-- The proof data of the pipeline on core `c`: the arrays as the region finds them; after the body at point `t` each
    input's buffer at its block and the output's at `outsAt0`'s first component; the invariant `PhiS`; nothing owed.
    The two input windows read one array, each at half the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the launch hands the region is the invariant before the first point. -/
theorem hin (c : Dev nD) : Pipeline.scopedRest spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scoped rest back: the column's name is forgotten. -/
theorem Phi_out (c : Dev nD) (t : Fin (cfg0.N + 1)) (ht : t.val ≠ 0) : (dats m 0 c).Φ t ⊢ Pipeline.scopedRest spec0 c := by
  rw [show (dats m 0 c).Φ t = PhiS m c t.val (Nat.le_of_lt_succ t.isLt) from rfl, PhiS_pos m c _ _ ht, scopedRest_eq]
  iintro HS
  iexists _; iexact HS

/-- The same after the last point. -/
theorem hout (c : Dev nD) : (dats m 0 c).Φ (Fin.last cfg0.N) ⊢ Pipeline.scopedRest spec0 c :=
  Phi_out m c _ (by rw [Fin.val_last]; have : cfg0.N = 256 := N_0; omega)

end Cert.KernelIdeal.Hand

end
-- ==== Proof.KIBody.lean ====
/-
  The body obligation: at every grid point the kernel body, called on the windows' current staging memrefs, takes the
  region invariant and the buffers as the pipeline hands them to the invariant at the next point and the buffers as the
  proof data says it leaves them.

  The closed forms of the two conditions say which of the three cases a point is in. The two input buffers hold their
  blocks at every point. The output's buffer is handed back untouched away from a last column block (the window is idle
  there and not written back) and holds the finished column at one. The scratch goes in at anything at the very first
  point and at the column the point before left at every other, and comes out at this point's column.
-/
import proofs.«164351_j84774064488939_1_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (rowM t) fullShare ((dats m 0 c).before 0 t d))
    ∗ (∃ d, owns (c : Thread nD τ) (colM t) fullShare ((dats m 0 c).before 1 t d))
    ∗ (∃ d, owns (c : Thread nD τ) (outM t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (rowM t) fullShare ((dats m 0 c).after 0 t) from by
    unfold Dat.leavesExact; rw [live0 t], after0_0]
  rw [show (dats m 0 c).leavesExact 1 t = owns (c : Thread nD τ) (colM t) fullShare ((dats m 0 c).after 1 t) from by
    unfold Dat.leavesExact; rw [live1 t], after0_1]
  by_cases h0 : t.val % 32 = 0
  · have h1 : ¬t.val % 32 = 31 := by omega
    rw [Dat.leavesExact_idle (dats m 0 c) 2 t (idle2_of_not_last t (fun h => h1 ((atLast_iff t).mp h))) (noFlush2_of_not_last t (fun h => h1 ((atLast_iff t).mp h)))]
    rw [outsAt0_first m c t h0 h1]
    unfold accFirst; (try dsimp only)
    by_cases hz : t.val = 0
    · rw [PhiS_castSucc m c t, PhiS_zero m c _ _ hz, scopedRest_eq]
      iintro ⟨HS, Ho, ⟨%d0, H0⟩, ⟨%d1, H1⟩, ⟨%d2, H2⟩⟩
      iapply ((runFirst c (grid0.coords t) _ _ _ _ _ _ _ _ ((atFirst_iff t).mpr h0) (fun h => h1 ((atLast_iff t).mp h)) (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS]
      · unfold owns; iexists _; isplitr
        swap; · iexact HS
        ipureintro; exact View.read_writes_of_cover _ _ _ _ _ (accCover_first c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS, Ho, ⟨%d0, H0⟩, ⟨%d1, H1⟩, ⟨%d2, H2⟩⟩
      iapply ((runFirst c (grid0.coords t) _ _ _ _ _ _ _ _ ((atFirst_iff t).mpr h0) (fun h => h1 ((atLast_iff t).mp h)) (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS]
      · unfold owns; iexists _; isplitr
        swap; · iexact HS
        ipureintro; exact View.read_writes_of_cover _ _ _ _ _ (accCover_first c _ _ _ _ _ _ _ _ _ _ _ _ _)
      isplitl [Ho]; · iexact Ho
      isplitl [H0]; · iexact H0
      isplitl [H1]; · iexact H1
      iexists _; iexact H2
  · have hz : t.val ≠ 0 := fun e => h0 (by rw [e])
    by_cases h1 : t.val % 32 = 31
    · rw [show (dats m 0 c).leavesExact 2 t = owns (c : Thread nD τ) (outM t) fullShare ((dats m 0 c).after 2 t) from by
        unfold Dat.leavesExact; rw [live2_of_last t ((atLast_iff t).mpr h1)], after0_2]
      rw [outsAt0_last m c t h0 h1]
      unfold outLast accLast; (try dsimp only)
      rw [PhiS_castSucc m c t, PhiS_pos m c _ _ hz]
      iintro ⟨HS, Ho, ⟨%d0, H0⟩, ⟨%d1, H1⟩, ⟨%d2, H2⟩⟩
      iapply ((runLast c (grid0.coords t) _ _ _ _ _ _ _ _ (fun h => h0 ((atFirst_iff t).mp h)) ((atLast_iff t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS]
      · unfold owns; iexists _; isplitr
        swap; · iexact HS
        ipureintro; exact View.read_writes_of_cover _ _ _ _ _ (accCover_last c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (outCover_last c _ _ _ _ _ _ _ _ _ _ _ _ _ _)
    · rw [Dat.leavesExact_idle (dats m 0 c) 2 t (idle2_of_not_last t (fun h => h1 ((atLast_iff t).mp h))) (noFlush2_of_not_last t (fun h => h1 ((atLast_iff t).mp h)))]
      rw [outsAt0_middle m c t h0 h1]
      unfold accMiddle; (try dsimp only)
      rw [PhiS_castSucc m c t, PhiS_pos m c _ _ hz]
      iintro ⟨HS, Ho, ⟨%d0, H0⟩, ⟨%d1, H1⟩, ⟨%d2, H2⟩⟩
      iapply ((runMiddle c (grid0.coords t) _ _ _ _ _ _ _ _ (fun h => h0 ((atFirst_iff t).mp h)) (fun h => h1 ((atLast_iff t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS]
      · unfold owns; iexists _; isplitr
        swap; · iexact HS
        ipureintro; exact View.read_writes_of_cover _ _ _ _ _ (accCover_middle c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIAround.lean ====
/-
  The run of @main around the kernel region, for any proof data of the region.

  The region's three windows stand on two arrays: both input windows read the feature matrix (by blocks of 2048 rows
  and by blocks of 512 rows), the output window writes the row sums. The region theorem that admits this holds the
  feature matrix twice, once per window, at the two halves of the full share; so at the region's entry the whole
  array is split in two, and at its exit, where both halves still hold the launch contents, it is joined again for
  the host lines that follow (which read the feature matrix and the row sums and write neither). The region's
  invariant is the kernel's scratch column alone. The result: every weakly fair execution terminates with the
  feature matrix as launched and every buffer that bypasses the region at what the host lines compute from the
  region's exit contents.
-/
import proofs.«164351_j84774064488939_1_alg».proof.Proof.Gen.KernelIdeal.Launch
import proofs.«164351_j84774064488939_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents around the region

@main is the region followed by three stretches of host lines. Two of the region's three windows read the SAME array
(the feature matrix, once by blocks of 2048 rows and once by blocks of 512 rows); the third writes the row sums. So
the region touches two distinct arrays, and the host lines after it read both. -/

/-- The host lines after the region, stretch by stretch. -/
abbrev tailOps : List (List (HloOp τ sig (Elt F))) := [hostOps1, hostOps1_1, hostOps1_2]

/-- The two distinct arrays behind the three windows: the feature matrix and the row sums. -/
abbrev win2 : Fin 2 → Pipeline.WinSpec sig grid0.rank :=
  fun | 0 => spec0 0 | 1 => spec0 2 | ⟨_ + 2, h⟩ => absurd h (Nat.not_lt.2 (Nat.le_add_left _ _))

/-- Core c's buffer contents when the region is entered: the launch contents (no host line precedes the region). -/
abbrev E0 (c : Dev nD) : Valuation τ sig (Elt F) := StableHlo.after (List.flatten []) (fun b => m (c, b))
/-- The same read at a TensorCore reference. -/
abbrev E (c : Dev nD) (b : Ref sig .tc) : Buf (Elt F) ((c : Thread nD τ).loc b) := E0 m c (Proc.devRef .tc b)

variable (dats : (p : Fin 1) → (c : Dev nD) → Dat τ (Elt F) Unit ℕ (UR sig nD τ) ℕ (cfgs p) c)

/-- What the two arrays hold when the region is left: the feature matrix as the proof data's first window ends with
    it, the row sums as its third window does. -/
def exitA (c : Dev nD) : (w : Fin 2) → Buf (Elt F) ((win2 w).arr.view.loc (c.tc : Thread nD τ)) :=
  fun | ⟨0, _⟩ => (dats 0 c).arrAt 0 cfg0.N | ⟨1, _⟩ => (dats 0 c).arrAt 2 cfg0.N
/-- Core c's buffer contents when the region is left. -/
def exitV (c : Dev nD) : Valuation τ sig (Elt F) := Pipeline.withArrays win2 c (E0 m c) (exitA dats c)
/-- Core c's buffer contents after the host lines that follow the region. -/
def endV (c : Dev nD) (b : Ref sig .tc) : Buf (Elt F) ((c.tc : Thread nD τ).loc b) :=
  StableHlo.after (tailOps (F := F)).flatten (exitV m dats c) (Proc.devRef .tc b)

theorem win2_inj : Function.Injective (Pipeline.arrRef win2) := by decide

theorem hmain : Pipeline.HMainK (Ix := Unit) (Name := ℕ) (U := UR sig nD τ) (Lvl := ℕ) cfgs 0 defs₀ Variants.none m (main (F := F)) (E m)
      (fun _ => Pipeline.chain ((tailOps (F := F)).map StableHlo.seq)) :=
  Pipeline.hmain_around cfgs 0 defs₀ Variants.none m main [] tailOps (by simp only [List.Forall])
    (by simp only [List.Forall]) main_chain

/-! ## The shares of the feature matrix

Both input windows read the feature matrix, so the region holds it twice, at the two halves of the full share. -/

theorem share0 (hq0 : ∀ c, (dats 0 c).q 0 = fullShare.left) (c : Dev nD) : (dats 0 c).share 0 = fullShare.left := by
  unfold Dat.share; exact (if_neg (by decide)).trans (hq0 c)
theorem share1 (hq1 : ∀ c, (dats 0 c).q 1 = fullShare.right) (c : Dev nD) : (dats 0 c).share 1 = fullShare.right := by
  unfold Dat.share; exact (if_neg (by decide)).trans (hq1 c)
theorem share2 (c : Dev nD) : (dats 0 c).share 2 = fullShare := by
  unfold Dat.share; exact if_pos (by decide)

/-- The distinct arrays behind the windows are the feature matrix and the row sums. -/
theorem arrs_eq : Finset.univ.image (Pipeline.arrRef spec0) = [main_arg0, main_v0].toFinset := by decide

/-- The proof data's arrays, window by window: the feature matrix at its two half shares and the row sums whole. -/
theorem arrays_three (hq0 : ∀ c, (dats 0 c).q 0 = fullShare.left) (hq1 : ∀ c, (dats 0 c).q 1 = fullShare.right) (c : Dev nD)
    (G : (w : Fin cfg0.W) → Buf (Elt F) ((cfg0.win w).arr.view.loc (c.tc : Thread nD τ))) :
    ((dats 0 c).arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_v0) ↦{fullShare} G 2)) := by
  unfold Dat.arrays
  rw [bigSep_W0, (arr_whole0 0).set_eq_univ, (arr_whole0 2).set_eq_univ, share0 dats hq0 c, share1 dats hq1 c, share2 dats c]

/-- The distinct arrays held whole, one by one. -/
theorem arrBufs_two (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v0) ↦{fullShare} W main_v0)) :=
  bigSep_eq_bigSepL_of_eq [main_arg0, main_v0] arrs_eq (by decide) _

/-- At entry: the feature matrix held whole splits into the two halves the input windows hold. -/
theorem entry_split (hq0 : ∀ c, (dats 0 c).q 0 = fullShare.left) (hq1 : ∀ c, (dats 0 c).q 1 = fullShare.right)
    (hA : ∀ c w, (dats 0 c).A w = E m c (Pipeline.arrRef spec0 w)) (c : Dev nD) :
    (Pipeline.arrBufs spec0 c (E m c) : sProp 𝕄) ⊢ (dats 0 c).arrays fun w => (dats 0 c).arrAt w 0 := by
  rw [arrays_three dats hq0 hq1 c]
  rw [arrBufs_two]
  rw [show (dats 0 c).arrAt 0 0 = E m c main_arg0 from hA c 0, show (dats 0 c).arrAt 1 0 = E m c main_arg0 from hA c 1,
    show (dats 0 c).arrAt 2 0 = E m c main_v0 from hA c 2]
  iintro ⟨H0, H2⟩
  ihave H0 := (pointsTo_share (PosShare.mem_left_op_right fullShare)).1 $$ H0
  icases H0 with ⟨Hl, Hr⟩
  isplitl [Hl]; · iexact Hl
  isplitl [Hr]; · iexact Hr
  iexact H2

/-! ## The host lines after the region

They run within the two arrays and the buffers that bypass the region; none of them writes either array. For them the
feature matrix is held whole again: its two halves, which hold the same contents, are rejoined at the region's exit
and split again once the lines have run. -/

/-- The two arrays are unscoped. -/
theorem win2_unscoped : ∀ w, (Pipeline.arrRef win2 w).isScoped = false := by decide

/-- The buffers that bypass the region are the same whether the windows' arrays are counted once or twice. -/
theorem arrs2_eq : Finset.univ.image (Pipeline.arrRef win2) = Finset.univ.image (Pipeline.arrRef spec0) := by decide

theorem rest2_eq (c : Dev nD) (W : (b : Ref sig .tc) → Buf (Elt F) ((c.tc : Thread nD τ).loc b)) :
    (Pipeline.unscopedRestP Pipeline.Prefetch.none win2 c W : sProp 𝕄) = Pipeline.unscopedRestP Pipeline.Prefetch.none spec0 c W := by
  unfold Pipeline.unscopedRestP; rw [arrs2_eq]

/-- The two arrays held whole, one by one. -/
theorem arrPts2 (c : Dev nD) (A : (w : Fin 2) → Buf (Elt F) ((win2 w).arr.view.loc (c.tc : Thread nD τ))) :
    (Pipeline.arrPts win2 c A : sProp 𝕄)
      = iprop((((c.tc : Thread nD τ).loc main_arg0) ↦{fullShare} A 0) ∗ (((c.tc : Thread nD τ).loc main_v0) ↦{fullShare} A 1)) :=
  bigSep_univ_eq_bigSepL [(0 : Fin 2), (1 : Fin 2)] (by decide) (by decide) _

theorem hostOps1_fresh : (hostOps1 : List (HloOp τ sig (Elt F))).Forall fun op => op.fresh = ∅ := by
  simp only [List.Forall]; rfl
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem tail_sub : ∀ ops ∈ (tailOps : List (List (HloOp τ sig (Elt F)))), ∀ op ∈ ops,
    op.bufs ⊆ Pipeline.tailRefs sig Pipeline.Prefetch.none win2 := by
  rw [Pipeline.tailRefs_none win2 win2_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Each line writes its own result buffer, which is neither the feature matrix nor the row sums. -/
theorem hostOps1_keeps : (hostOps1 : List (HloOp τ sig (Elt F))).Forall fun op => ∀ w, Proc.devRef .tc (Pipeline.arrRef win2 w) ∉ op.writes := by
  simp only [List.Forall]
  intro w; fin_cases w <;> simp only [StableHlo.reshape_writes, Finset.mem_singleton] <;> exact StableHlo.devRef_ne_of_ne (by decide)
theorem hostOps1_1_keeps : (hostOps1_1 : List (HloOp τ sig (Elt F))).Forall fun op => ∀ w, Proc.devRef .tc (Pipeline.arrRef win2 w) ∉ op.writes := by
  simp only [List.Forall]
  repeat' constructor
  all_goals intro w; fin_cases w <;> simp only [StableHlo.TRef.unary, StableHlo.TRef.binary, StableHlo.unary_writes, StableHlo.binary_writes, Finset.mem_singleton] <;> exact StableHlo.devRef_ne_of_ne (by decide)
theorem hostOps1_2_keeps : (hostOps1_2 : List (HloOp τ sig (Elt F))).Forall fun op => ∀ w, Proc.devRef .tc (Pipeline.arrRef win2 w) ∉ op.writes := by
  simp only [List.Forall]
  repeat' constructor
  all_goals intro w; fin_cases w <;> simp only [StableHlo.nullary_writes, StableHlo.unary_writes, StableHlo.binary_writes, Finset.mem_singleton] <;> exact StableHlo.devRef_ne_of_ne (by decide)

theorem tail_keeps : ∀ ops ∈ (tailOps : List (List (HloOp τ sig (Elt F)))), ∀ op ∈ ops,
    ∀ w, Proc.devRef .tc (Pipeline.arrRef win2 w) ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-- Both input windows end with the feature matrix as they found it, so the two halves hold the same contents. -/
theorem exit_same (hA : ∀ c w, (dats 0 c).A w = E m c (Pipeline.arrRef spec0 w)) (c : Dev nD) :
    (dats 0 c).arrAt 1 cfg0.N = (dats 0 c).arrAt 0 cfg0.N :=
  ((dats 0 c).arrAt_in 1 rfl _).trans ((hA c 1).trans (((dats 0 c).arrAt_in 0 rfl _).trans (hA c 0)).symm)

set_option backward.isDefEq.respectTransparency.types false in
/-- From the region's exit the host lines run, and hand back the arrays as the region left them and the bypassing
    buffers at what the lines computed. -/
theorem exit_tail (hq0 : ∀ c, (dats 0 c).q 0 = fullShare.left) (hq1 : ∀ c, (dats 0 c).q 1 = fullShare.right)
    (hA : ∀ c w, (dats 0 c).A w = E m c (Pipeline.arrRef spec0 w)) (c : Dev nD) (Q' : PUnit → sProp 𝕄) :
    iprop((iprop((dats 0 c).arrays (fun w => (dats 0 c).arrAt w cfg0.N) ∗ Pipeline.unscopedRestP Pipeline.Prefetch.none spec0 c (endV m dats c)) -∗ Q' ⟨⟩)
        ∗ boundary (c.tc : Thread nD τ) ∗ (dats 0 c).arrays (fun w => (dats 0 c).arrAt w cfg0.N)
        ∗ Pipeline.unscopedRestP Pipeline.Prefetch.none spec0 c (E m c))
      ⊢ wp frame (wpE (Pipeline.defs (fun q => (cfgs q).toPCfg (Val := Elt F)) defs₀) (Variants.lift Variants.none) (c.tc : Thread nD τ) none) Set.univ
          (Pipeline.chain ((tailOps (F := F)).map StableHlo.seq)) Q' := by
  rw [arrays_three dats hq0 hq1 c, exit_same m dats hA c]
  iintro ⟨Hk, Hb, ⟨Hl, Hr, H2⟩, HZ⟩
  ihave H0 := (pointsTo_share (PosShare.mem_left_op_right fullShare)).2 $$ [Hl Hr]
  · isplitl [Hl] <;> iassumption
  iapply (Pipeline.tail_seqs (fun q => (cfgs q).toPCfg (Val := Elt F)) defs₀ Variants.none Pipeline.Prefetch.none win2 win2_inj c (E0 m c) (exitA dats c)
    tailOps tail_sub tail_fresh tail_keeps Q')
  rw [arrPts2, rest2_eq, rest2_eq]
  isplitl [Hk]
  · iintro ⟨⟨H0, H2⟩, HZ'⟩
    iapply Hk
    ihave H0 := (pointsTo_share (PosShare.mem_left_op_right fullShare)).1 $$ H0
    icases H0 with ⟨Hl, Hr⟩
    isplitr [HZ']
    · isplitl [Hl]; · iexact Hl
      isplitl [Hr]; · iexact Hr
      iexact H2
    iexact HZ'
  isplitl [Hb]; · iexact Hb
  isplitl [H0 H2]
  · isplitl [H0]; · iexact H0
    iexact H2
  iexact HZ

set_option backward.isDefEq.respectTransparency.types false in
theorem run_around
    (hq0 : ∀ c, (dats 0 c).q 0 = fullShare.left) (hq1 : ∀ c, (dats 0 c).q 1 = fullShare.right)
    (hA : ∀ c w, (dats 0 c).A w = E m c (Pipeline.arrRef spec0 w))
    (howed : ∀ c t, (dats 0 c).owed t = 0)
    (hbody : ∀ c, BodyObligationLoose (dats 0 c) (defs₀ (F := F)) Variants.none () Set.univ)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) (s₀ m ρ) (fun r => ∀ c : Dev nD,
      (∀ b ∈ Pipeline.restRefsP sig Pipeline.Prefetch.none spec0, r.2.mem ((c.tc : Thread nD τ).loc b) = endV m dats c b)
      ∧ r.2.mem ((c.tc : Thread nD τ).loc main_arg0) = m ((c.tc : Thread nD τ).loc main_arg0)) := by
  classical
  exact Pipeline.θ_run_region_noSem_pf_tail (fun q => (cfgs q).toPCfg (Val := Elt F)) (fun q => (cfgs q).toPCfg_adm) dats () cellOf_inj (0 : Fin 1)
    winFacts₀0 (Pipeline.PreFacts.none _) emb₁ defs₀ Variants.none m ρ main
    (fun _ => Pipeline.chain ((tailOps (F := F)).map StableHlo.seq)) hbody block_pos0 arr_whole0 stage_whole0 howed
    (u₀ := initOf (Pipeline.cells cfgs cellOf_inj) (Pipeline.launchToks cfgs cellOf_inj))
    (hu₀ := .rfl)
    (V := E m) (hmain := hmain m)
    (hsplit := entry_split m dats hq0 hq1 hA)
    (hpf := fun _ k => k.elim0)
    (X := fun _ => iprop(emp)) (Y := fun _ => iprop(emp))
    (Z := fun c => Pipeline.unscopedRestP (Ix := Unit) (Name := ℕ) (U := UR sig nD τ) (Lvl := ℕ) Pipeline.Prefetch.none spec0 c (E m c))
    (Z' := fun c => Pipeline.unscopedRestP (Ix := Unit) (Name := ℕ) (U := UR sig nD τ) (Lvl := ℕ) Pipeline.Prefetch.none spec0 c (endV m dats c))
    (hX := fun c => by
      iintro H
      isplitr; · iempintro
      iexact H)
    (hin := fun c => (show _ ⊢ (Pipeline.scopedRest spec0 c : sProp 𝕄) from by iintro ⟨-, -, HR⟩; iexact HR).trans (hin c))
    (hout := fun c => (hout c).trans (by
      iintro H
      isplitr; · iempintro
      iexact H))
    (htail := exit_tail m dats hq0 hq1 hA)
    (QY := fun c s => ∀ b ∈ Pipeline.restRefsP sig Pipeline.Prefetch.none spec0, s.mem ((c.tc : Thread nD τ).loc b) = endV m dats c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (endV m dats c) s')
      isplitl [HU] <;> iassumption)
    (hQ := fun s h c => ⟨(h c).2.2, ((h c).1 0).trans (((dats 0 c).arrAt_in 0 rfl _).trans (hA c 0))⟩)

end Cert.KernelIdeal.Around

end
-- ==== Proof.KIResult.lean ====
/-
  What the run around the region delivers: the two arguments as launched, and the result as a function of them.

  The host lines after the region are read off their fold one by one: the roll of the feature matrix by half its
  rows (two slices and a concatenate), the sum of squared differences to it, the clamp and the Cauchy weight; the
  column of row sums read as a vector; the two logarithms, their means, and the sum. No line writes the index
  argument, and the region does not name it, so it ends as launched; the feature matrix is an input of the region
  and ends as launched too.
-/
import proofs.«164351_j84774064488939_1_alg».proof.Proof.KIAround
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-! ## What the host lines compute

The lines after the region take the feature matrix x and the region's column of row sums o. One chain forms, row by
row, the squared distance to the partner row as the sum of squared differences against the matrix rolled by half its
rows, clamps it at zero and takes the Cauchy weight (`pairTerm`); the other reads the column of row sums as a vector.
The loss is the mean of minus the logarithm of the first plus the mean of the logarithm of the second (`lossTail`). -/

/-- The feature matrix rolled by half its rows: its second half above its first. -/
def rolled (x : FVec F S16384x128 .f32) : FVec F S16384x128 .f32 :=
  concatenate S16384x128 0 [⟨S8192x128, extractStridedSlice S8192x128 ![8192, 0] x slices_S16384x128_S8192x128_8192_0⟩,
    ⟨S8192x128, extractStridedSlice S8192x128 ![0, 0] x slices_S16384x128_S8192x128_0_0⟩] concatenates_S8192x128_S8192x128_S16384x128_d0

/-- The partner weights: 1 / (max (Σ_d (x − rolled x)²) 0 + 1), row by row. -/
def pairTerm (x : FVec F S16384x128 .f32) : FVec F S16384 .f32 :=
  Host.divf (broadcastInDim S16384 ![] bcast_S_S16384 (constant S_ .f32 0x3F800000#32))
    (addf (maximumf (Host.reduceAdd (mulf (subf x (rolled x)) (subf x (rolled x))) (constant S_ .f32 0x00000000#32) reducesTo_S16384x128_S16384_d1 h_S_)
        (broadcastInDim S16384 ![] bcast_S_S16384 (constant S_ .f32 0x00000000#32)))
      (broadcastInDim S16384 ![] bcast_S_S16384 (constant S_ .f32 0x3F800000#32)))

/-- The loss from the partner weights p and the row sums s: mean (−log p) + mean (log s · 1). -/
def lossTail (p s : FVec F S16384 .f32) : FVec F S_ .f32 :=
  addf
    (Host.divf (Host.reduceAdd (Host.negf (Host.log p)) (constant S_ .f32 0x00000000#32) reducesTo_S16384_S_d0 h_S_) (constant S_ .f32 0x46800000#32))
    (Host.divf (Host.reduceAdd (mulf (Host.log s) (broadcastInDim S16384 ![] bcast_S_S16384 (constant S_ .f32 0x3F800000#32)))
        (constant S_ .f32 0x00000000#32) reducesTo_S16384_S_d0 h_S_) (constant S_ .f32 0x46800000#32))

/-! ## The exit contents of the two arrays -/

theorem exitV_arg0 (c : Dev nD) : exitV m dats c (Proc.devRef .tc main_arg0) = (dats 0 c).arrAt 0 cfg0.N :=
  Pipeline.withArrays_arr win2 win2_inj c (E0 m c) (exitA dats c) 0
theorem exitV_v0 (c : Dev nD) : exitV m dats c (Proc.devRef .tc main_v0) = (dats 0 c).arrAt 2 cfg0.N :=
  Pipeline.withArrays_arr win2 win2_inj c (E0 m c) (exitA dats c) 1

/-- The result buffer and the index argument bypass the region. -/
theorem v21_rest : main_v21 ∈ Pipeline.restRefsP sig Pipeline.Prefetch.none spec0 := by decide
theorem arg1_rest : main_arg1 ∈ Pipeline.restRefsP sig Pipeline.Prefetch.none spec0 := by decide

set_option maxHeartbeats 4000000 in
/-- The result after the host lines: the loss of the partner weights of the feature matrix and the region's row sums. -/
theorem endV_v21 (c : Dev nD) :
    endV m dats c main_v21
      = lossTail (pairTerm ((dats 0 c).arrAt 0 cfg0.N)) (shapeCast S16384 ((dats 0 c).arrAt 2 cfg0.N) shapeCasts_S16384x1_S16384) := by
  unfold endV
  simp only [tailOps, hostOps1, hostOps1_1, hostOps1_2, List.flatten_cons, List.flatten_nil, List.append_nil, List.cons_append, List.nil_append,
    StableHlo.TRef.unary, StableHlo.TRef.binary, StableHlo.TRef.toBuf, StableHlo.TRef.ofBuf, StableHlo.TRef.of, cast_eq]
  after_results_simp
  repeat (first
    | rw [StableHlo.unary_result] | rw [StableHlo.reshape_result]
    | (rw [StableHlo.unary_result_ne]; rotate_left; decide)
    | (rw [StableHlo.reshape_result_ne]; rotate_left; decide))
  rw [exitV_arg0, exitV_v0]
  unfold lossTail pairTerm rolled
  rfl

/-! ## The index argument ends as launched

No host line writes it and the region does not name it. -/

theorem hostOps1_skips : (hostOps1 : List (HloOp τ sig (Elt F))).Forall fun op => Proc.devRef .tc main_arg1 ∉ op.writes := by
  simp only [List.Forall]
  simp only [StableHlo.reshape_writes, Finset.mem_singleton]; exact StableHlo.devRef_ne_of_ne (by decide)
theorem hostOps1_1_skips : (hostOps1_1 : List (HloOp τ sig (Elt F))).Forall fun op => Proc.devRef .tc main_arg1 ∉ op.writes := by
  simp only [List.Forall]
  repeat' constructor
  all_goals simp only [StableHlo.TRef.unary, StableHlo.TRef.binary, StableHlo.unary_writes, StableHlo.binary_writes, Finset.mem_singleton] <;> exact StableHlo.devRef_ne_of_ne (by decide)
theorem hostOps1_2_skips : (hostOps1_2 : List (HloOp τ sig (Elt F))).Forall fun op => Proc.devRef .tc main_arg1 ∉ op.writes := by
  simp only [List.Forall]
  repeat' constructor
  all_goals simp only [StableHlo.nullary_writes, StableHlo.unary_writes, StableHlo.binary_writes, Finset.mem_singleton] <;> exact StableHlo.devRef_ne_of_ne (by decide)

theorem endV_arg1 (c : Dev nD) : endV m dats c main_arg1 = m ((c.tc : Thread nD τ).loc main_arg1) := by
  unfold endV
  rw [StableHlo.after_of_forall_not_mem _ _ fun op hop => ?_]
  · unfold exitV
    rw [Pipeline.withArrays_of_ne win2 c (E0 m c) (exitA dats c) main_arg1 (by decide)]
    rfl
  · obtain ⟨ops, hops, hop⟩ := List.mem_flatten.mp hop
    simp only [tailOps, List.mem_cons, List.mem_nil_iff, or_false] at hops
    rcases hops with rfl | rfl | rfl
    · exact (List.forall_iff_forall_mem.mp hostOps1_skips) op hop
    · exact (List.forall_iff_forall_mem.mp hostOps1_1_skips) op hop
    · exact (List.forall_iff_forall_mem.mp hostOps1_2_skips) op hop

/-- The frame: every weakly fair execution terminates, faulting nowhere, with both arguments as launched. -/
theorem frame_of
    (hq0 : ∀ c, (dats 0 c).q 0 = fullShare.left) (hq1 : ∀ c, (dats 0 c).q 1 = fullShare.right)
    (hA : ∀ c w, (dats 0 c).A w = E m c (Pipeline.arrRef spec0 w))
    (howed : ∀ c t, (dats 0 c).owed t = 0)
    (hbody : ∀ c, BodyObligationLoose (dats 0 c) (defs₀ (F := F)) Variants.none () Set.univ)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2, ((h c).1 main_arg1 arg1_rest).trans (endV_arg1 m dats c)⟩)
    (run_around m ρ dats hq0 hq1 hA howed hbody hin hout)

/-- The run with the result named: the loss of the partner weights of the launched feature matrix and of the row sums
    the region leaves. -/
theorem result_of
    (hq0 : ∀ c, (dats 0 c).q 0 = fullShare.left) (hq1 : ∀ c, (dats 0 c).q 1 = fullShare.right)
    (hA : ∀ c w, (dats 0 c).A w = E m c (Pipeline.arrRef spec0 w))
    (howed : ∀ c t, (dats 0 c).owed t = 0)
    (hbody : ∀ c, BodyObligationLoose (dats 0 c) (defs₀ (F := F)) Variants.none () Set.univ)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) ⟨m, fun _ => 0, ρ⟩ (fun r => ∀ c : Dev nD,
      r.2.mem ((c.tc : Thread nD τ).loc main_v21)
          = lossTail (pairTerm (m ((c.tc : Thread nD τ).loc main_arg0))) (shapeCast S16384 ((dats 0 c).arrAt 2 cfg0.N) shapeCasts_S16384x1_S16384)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 main_v21 v21_rest).trans ((endV_v21 m dats c).trans (by
      rw [show (dats 0 c).arrAt 0 cfg0.N = m ((c.tc : Thread nD τ).loc main_arg0) from ((dats 0 c).arrAt_in 0 rfl _).trans (hA c 0)])),
    (h c).2, ((h c).1 main_arg1 arg1_rest).trans (endV_arg1 m dats c)⟩)
    (run_around m ρ dats hq0 hq1 hA howed hbody hin hout)

end Cert.KernelIdeal.Around

end
-- ==== Proof.KIValue.lean ====
/-
  The scratch column and the output, point by point, as values.

  Each case's stores are whole-column stores at offset zero, so what they leave reads back as the last store's payload,
  and a load between two stores reads the earlier store's payload. Hence after a first column block the scratch holds
  the body's sum payload of the point's two input blocks over the zero column; after any other point, the same payload
  over the column the point before left; and at a last column block the output's staging buffer holds the scratch's
  finished column. The payloads themselves are not opened here.
-/
import proofs.«164351_j84774064488939_1_alg».proof.Proof.KIData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The stores' and loads' offset is zero on both axes. -/
theorem off_zero : (![0, 0] : Fin 2 → Nat) = fun _ => 0 := funext fun a => by fin_cases a <;> rfl

/-- A first column block leaves the sum payload over the zero column: the zero column is stored, read back, and the
    block's partial sums are added to it. -/
theorem accFirst_eq (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : atFirst i) (hc1 : ¬atLast i) (x0 : Vec F S2048x128 .f32) (x1 : Vec F S512x128 .f32) :
    accFirst c i arg2 harg2 arg3 harg3 arg4 harg4 arg5 harg5 hc0 hc1 x0 x1 = k0_pay2 x0 x1 (k0_pay1 (F := F)) := by
  unfold accFirst
  rw [View.read_writes_eq_canon _ _ _ (accCover_first c i arg2 harg2 arg3 harg3 arg4 harg4 arg5 harg5 hc0 hc1 x0 x1)]
  unfold runFirst
  dsimp only
  sl_unfold_words
  rw [View.canon_cons_unit_zero (S := S2048x1) off_zero, View.readCov_unit_zero (S := S2048x1) _ off_zero]
  simp only [View.readAt_eq_ld, harg2.read_unread, harg3.read_unread, View.ld_unit_zero (S := S2048x128) off_zero,
    View.ld_unit_zero (S := S512x128) off_zero]

/-- A middle column block leaves the sum payload over the column it found. -/
theorem accMiddle_eq (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : ¬atLast i) (x0 : Vec F S2048x128 .f32) (x1 : Vec F S512x128 .f32) (xs : Vec F S2048x1 .f32) :
    accMiddle c i arg2 harg2 arg3 harg3 arg4 harg4 arg5 harg5 hc0 hc1 x0 x1 xs = k0_pay2 x0 x1 xs := by
  unfold accMiddle
  rw [View.read_writes_eq_canon _ _ _ (accCover_middle c i arg2 harg2 arg3 harg3 arg4 harg4 arg5 harg5 hc0 hc1 x0 x1 xs)]
  unfold runMiddle
  dsimp only
  sl_unfold_words
  rw [View.canon_unit_zero (S := S2048x1) off_zero]
  simp only [View.readAt_eq_ld, harg2.read_unread, harg3.read_unread, harg5.read_unread, View.ld_unit_zero (S := S2048x128) off_zero,
    View.ld_unit_zero (S := S512x128) off_zero, View.ld_unit_zero (S := S2048x1) off_zero]

/-- A last column block leaves the same in the scratch, -/
theorem accLast_eq (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : atLast i) (x0 : Vec F S2048x128 .f32) (x1 : Vec F S512x128 .f32) (xs : Vec F S2048x1 .f32) :
    accLast c i arg2 harg2 arg3 harg3 arg4 harg4 arg5 harg5 hc0 hc1 x0 x1 xs = k0_pay2 x0 x1 xs := by
  unfold accLast
  rw [View.read_writes_eq_canon _ _ _ (accCover_last c i arg2 harg2 arg3 harg3 arg4 harg4 arg5 harg5 hc0 hc1 x0 x1 xs)]
  unfold runLast
  dsimp only
  sl_unfold_words
  rw [View.canon_unit_zero (S := S2048x1) off_zero]
  simp only [View.readAt_eq_ld, harg2.read_unread, harg3.read_unread, harg5.read_unread, View.ld_unit_zero (S := S2048x128) off_zero,
    View.ld_unit_zero (S := S512x128) off_zero, View.ld_unit_zero (S := S2048x1) off_zero]

/-- and copies it into the output's staging buffer: the scratch is read back after the store. -/
theorem outLast_eq (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : atLast i) (x0 : Vec F S2048x128 .f32) (x1 : Vec F S512x128 .f32) (xs : Vec F S2048x1 .f32) :
    outLast c i arg2 harg2 arg3 harg3 arg4 harg4 arg5 harg5 hc0 hc1 x0 x1 xs = k0_pay2 x0 x1 xs := by
  unfold outLast
  rw [View.read_writes_eq_canon _ _ _ (outCover_last c i arg2 harg2 arg3 harg3 arg4 harg4 arg5 harg5 hc0 hc1 x0 x1 xs)]
  unfold runLast
  dsimp only
  sl_unfold_words
  rw [View.canon_unit_zero (S := S2048x1) off_zero, View.readCov_unit_zero (S := S2048x1) _ off_zero]
  simp only [View.readAt_eq_ld, harg2.read_unread, harg3.read_unread, harg5.read_unread, View.ld_unit_zero (S := S2048x128) off_zero,
    View.ld_unit_zero (S := S512x128) off_zero, View.ld_unit_zero (S := S2048x1) off_zero]

/-! ## Point by point -/

/-- After a first column block the scratch holds the sum payload of the point's blocks over the zero column. -/
theorem scratch_first (c : Dev nD) (t : Fin cfg0.N) (h : t.val % 32 = 0) :
    (outsAt0 m c t.val t.isLt).2 = k0_pay2 (iblk m c 0 t) (iblk m c 1 t) (k0_pay1 (F := F)) := by
  have h1 : ¬t.val % 32 = 31 := by omega
  rw [outsAt0_first m c t h h1]
  dsimp only
  exact accFirst_eq (F := F) c (grid0.coords t) (rowM t) (rowM_whole t) (colM t) (colM_whole t) (outM t) (outM_whole t) accM (Memref.isWhole_whole _) ((atFirst_iff t).mpr h) (fun h' => h1 ((atLast_iff t).mp h')) (iblk m c 0 t) (iblk m c 1 t)

/-- After any other point it holds the sum payload of the point's blocks over the column the point before left. -/
theorem scratch_next (c : Dev nD) (t : Fin cfg0.N) (h : t.val % 32 ≠ 0) :
    (outsAt0 m c t.val t.isLt).2 = k0_pay2 (iblk m c 0 t) (iblk m c 1 t) (outsAt0 m c (t.val - 1) (Nat.lt_of_le_of_lt (Nat.sub_le _ _) t.isLt)).2 := by
  by_cases h1 : t.val % 32 = 31
  · rw [outsAt0_last m c t h h1]
    dsimp only
    exact accLast_eq (F := F) c (grid0.coords t) (rowM t) (rowM_whole t) (colM t) (colM_whole t) (outM t) (outM_whole t) accM (Memref.isWhole_whole _) (fun h' => h ((atFirst_iff t).mp h')) ((atLast_iff t).mpr h1) (iblk m c 0 t) (iblk m c 1 t) (outsAt0 m c (t.val - 1) (Nat.lt_of_le_of_lt (Nat.sub_le _ _) t.isLt)).2
  · rw [outsAt0_middle m c t h h1]
    dsimp only
    exact accMiddle_eq (F := F) c (grid0.coords t) (rowM t) (rowM_whole t) (colM t) (colM_whole t) (outM t) (outM_whole t) accM (Memref.isWhole_whole _) (fun h' => h ((atFirst_iff t).mp h')) (fun h' => h1 ((atLast_iff t).mp h')) (iblk m c 0 t) (iblk m c 1 t) (outsAt0 m c (t.val - 1) (Nat.lt_of_le_of_lt (Nat.sub_le _ _) t.isLt)).2

/-- At a last column block the output's staging buffer holds the scratch's finished column. -/
theorem out_last (c : Dev nD) (t : Fin cfg0.N) (h : t.val % 32 = 31) :
    (outsAt0 m c t.val t.isLt).1 = (outsAt0 m c t.val t.isLt).2 := by
  have h0 : ¬t.val % 32 = 0 := by omega
  rw [outsAt0_last m c t h0 h]
  dsimp only
  exact (outLast_eq (F := F) c (grid0.coords t) (rowM t) (rowM_whole t) (colM t) (colM_whole t) (outM t) (outM_whole t) accM (Memref.isWhole_whole _) (fun h' => h0 ((atFirst_iff t).mp h')) ((atLast_iff t).mpr h) (iblk m c 0 t) (iblk m c 1 t) (outsAt0 m c (t.val - 1) (Nat.lt_of_le_of_lt (Nat.sub_le _ _) t.isLt)).2).trans
    (accLast_eq (F := F) c (grid0.coords t) (rowM t) (rowM_whole t) (colM t) (colM_whole t) (outM t) (outM_whole t) accM (Memref.isWhole_whole _) (fun h' => h0 ((atFirst_iff t).mp h')) ((atLast_iff t).mpr h) (iblk m c 0 t) (iblk m c 1 t) (outsAt0 m c (t.val - 1) (Nat.lt_of_le_of_lt (Nat.sub_le _ _) t.isLt)).2).symm

end Cert.KernelIdeal.Hand

end
-- ==== Proof.Spec.lean ====
/-
  The mathematics both programs compute, index by index, over the extended reals.

  From a feature matrix x (16384 rows of 128 entries) both form, for every pair of rows (i, j), the squared distance
  written as |x_i|² + |x_j|² − 2⟨x_i, x_j⟩, clamp it at zero from below, and take the Cauchy weight 1 / (d + 1).
  One output column is the sum of a row's weights over all j; the other is the weight of the row's partner, the row
  half the matrix away. The two programs differ in two places only, and both are stated here:
  the sum over the 16384 columns is accumulated in 32 consecutive blocks of 512 on one side and taken at once on the
  other (`acc` against `rowSum`: addition of extended reals is commutative and associative, so no finiteness is needed),
  and the partner's distance is Σ_d (x_i,d − x_p,d)² on one side and the three-term form on the other (`pairKer` against
  `pairRef`: expanding the square distributes a product over a difference, which needs every entry to be a real number).
-/
import Idealize.ShloMosaic.PureOps.Ideal
import Idealize.ShloMosaic.Lib.ValueIdx

noncomputable section

open scoped BigOperators

namespace Cert.Spec

open Idealize.ShloMosaic Idealize.ShloMosaic.ValueIdx

/-- The feature matrix: 16384 rows of 128 extended reals. -/
abbrev Feats : Type := (⟨2, ![16384, 128]⟩ : Shape).Idx → EReal

/-- The three float words the programs use, at their exact values: 0, 1 and 2. -/
def zero : EReal := Ideal.ofBits .f32 0x00000000#32
def one : EReal := Ideal.ofBits .f32 0x3F800000#32
def two : EReal := Ideal.ofBits .f32 0x40000000#32

/-- The squared norm of row i. -/
def sqn (x : Feats) (i : Fin 16384) : EReal := ∑ d : Fin 128, x (ix2 i d) * x (ix2 i d)
/-- The inner product of rows i and j. -/
def dotp (x : Feats) (i j : Fin 16384) : EReal := ∑ d : Fin 128, x (ix2 i d) * x (ix2 j d)
/-- The squared distance of rows i and j in its three-term form. -/
def dist2 (x : Feats) (i j : Fin 16384) : EReal := (sqn x i + sqn x j) - two * dotp x i j
/-- The Cauchy weight of a squared distance clamped at zero: 1 / (max d 0 + 1). -/
def cauchy (d : EReal) : EReal := Ideal.div one (max d zero + one)
/-- A row's partner: the row half the matrix away, cyclically. -/
def partner (i : Fin 16384) : Fin 16384 := ⟨(i.val + 8192) % 16384, Nat.mod_lt _ (by norm_num)⟩

/-- The sum of row i's weights over every column. -/
def rowSum (x : Feats) (i : Fin 16384) : EReal := ∑ j : Fin 16384, cauchy (dist2 x i j)
/-- The weight of row i and its partner, from the three-term distance. -/
def pairRef (x : Feats) (i : Fin 16384) : EReal := cauchy (dist2 x i (partner i))
/-- The squared distance of row i and its partner as the sum of squared differences. -/
def diff2 (x : Feats) (i : Fin 16384) : EReal :=
  ∑ d : Fin 128, (x (ix2 i d) - x (ix2 (partner i) d)) * (x (ix2 i d) - x (ix2 (partner i) d))
/-- The weight of row i and its partner, from the sum of squared differences. -/
def pairKer (x : Feats) (i : Fin 16384) : EReal := cauchy (diff2 x i)

/-- Column c of the k-th block of 512 columns (reduced mod 16384 so that it is a column for every k). -/
def blockCol (k : ℕ) (c : Fin 512) : Fin 16384 := ⟨(512 * k + c.val) % 16384, Nat.mod_lt _ (by norm_num)⟩
/-- The sum of row i's weights over the k-th block of 512 columns. -/
def blockSum (x : Feats) (i : Fin 16384) (k : ℕ) : EReal := ∑ c : Fin 512, cauchy (dist2 x i (blockCol k c))
/-- The running sum after k blocks, started at the zero word. -/
def acc (x : Feats) (i : Fin 16384) : ℕ → EReal
  | 0 => zero
  | k + 1 => acc x i k + blockSum x i k

/-- Every entry of the matrix is a real number. -/
def Finite (x : Feats) : Prop := ∀ j, ∃ r : ℝ, x j = (r : EReal)

end Cert.Spec

end
-- ==== Proof.KerBlocks.lean ====
/-
  How the kernel's three windows sit in their arrays, at a symbolic grid point.

  The grid is 8 × 32, so point t has coordinates (t / 32, t mod 32). Window 0 takes 2048 rows of the feature
  matrix at block row t / 32; window 1 takes 512 rows at block t mod 32; the output window takes 2048 entries of
  the result column at block row t / 32. An element of a block sits in the array, on each axis, at the block index
  times the block's size plus its own coordinate, so row r of window 0's block at t is row 2048 (t / 32) + r of
  the matrix, row cc of window 1's block is row 512 (t mod 32) + cc, and entry r of the output's block is entry
  2048 (t / 32) + r of the column. An entry i of the column lies in the output's block at t exactly when
  i / 2048 = t / 32, and the point 32 (i / 2048) + 31, the last of its run of 32, is one that writes it back:
  every entry of the column is covered.
-/
import proofs.«164351_j84774064488939_1_alg».proof.KernelIdeal
import proofs.«164351_j84774064488939_1_alg».proof.Proof.Gen.KernelIdeal
import proofs.«164351_j84774064488939_1_alg».proof.Proof.Gen.KernelIdeal.Launch
import proofs.«164351_j84774064488939_1_alg».proof.Proof.Gen.KernelIdeal.Points
import proofs.«164351_j84774064488939_1_alg».proof.Proof.Spec
import Idealize.ShloMosaic.Lib.Pipeline.Value
import Idealize.ShloMosaic.Lib.ValueIdx

noncomputable section

namespace Cert.KerSide

open Cert.KernelIdeal Cert.KernelIdeal.Gen Idealize.ShloMosaic Idealize.ShloMosaic.TcCoe Idealize.SL.Sem
open Idealize.ShloMosaic.ValueIdx

variable {F : FTy → Type} [FloatOps F]

/-- The block indices of the three windows at every grid point, decided over the 256 points. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val / 32 ∧ win0_2.index t (1 : Fin 2) = 0 :=
  (by decide +kernel : ∀ t : Fin grid0.N, _)

/-- The grid has 256 points. -/
theorem lt_N (t : Fin cfg0.N) : t.val < 256 := lt_of_lt_of_eq t.isLt N_0

/-- The row of the matrix that row r of the block row of point t is. -/
def rowOf (t : Fin cfg0.N) (r : Fin 2048) : Fin 16384 :=
  ⟨2048 * (t.val / 32) + r.val, by have := lt_N t; have := r.isLt; omega⟩

/-- Window 0's block at t, read off the matrix: rows 2048 (t / 32) + r. -/
theorem blk0_read (A : S16384x128.Idx → Elt F .f32) (t : Fin cfg0.N) (r : Fin 2048) (d : Fin 128) :
    ((cfg0.win 0).blk t).view.read (Elt F) A (ix2 r d) = A (ix2 (rowOf t r) d) := by
  obtain ⟨e0, e1, -, -, -, -⟩ := idx_facts t
  rw [View.read_apply]
  show A _ = A _
  congr 1
  funext a
  apply Fin.ext
  match a with
  | ⟨0, _⟩ => show win0_0.index t (0 : Fin 2) * 2048 + 1 * r.val = 2048 * (t.val / 32) + r.val; omega
  | ⟨1, _⟩ => show win0_0.index t (1 : Fin 2) * 128 + 1 * d.val = d.val; omega

/-- Window 1's block at t, read off the matrix: rows 512 (t mod 32) + cc. -/
theorem blk1_read (A : S16384x128.Idx → Elt F .f32) (t : Fin cfg0.N) (cc : Fin 512) (d : Fin 128) :
    ((cfg0.win 1).blk t).view.read (Elt F) A (ix2 cc d) = A (ix2 (Cert.Spec.blockCol (t.val % 32) cc) d) := by
  obtain ⟨-, -, e2, e3, -, -⟩ := idx_facts t
  rw [View.read_apply]
  show A _ = A _
  congr 1
  funext a
  apply Fin.ext
  match a with
  | ⟨0, _⟩ =>
    show win0_1.index t (0 : Fin 2) * 512 + 1 * cc.val = (512 * (t.val % 32) + cc.val) % 16384
    have := cc.isLt; omega
  | ⟨1, _⟩ => show win0_1.index t (1 : Fin 2) * 128 + 1 * d.val = d.val; omega

/-- The output window's block at t, read off a column: entries 2048 (t / 32) + r. -/
theorem blk2_read (A : S16384x1.Idx → Elt F .f32) (t : Fin cfg0.N) (r : Fin 2048) (z : Fin 1) :
    ((cfg0.win 2).blk t).view.read (Elt F) A (ix2 r z) = A (ix2 (rowOf t r) z) := by
  obtain ⟨-, -, -, -, e4, e5⟩ := idx_facts t
  rw [View.read_apply]
  show A _ = A _
  congr 1
  funext a
  apply Fin.ext
  match a with
  | ⟨0, _⟩ => show win0_2.index t (0 : Fin 2) * 2048 + 1 * r.val = 2048 * (t.val / 32) + r.val; omega
  | ⟨1, _⟩ => show win0_2.index t (1 : Fin 2) * 1 + 1 * z.val = z.val; omega

/-- An index of the column is in point t's block iff each coordinate is in the block's range on its axis. -/
theorem mem_blk2 (t : Fin cfg0.N) (i : S16384x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v0).slice (win0_2.rect t)).set ↔ _
  rw [View.set_slice_whole, Rect.mem_set_unit]
  exact Iff.rfl

/-- Entry i of the column is in point t's block iff i and t have the same block row. -/
theorem mem_blk2_iff (t : Fin cfg0.N) (i : Fin 16384) (z : Fin 1) :
    ix2 i z ∈ ((cfg0.win 2).blk t).view.set ↔ i.val / 2048 = t.val / 32 := by
  obtain ⟨-, -, -, -, e4, e5⟩ := idx_facts t
  rw [mem_blk2]
  constructor
  · intro h
    have b0 : win0_2.index t (0 : Fin 2) * 2048 ≤ i.val ∧ i.val < win0_2.index t (0 : Fin 2) * 2048 + 2048 := h 0
    omega
  · intro h a
    match a with
    | ⟨0, _⟩ => show win0_2.index t (0 : Fin 2) * 2048 ≤ i.val ∧ i.val < win0_2.index t (0 : Fin 2) * 2048 + 2048; omega
    | ⟨1, _⟩ => show win0_2.index t (1 : Fin 2) * 1 ≤ z.val ∧ z.val < win0_2.index t (1 : Fin 2) * 1 + 1; omega

/-- The last point of the run of 32 points that share entry i's block row. -/
def lastOf (i : Fin 16384) : Fin cfg0.N :=
  ⟨32 * (i.val / 2048) + 31, by rw [show cfg0.N = 256 from N_0]; have := i.isLt; omega⟩

/-- Every entry of the column is in the block of a point that writes its block back. -/
theorem cover2 (i : S16384x1.Idx) :
    ∃ t : Fin cfg0.N, (cfg0.win 2).flush t = true ∧ i ∈ ((cfg0.win 2).blk t).view.set := by
  obtain ⟨r, z, rfl⟩ : ∃ (r : Fin 16384) (z : Fin 1), i = ix2 r z := ⟨i 0, i 1, eq_ix2 i⟩
  refine ⟨lastOf r, (flush0_2 _).mpr ?_, (mem_blk2_iff _ r z).mpr ?_⟩
  · show (32 * (r.val / 2048) + 31) % 32 = 31
    omega
  · show r.val / 2048 = (32 * (r.val / 2048) + 31) / 32
    omega

end Cert.KerSide

end
-- ==== Proof.KerPayload.lean ====
/-
  The body's arithmetic, read one entry at a time over the extended reals.

  The accumulate step of the row-sum body takes a block of 2048 query rows q, a block of 512 key rows k and the
  running column a, and returns a + Σ_c 1 / (max ((|q_r|² + |k_c|²) − 2⟨q_r, k_c⟩) 0 + 1). Every piece of that formula is
  one operation of the body read at an index: a lane sum is a sum over the 128 features, the keepdims casts,
  the transposes and the broadcasts move an entry without changing it, the change of format before the matrix
  product is the identity on extended reals, and the product into a zero accumulator is the inner product.
-/
import proofs.«164351_j84774064488939_1_alg».proof.Proof.Gen.KernelIdeal.Skeleton
import proofs.«164351_j84774064488939_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KerSide

open Cert.KernelIdeal Idealize.ShloMosaic Idealize.ShloMosaic.ValueIdx

/-! ## The keepdims forms of a column, read at an index -/

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sums -/

/-- The sum over the 128 features of a block of 2048 rows, at row `r`. -/
theorem laneSum_2048x128 (v : FVec Ideal S2048x128 .f32) (h : S2048x128.Reduces [1] S2048) (hφ : FKind.Formats .f32)
    (hacc : (0x00000000#32 : BitVec 32) = FKind.add.neutral .f32 hφ) (r : Fin 2048) :
    multiReduction .add [1] S2048 v 0x00000000#32 h hφ hacc (ix1 r) = ∑ d : Fin 128, v (ix2 r d) := by
  refine (Ideal.multiReduction_add_single v 0x00000000#32 h hφ hacc (ix1 r)).trans ?_
  refine Finset.sum_congr rfl fun d _ => congrArg v ?_
  funext a
  match a with
  | ⟨0, _⟩ => rfl
  | ⟨1, _⟩ => rfl

/-- The sum over the 128 features of a block of 512 rows, at row `c`. -/
theorem laneSum_512x128 (v : FVec Ideal S512x128 .f32) (h : S512x128.Reduces [1] S512) (hφ : FKind.Formats .f32)
    (hacc : (0x00000000#32 : BitVec 32) = FKind.add.neutral .f32 hφ) (c : Fin 512) :
    multiReduction .add [1] S512 v 0x00000000#32 h hφ hacc (ix1 c) = ∑ d : Fin 128, v (ix2 c d) := by
  refine (Ideal.multiReduction_add_single v 0x00000000#32 h hφ hacc (ix1 c)).trans ?_
  refine Finset.sum_congr rfl fun d _ => congrArg v ?_
  funext a
  match a with
  | ⟨0, _⟩ => rfl
  | ⟨1, _⟩ => rfl

/-- The sum over a block's 512 columns, at row `r`. -/
theorem laneSum_2048x512 (v : FVec Ideal S2048x512 .f32) (h : S2048x512.Reduces [1] S2048) (hφ : FKind.Formats .f32)
    (hacc : (0x00000000#32 : BitVec 32) = FKind.add.neutral .f32 hφ) (r : Fin 2048) :
    multiReduction .add [1] S2048 v 0x00000000#32 h hφ hacc (ix1 r) = ∑ c : Fin 512, v (ix2 r c) := by
  refine (Ideal.multiReduction_add_single v 0x00000000#32 h hφ hacc (ix1 r)).trans ?_
  refine Finset.sum_congr rfl fun c _ => congrArg v ?_
  funext a
  match a with
  | ⟨0, _⟩ => rfl
  | ⟨1, _⟩ => rfl

/-! ## The matrix product into a zero accumulator -/

section Dot
variable [Facts₀]

/-- The left operand's entry the product reads at output `(r, c)` and feature `d`: `(r, d)`. -/
theorem dot_lhsIdx (r : Fin 2048) (c : Fin 512) (d : Fin 128) :
    dot_S2048x128_S128x512_S2048x512_1_0_0_1_n_n.lhsIdx (ix2 r c)
        ((contrEquiv1 dot_S2048x128_S128x512_S2048x512_1_0_0_1_n_n 128 rfl rfl).symm d) = ix2 r d := by
  funext a
  match a with
  | ⟨0, _⟩ => exact Fin.ext (by simp [DotDims.lhsIdx, dot_S2048x128_S128x512_S2048x512_1_0_0_1_n_n]; rfl)
  | ⟨1, _⟩ =>
    refine Fin.ext ?_
    show (dot_S2048x128_S128x512_S2048x512_1_0_0_1_n_n.lhsIdx (ix2 r c)
        ((contrEquiv1 dot_S2048x128_S128x512_S2048x512_1_0_0_1_n_n 128 rfl rfl).symm d) (1 : Fin 2)).val = d.val
    exact (DotDims.lhsIdx_val_of_single dot_S2048x128_S128x512_S2048x512_1_0_0_1_n_n (cl := (1 : Fin 2)) rfl _ _).trans
      (contrEquiv1_symm_val dot_S2048x128_S128x512_S2048x512_1_0_0_1_n_n 128 rfl rfl d)

/-- The right operand's entry the product reads at output `(r, c)` and feature `d`: `(d, c)`. -/
theorem dot_rhsIdx (r : Fin 2048) (c : Fin 512) (d : Fin 128) :
    dot_S2048x128_S128x512_S2048x512_1_0_0_1_n_n.rhsIdx (ix2 r c)
        ((contrEquiv1 dot_S2048x128_S128x512_S2048x512_1_0_0_1_n_n 128 rfl rfl).symm d) = ix2 d c := by
  funext a
  match a with
  | ⟨0, _⟩ =>
    refine Fin.ext ?_
    show (dot_S2048x128_S128x512_S2048x512_1_0_0_1_n_n.rhsIdx (ix2 r c)
        ((contrEquiv1 dot_S2048x128_S128x512_S2048x512_1_0_0_1_n_n 128 rfl rfl).symm d) (0 : Fin 2)).val = d.val
    exact (DotDims.rhsIdx_val_of_single dot_S2048x128_S128x512_S2048x512_1_0_0_1_n_n (cr := (0 : Fin 2)) rfl _ _).trans
      (contrEquiv1_symm_val dot_S2048x128_S128x512_S2048x512_1_0_0_1_n_n 128 rfl rfl d)
  | ⟨1, _⟩ => exact Fin.ext (by simp [DotDims.rhsIdx, dot_S2048x128_S128x512_S2048x512_1_0_0_1_n_n]; rfl)

/-- The product of a 2048×128 block and a 128×512 block into the zero accumulator, at `(r, c)`: the sum over the
    features of the products of the entries. -/
theorem dot_apply {φ₁ φ₂ : FTy} (l : FVec Ideal S2048x128 φ₁) (w : FVec Ideal S128x512 φ₂) (r : Fin 2048) (c : Fin 512) :
    matmul dot_S2048x128_S128x512_S2048x512_1_0_0_1_n_n none l w (constant (F := Ideal) S2048x512 .f32 0x00000000#32) (ix2 r c)
      = ∑ d : Fin 128, l (ix2 r d) * w (ix2 d c) := by
  refine (Ideal.matmul_constant_zero_apply dot_S2048x128_S128x512_S2048x512_1_0_0_1_n_n none l w (ix2 r c)).trans ?_
  refine (Equiv.sum_comp (contrEquiv1 dot_S2048x128_S128x512_S2048x512_1_0_0_1_n_n 128 rfl rfl).symm _).symm.trans ?_
  refine Finset.sum_congr rfl fun d _ => ?_
  rw [dot_lhsIdx, dot_rhsIdx]

end Dot

/-! ## The three terms of the squared distance, as the body spells them -/

/-- The squared norm of query row `r`, cast to a column and broadcast along the block's columns. -/
theorem qnorm_apply (x0 : FVec Ideal S2048x128 .f32) (h1 : S2048x128.Reduces [1] S2048) (hφ : FKind.Formats .f32)
    (hacc : (0x00000000#32 : BitVec 32) = FKind.add.neutral .f32 hφ) (h2 : S2048.ShapeCasts S2048x1)
    (h3 : S2048x1.Broadcasts S2048x512) (r : Fin 2048) (c : Fin 512) :
    broadcastTo S2048x512 (shapeCast S2048x1 (multiReduction .add [1] S2048 (mulf x0 x0) 0x00000000#32 h1 hφ hacc) h2) h3 (ix2 r c)
      = ∑ d : Fin 128, x0 (ix2 r d) * x0 (ix2 r d) :=
  (broadcastTo_a1_ab_apply _ h3 r c).trans ((shapeCast_a_a1_apply _ h2 r 0).trans (laneSum_2048x128 _ h1 hφ hacc r))

/-- The squared norm of key row `c`, cast to a column, transposed to a row and broadcast down the block's rows. -/
theorem knorm_apply (x1 : FVec Ideal S512x128 .f32) (h1 : S512x128.Reduces [1] S512) (hφ : FKind.Formats .f32)
    (hacc : (0x00000000#32 : BitVec 32) = FKind.add.neutral .f32 hφ) (h2 : S512.ShapeCasts S512x1)
    (h3 : S512x1.Transposes [1, 0] S1x512) (h4 : S1x512.Broadcasts S2048x512) (r : Fin 2048) (c : Fin 512) :
    broadcastTo S2048x512 (transpose S1x512 [1, 0] (shapeCast S512x1 (multiReduction .add [1] S512 (mulf x1 x1) 0x00000000#32 h1 hφ hacc) h2) h3) h4 (ix2 r c)
      = ∑ d : Fin 128, x1 (ix2 c d) * x1 (ix2 c d) :=
  (broadcastTo_1b_ab_apply _ h4 r c).trans ((transpose_ix2_apply _ h3 (0 : Fin 1) c).trans
    ((shapeCast_a_a1_apply _ h2 c 0).trans (laneSum_512x128 _ h1 hφ hacc c)))

/-- The inner product of query row `r` and key row `c`: the product of the query block and the transposed key block,
    both after the change of format that is the identity here. -/
theorem qk_apply [Facts₀] (x0 : FVec Ideal S2048x128 .f32) (x1 : FVec Ideal S512x128 .f32) (hb : FTy.bits .bf16 < FTy.bits .f32)
    (ht : S512x128.Transposes [1, 0] S128x512) (r : Fin 2048) (c : Fin 512) :
    matmul dot_S2048x128_S128x512_S2048x512_1_0_0_1_n_n none (truncf .bf16 x0 hb)
        (transpose S128x512 [1, 0] (truncf .bf16 x1 hb) ht) (constant (F := Ideal) S2048x512 .f32 0x00000000#32) (ix2 r c)
      = ∑ d : Fin 128, x0 (ix2 r d) * x1 (ix2 c d) :=
  (dot_apply _ _ r c).trans (Finset.sum_congr rfl fun d _ =>
    congrArg (x0 (ix2 r d) * ·) (transpose_ix2_apply (truncf .bf16 x1 hb) ht d c))

/-! ## The two payloads -/

/-- The reset payload is the zero word at every row. -/
theorem pay1_apply (r : Fin 2048) : Cert.KernelIdeal.Gen.k0_pay1 (F := Ideal) (ix2 r (0 : Fin 1)) = Cert.Spec.zero := by
  unfold Cert.KernelIdeal.Gen.k0_pay1
  refine (congrFun (shapeCast_self _ _) _).trans ?_
  rfl

/-- The accumulate payload at row `r` over the blocks' own entries: the old entry plus the sum over the 512 key rows of
    the Cauchy weight of the three-term squared distance. -/
theorem pay2_raw (x0 : Vec Ideal S2048x128 .f32) (x1 : Vec Ideal S512x128 .f32) (a : Vec Ideal S2048x1 .f32) (r : Fin 2048) :
    Cert.KernelIdeal.Gen.k0_pay2 (F := Ideal) x0 x1 a (ix2 r (0 : Fin 1))
      = a (ix2 r (0 : Fin 1)) + ∑ c : Fin 512, Ideal.div Cert.Spec.one
          (max (((∑ d : Fin 128, x0 (ix2 r d) * x0 (ix2 r d)) + (∑ d : Fin 128, x1 (ix2 c d) * x1 (ix2 c d)))
                - Cert.Spec.two * ∑ d : Fin 128, x0 (ix2 r d) * x1 (ix2 c d)) Cert.Spec.zero + Cert.Spec.one) := by
  unfold Cert.KernelIdeal.Gen.k0_pay2
  refine (congrFun (shapeCast_self _ _) _).trans ?_
  refine (addf_apply _ _ _).trans ?_
  refine congrArg (a (ix2 r (0 : Fin 1)) + ·) ?_
  refine (shapeCast_a_a1_apply _ _ r 0).trans ?_
  refine (laneSum_2048x512 _ _ _ _ r).trans ?_
  refine Finset.sum_congr rfl fun c _ => ?_
  refine (divf_apply _ _ _).trans ?_
  refine congrArg₂ Ideal.div rfl ?_
  refine (addf_apply _ _ _).trans ?_
  refine congrArg₂ (· + ·) ?_ rfl
  refine (maximumf_apply _ _ _).trans ?_
  refine congrArg₂ max ?_ rfl
  refine (subf_apply _ _ _).trans ?_
  refine congrArg₂ (· - ·) ?_ ?_
  · refine (addf_apply _ _ _).trans ?_
    exact congrArg₂ (· + ·) (qnorm_apply x0 _ _ _ _ _ r c) (knorm_apply x1 _ _ _ _ _ _ r c)
  · refine (mulf_apply _ _ _).trans ?_
    exact congrArg₂ (· * ·) rfl (qk_apply x0 x1 _ _ r c)

/-- THE ACCUMULATE PAYLOAD AT ROW `r`, when the query block's row `r` is row `rowOf r` of the feature matrix and the key
    block's row `c` is column `blockCol k c` of the k-th block: the old entry plus that row's sum of weights over the block. -/
theorem pay2_apply (x : Cert.Spec.Feats) (rowOf : Fin 2048 → Fin 16384) (k : ℕ)
    (x0 : Vec Ideal S2048x128 .f32) (x1 : Vec Ideal S512x128 .f32) (a : Vec Ideal S2048x1 .f32)
    (h0 : ∀ (r : Fin 2048) (d : Fin 128), x0 (ix2 r d) = x (ix2 (rowOf r) d))
    (h1 : ∀ (c : Fin 512) (d : Fin 128), x1 (ix2 c d) = x (ix2 (Cert.Spec.blockCol k c) d))
    (r : Fin 2048) :
    Cert.KernelIdeal.Gen.k0_pay2 (F := Ideal) x0 x1 a (ix2 r (0 : Fin 1))
      = a (ix2 r (0 : Fin 1)) + Cert.Spec.blockSum x (rowOf r) k := by
  refine (pay2_raw x0 x1 a r).trans ?_
  simp only [Cert.Spec.blockSum, Cert.Spec.cauchy, Cert.Spec.dist2, Cert.Spec.sqn, Cert.Spec.dotp, h0, h1]

end Cert.KerSide

end
-- ==== Proof.SpecLaws.lean ====
/-
  The laws that join the two programs' mathematics (Proof/Spec.lean).

  two_eq, zero_eq: the float words 0x40000000 and 0x00000000 denote the reals 2 and 0.
  acc_eq_rowSum: summing a row's weights block by block, 32 blocks of 512 columns, is summing them over all
  16384 columns at once. Only commutativity and associativity of addition are used, so the weights may be any
  extended reals.
  pair_eq: for a matrix of real entries, Σ_d (a_d − b_d)² = (Σ_d a_d² + Σ_d b_d²) − 2 Σ_d a_d b_d. The
  expansion of the square distributes a product over a difference, which holds for reals and not for infinities,
  so this law takes the finiteness of the entries.
-/
import proofs.«164351_j84774064488939_1_alg».proof.Proof.Spec
import Mathlib.Algebra.BigOperators.Fin
import Mathlib.Algebra.BigOperators.Intervals
import Mathlib.Tactic.Ring
import Mathlib.Tactic.NormNum

noncomputable section

open scoped BigOperators

namespace Cert.Spec

open Idealize.ShloMosaic Idealize.ShloMosaic.ValueIdx

/-- The word 0x40000000 denotes the real 2. -/
theorem two_eq : two = ((2 : ℝ) : EReal) := by
  unfold two
  simp [Ideal.ofBits, Ideal.ieee, -EReal.coe_mul]; norm_num

/-- The word 0x00000000 denotes 0. -/
theorem zero_eq : zero = 0 := by
  unfold zero
  simp [Ideal.ofBits, Ideal.ieee]

/-! ### Blocks of columns -/

/-- Row i's weight at column n, the column number reduced mod 16384 so that every natural number names a column. -/
def wt (x : Feats) (i : Fin 16384) (n : ℕ) : EReal :=
  cauchy (dist2 x i ⟨n % 16384, Nat.mod_lt _ (by norm_num)⟩)

/-- The k-th block's sum is the sum of the weights at the 512 column numbers from 512 k on. -/
theorem blockSum_eq_range (x : Feats) (i : Fin 16384) (k : ℕ) :
    blockSum x i k = ∑ c ∈ Finset.range 512, wt x i (512 * k + c) := by
  rw [Finset.sum_range]
  rfl

/-- After k blocks the running sum is the sum of the weights at the first 512 k column numbers. -/
theorem acc_eq_range (x : Feats) (i : Fin 16384) (k : ℕ) :
    acc x i k = ∑ n ∈ Finset.range (512 * k), wt x i n := by
  induction k with
  | zero => simp [acc, zero_eq]
  | succ k ih =>
    rw [show 512 * (k + 1) = 512 * k + 512 by ring, Finset.sum_range_add, ← ih, ← blockSum_eq_range]
    rfl

/-- 32 consecutive blocks of 512 columns exhaust the 16384 columns. -/
theorem acc_eq_rowSum (x : Feats) (i : Fin 16384) : acc x i 32 = rowSum x i := by
  rw [acc_eq_range, show 512 * 32 = 16384 by norm_num, Finset.sum_range]
  unfold rowSum
  refine Finset.sum_congr rfl (fun j _ => ?_)
  unfold wt
  congr 2
  exact Fin.ext (Nat.mod_eq_of_lt j.2)

/-! ### The square of a difference -/

/-- The coercion of the reals into the extended reals commutes with finite sums. -/
theorem coe_sum {ι : Type*} (s : Finset ι) (f : ι → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- For real entries the sum of squared differences is the three-term form. -/
theorem diff2_eq_dist2 (x : Feats) (h : Finite x) (i : Fin 16384) : diff2 x i = dist2 x i (partner i) := by
  choose r hr using h
  unfold diff2 dist2 sqn dotp
  rw [two_eq]
  simp only [hr, ← EReal.coe_mul, ← EReal.coe_sub, ← EReal.coe_add, ← coe_sum]
  rw [EReal.coe_eq_coe_iff]
  rw [Finset.mul_sum, ← Finset.sum_add_distrib, ← Finset.sum_sub_distrib]
  exact Finset.sum_congr rfl (fun d _ => by ring)

/-- The partner's weight from the sum of squared differences is its weight from the three-term distance. -/
theorem pair_eq (x : Feats) (h : Finite x) (i : Fin 16384) : pairKer x i = pairRef x i := by
  unfold pairKer pairRef
  rw [diff2_eq_dist2 x h i]

end Cert.Spec

end
-- ==== Proof.KerRowSums.lean ====
/-
  The value of the result column the region leaves, over the extended reals.

  Along the 32 grid points of one block row the scratch column is reset-and-added at the first point and added to at
  each later point: at the first point it is the zero word plus block 0's sum of weights, and at point k of the run it is
  what the point before left plus block k's sum. So after point t the scratch column at row r is the running sum of
  t mod 32 + 1 blocks of the row 2048 (t / 32) + r of the feature matrix (induction on the point). At the last point
  of a run the output's block is that column: the running sum of all 32 blocks, which is the row's sum of weights over
  every column. What that point writes back is therefore the block of ONE function of the column's index, the row sum,
  and the last points of the 8 runs cover the column: the array ends holding the row sums.

  The three equations between consecutive points are taken as hypotheses over an abstract family of pairs (output
  block, scratch column), so that this module needs only the blocks' reads and the payloads' values.
-/
import proofs.«164351_j84774064488939_1_alg».proof.Proof.KIEntry
import proofs.«164351_j84774064488939_1_alg».proof.Proof.KerBlocks
import proofs.«164351_j84774064488939_1_alg».proof.Proof.KerPayload
import proofs.«164351_j84774064488939_1_alg».proof.Proof.SpecLaws
import Idealize.ShloMosaic.Lib.Pipeline.Value

noncomputable section

namespace Cert.KerSide

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

/-- The feature matrix as the region finds it on core c. -/
abbrev feats : Cert.Spec.Feats := V m c main_arg0

/-- The result column the region leaves: every row's sum of weights over all columns. -/
abbrev rowSums : S16384x1.Idx → EReal := fun i => Cert.Spec.rowSum (feats m c) (i 0)

/-- Window 0's block at t holds rows 2048 (t / 32) + r of the feature matrix. -/
theorem iblk0_apply (t : Fin cfg0.N) (r : Fin 2048) (d : Fin 128) :
    iblk m c 0 t (ix2 r d) = feats m c (ix2 (rowOf t r) d) := by
  unfold iblk
  exact blk0_read (F := Ideal) (V m c main_arg0) t r d

/-- Window 1's block at t holds the rows of the matrix that are the columns of block t mod 32. -/
theorem iblk1_apply (t : Fin cfg0.N) (cc : Fin 512) (d : Fin 128) :
    iblk m c 1 t (ix2 cc d) = feats m c (ix2 (Cert.Spec.blockCol (t.val % 32) cc) d) := by
  unfold iblk
  exact blk1_read (F := Ideal) (V m c main_arg0) t cc d

/-! ## The scratch column, point by point -/

-- After each point: (the output block's contents, the scratch column), with the equations between consecutive points.
variable (outs : (n : ℕ) → n < cfg0.N → Vec Ideal S2048x1 .f32 × Vec Ideal S2048x1 .f32)
variable (hfirst : ∀ t : Fin cfg0.N, t.val % 32 = 0 →
    (outs t.val t.isLt).2 = k0_pay2 (iblk m c 0 t) (iblk m c 1 t) (k0_pay1 (F := Ideal)))
variable (hnext : ∀ t : Fin cfg0.N, t.val % 32 ≠ 0 →
    (outs t.val t.isLt).2 = k0_pay2 (iblk m c 0 t) (iblk m c 1 t) (outs (t.val - 1) (Nat.lt_of_le_of_lt (Nat.sub_le _ _) t.isLt)).2)
variable (hlast : ∀ t : Fin cfg0.N, t.val % 32 = 31 → (outs t.val t.isLt).1 = (outs t.val t.isLt).2)

include hfirst hnext in
/-- After point n the scratch column at row r is the running sum of n mod 32 + 1 blocks of its row of the matrix. -/
theorem scratch_acc (n : ℕ) : ∀ (hn : n < cfg0.N) (r : Fin 2048),
    (outs n hn).2 (ix2 r (0 : Fin 1)) = Cert.Spec.acc (feats m c) (rowOf ⟨n, hn⟩ r) (n % 32 + 1) := by
  induction n with
  | zero =>
    intro hn r
    rw [hfirst ⟨0, hn⟩ rfl]
    refine (pay2_apply (feats m c) (rowOf ⟨0, hn⟩) 0 _ _ _ (iblk0_apply m c ⟨0, hn⟩) (iblk1_apply m c ⟨0, hn⟩) r).trans ?_
    rw [pay1_apply]
    rfl
  | succ n ih =>
    intro hn r
    by_cases h : (n + 1) % 32 = 0
    · rw [hfirst ⟨n + 1, hn⟩ h]
      refine (pay2_apply (feats m c) (rowOf ⟨n + 1, hn⟩) ((n + 1) % 32) _ _ _ (iblk0_apply m c ⟨n + 1, hn⟩) (iblk1_apply m c ⟨n + 1, hn⟩) r).trans ?_
      rw [pay1_apply, h]
      rfl
    · rw [hnext ⟨n + 1, hn⟩ h]
      refine (pay2_apply (feats m c) (rowOf ⟨n + 1, hn⟩) ((n + 1) % 32) _ _ _ (iblk0_apply m c ⟨n + 1, hn⟩) (iblk1_apply m c ⟨n + 1, hn⟩) r).trans ?_
      show (outs n (Nat.lt_of_succ_lt hn)).2 (ix2 r (0 : Fin 1)) + _ = _
      rw [ih (Nat.lt_of_succ_lt hn) r]
      have hr : rowOf ⟨n, Nat.lt_of_succ_lt hn⟩ r = rowOf ⟨n + 1, hn⟩ r :=
        Fin.ext (by show 2048 * (n / 32) + r.val = 2048 * ((n + 1) / 32) + r.val; omega)
      rw [hr, show n % 32 + 1 = (n + 1) % 32 by omega]
      rfl

/-! ## What is written back, and the array after the region -/

variable (dat : Dat τ (Elt Ideal) Unit ℕ (UR sig nD τ) ℕ cfg0 c)
variable (hafter : ∀ t : Fin cfg0.N, dat.after 2 t = (outs t.val t.isLt).1)

include hfirst hnext hlast hafter in
/-- What a run's last point writes back is its block of the row sums. -/
theorem flushed_eq (t : Fin cfg0.N) (hf : (cfg0.win 2).flush t = true) :
    dat.flushed 2 t = ((cfg0.win 2).blk t).view.read (Elt Ideal) (rowSums m c) := by
  have h31 : t.val % 32 = 31 := (flush0_2 t).mp hf
  show (cfg0.win 2).cut (grid0.coords t) (dat.after 2 t) = _
  rw [hafter t, hlast t h31]
  funext j
  obtain ⟨r, z, rfl⟩ : ∃ (r : Fin 2048) (z : Fin 1), j = ix2 r z := ⟨j 0, j 1, eq_ix2 j⟩
  obtain rfl : z = 0 := Subsingleton.elim _ _
  show (outs t.val t.isLt).2 (ix2 r (0 : Fin 1)) = _
  rw [scratch_acc m c outs hfirst hnext t.val t.isLt r, h31]
  refine (Cert.Spec.acc_eq_rowSum (feats m c) (rowOf t r)).trans ?_
  exact (blk2_read (F := Ideal) (rowSums m c) t r 0).symm

include hfirst hnext hlast hafter in
/-- The result column after the region: every row's sum of weights over all columns. -/
theorem rowSums_final_of : dat.arrAt 2 cfg0.N = rowSums m c :=
  dat.arrAt_eq_of_cover 2 (rowSums m c) (flushed_eq m c outs hfirst hnext hlast dat hafter) cover2

end Cert.KerSide

end
-- ==== Proof.KerRowSumsFinal.lean ====
/-
  The result column the region leaves on the kernel's own proof data: the point-by-point equations of the scratch
  column and of the output block are the ones the kernel's run gives, so the column ends holding the row sums.
-/
import proofs.«164351_j84774064488939_1_alg».proof.Proof.KIValue
import proofs.«164351_j84774064488939_1_alg».proof.Proof.KerRowSums

noncomputable section

namespace Cert.KerSide

open Cert.KernelIdeal Cert.KernelIdeal.Gen Cert.KernelIdeal.Hand
open Idealize.ShloMosaic Idealize.ShloMosaic.TcCoe Idealize.SL.Sem

/-- The result column after the region, on the kernel's proof data: every row's sum of weights over all columns. -/
theorem rowSums_final (m : (ℓ : Loc nD τ sig) → Buf (Elt Ideal) ℓ) (c : Dev nD) :
    (dats (F := Ideal) m 0 c).arrAt 2 cfg0.N = fun i => Cert.Spec.rowSum (V m c main_arg0) (i 0) :=
  rowSums_final_of m c (outsAt0 m c) (scratch_first m c) (scratch_next m c) (out_last m c) (dats m 0 c) (after0_2 m c)

end Cert.KerSide

end
-- ==== Proof.KerColumn.lean ====
/-
  The column [16384, 1] reshaped to the vector [16384]: entry i of the vector is entry (i, 0) of the column, since
  both sit at row-major position i.
-/
import proofs.«164351_j84774064488939_1_alg».proof.Proof.Gen.KernelIdeal
import Idealize.ShloMosaic.Lib.Pipeline.Value
import Idealize.ShloMosaic.Lib.ValueIdx
import Idealize.ShloMosaic.Lib.ValueLayout

noncomputable section

namespace Cert.KerSide

open Cert.KernelIdeal Idealize.ShloMosaic Idealize.ShloMosaic.ValueIdx

variable {F : FTy → Type} [FloatOps F]

/-- The reshaped column at i is the column at (i, 0), whatever proof of the shapes' relation the cast carries. -/
theorem column_apply_of (h : S16384x1.ShapeCasts S16384) (o : FVec F S16384x1 .f32) (i : Fin 16384) :
    shapeCast S16384 o h (ix1 i) = o (ix2 i (0 : Fin 1)) :=
  shapeCast_apply o h _ _ (by
    rw [Shape.rowMajor_val_two, Shape.rowMajor_val_one]
    show i.val * 1 + 0 = i.val
    omega)

/-- The reshaped column at i is the column at (i, 0). -/
theorem column_apply (o : FVec F S16384x1 .f32) (i : Fin 16384) :
    shapeCast S16384 o Cert.KernelIdeal.Gen.shapeCasts_S16384x1_S16384 (ix1 i) = o (ix2 i (0 : Fin 1)) :=
  column_apply_of _ o i

/-- A column that is a function of its row index reshapes to that function of the vector's index. -/
theorem column_eq_of (h : S16384x1.ShapeCasts S16384) (o : FVec F S16384x1 .f32) (G : Fin 16384 → F .f32)
    (ho : o = fun i => G (i 0)) : shapeCast S16384 o h = fun j => G (j 0) := by
  funext j
  obtain ⟨i, rfl⟩ : ∃ i : Fin 16384, j = ix1 i := ⟨j 0, eq_ix1 j⟩
  rw [column_apply_of h o i, ho]

/-- A column that is a function of its row index reshapes to that function of the vector's index. -/
theorem column_eq (o : FVec F S16384x1 .f32) (G : Fin 16384 → F .f32) (ho : o = fun i => G (i 0)) :
    shapeCast S16384 o Cert.KernelIdeal.Gen.shapeCasts_S16384x1_S16384 = fun j => G (j 0) :=
  column_eq_of _ o G ho

end Cert.KerSide

end
-- ==== Proof.KerPair.lean ====
/-
  The host lines of the kernel program that compute a row's partner weight, read one entry at a time over the
  extended reals.

  The program rolls the feature matrix by half its rows (the lower half on top of the upper half), subtracts the
  rolled matrix from the matrix, squares, sums each row over the 128 features from a zero initial value, clamps at
  zero from below, adds one and divides one by the result. Row i of the rolled matrix is row (i + 8192) mod 16384 of the
  matrix, the row's partner; so entry i of the result is the Cauchy weight of Σ_d (x_i,d − x_p,d)².
-/
import proofs.«164351_j84774064488939_1_alg».proof.KernelIdeal
import proofs.«164351_j84774064488939_1_alg».proof.Proof.Gen.KernelIdeal
import proofs.«164351_j84774064488939_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KerSide

open Cert.KernelIdeal Idealize.ShloMosaic Idealize.ShloMosaic.ValueIdx

open Facts₀

/-- The matrix rolled by half its rows: the rows from 8192 on, then the rows below 8192. -/
def roll (x : FVec Ideal S16384x128 .f32) : FVec Ideal S16384x128 .f32 :=
  concatenate S16384x128 0
    [⟨S8192x128, extractStridedSlice S8192x128 ![8192, 0] x slices_S16384x128_S8192x128_8192_0⟩,
     ⟨S8192x128, extractStridedSlice S8192x128 ![0, 0] x slices_S16384x128_S8192x128_0_0⟩]
    concatenates_S8192x128_S8192x128_S16384x128_d0

/-- The partner weights as the program computes them: one over (the clamped row sum of squared differences from the
    rolled matrix, plus one). -/
def pairArr (x : FVec Ideal S16384x128 .f32) : FVec Ideal S16384 .f32 :=
  Host.divf (F := Ideal) (broadcastInDim S16384 ![] bcast_S_S16384 (constant (F := Ideal) S_ .f32 0x3F800000#32))
    (addf
      (maximumf
        (Host.reduceAdd (F := Ideal) (mulf (subf x (roll x)) (subf x (roll x))) (constant (F := Ideal) S_ .f32 0x00000000#32)
          reducesTo_S16384x128_S16384_d1 h_S_)
        (broadcastInDim S16384 ![] bcast_S_S16384 (constant (F := Ideal) S_ .f32 0x00000000#32)))
      (broadcastInDim S16384 ![] bcast_S_S16384 (constant (F := Ideal) S_ .f32 0x3F800000#32)))

/-- Row `i` of the rolled matrix is the partner row of `i`. -/
theorem roll_apply (x : FVec Ideal S16384x128 .f32) (i : Fin 16384) (d : Fin 128) :
    roll x (ix2 i d) = x (ix2 (Cert.Spec.partner i) d) := by
  have hi16 : i.val < 16384 := i.isLt
  unfold roll
  by_cases hi : i.val < 8192
  · refine (concatenate_pair_apply_left (t := S16384x128) (s₁ := S8192x128) (s₂ := S8192x128) (0 : Fin 2) _ _ _ (ix2 i d) rfl (ix2 (⟨i.val, hi⟩ : Fin 8192) d)
      (fun b => by match b with | ⟨0, _⟩ => rfl | ⟨1, _⟩ => rfl)).trans ?_
    refine slice2_axis0_apply 8192 x _ (⟨i.val, hi⟩ : Fin 8192) d (Cert.Spec.partner i) ?_
    show (i.val + 8192) % 16384 = 8192 + i.val
    omega
  · have hge : 8192 ≤ i.val := Nat.le_of_not_lt hi
    refine (concatenate_pair_apply_right (t := S16384x128) (s₁ := S8192x128) (s₂ := S8192x128) (0 : Fin 2) _ _ _ (ix2 i d) rfl rfl (ix2 (⟨i.val - 8192, by omega⟩ : Fin 8192) d)
      (fun b hb => by
        match b, hb with
        | ⟨0, _⟩, hb => exact absurd rfl hb
        | ⟨1, _⟩, _ => rfl)
      (by show i.val - 8192 + 8192 = i.val; omega)).trans ?_
    refine slice2_axis0_apply 0 x _ (⟨i.val - 8192, by omega⟩ : Fin 8192) d (Cert.Spec.partner i) ?_
    show (i.val + 8192) % 16384 = 0 + (i.val - 8192)
    omega

/-- The host's quotient at an index is the quotient of the entries. -/
theorem hostDivf_apply {s : Shape} {φ : FTy} (a b : FVec Ideal s φ) (i : s.Idx) :
    Host.divf (F := Ideal) a b i = Ideal.div (a i) (b i) := rfl

/-- A scalar constant broadcast to the 16384 rows reads its word's value at every row. -/
theorem splat_apply (w : BitVec 32) (h : S_.BroadcastsInDim S16384 (![] : Fin 0 → Fin S16384.rank)) (j : S16384.Idx) :
    broadcastInDim S16384 ![] h (constant (F := Ideal) S_ .f32 w) j = Ideal.ofBits .f32 w :=
  broadcastInDim_apply _ h _ j ix0 (fun a => a.elim0)

/-- The host's sum over the 128 features from the zero initial value, at row `i`. -/
theorem hostSum_apply (v : FVec Ideal S16384x128 .f32) (h' : S16384x128.ReducesTo [1] S16384) (hu : 0 < S_.numel)
    (i : Fin 16384) :
    Host.reduceAdd (F := Ideal) v (constant (F := Ideal) S_ .f32 0x00000000#32) h' hu (ix1 i) = ∑ d : Fin 128, v (ix2 i d) := by
  refine (Ideal.hostReduceAdd_single h' (by decide) v _ (ix1 i)).trans ?_
  refine (congrArg (· + _) (Ideal.ofBits_zero_f32)).trans ?_
  refine (zero_add _).trans ?_
  refine Finset.sum_congr rfl fun d _ => congrArg v ?_
  funext a
  match a with
  | ⟨0, _⟩ => rfl
  | ⟨1, _⟩ => rfl

/-- THE PARTNER WEIGHTS, index by index: entry `i` is the weight of row `i` and its partner from the sum of squared
    differences. -/
theorem pairArr_eq (x : FVec Ideal S16384x128 .f32) : pairArr x = fun j => Cert.Spec.pairKer x (j 0) := by
  funext j
  obtain ⟨i, rfl⟩ : ∃ i : Fin 16384, j = ix1 i := ⟨j 0, eq_ix1 j⟩
  unfold pairArr
  refine (hostDivf_apply _ _ _).trans ?_
  show _ = Cert.Spec.cauchy (Cert.Spec.diff2 x i)
  unfold Cert.Spec.cauchy
  refine congrArg₂ Ideal.div (splat_apply _ _ _) ?_
  refine (addf_apply _ _ _).trans ?_
  refine congrArg₂ (· + ·) ?_ (splat_apply _ _ _)
  refine (maximumf_apply _ _ _).trans ?_
  refine congrArg₂ max ?_ (splat_apply _ _ _)
  refine (hostSum_apply _ _ _ i).trans ?_
  unfold Cert.Spec.diff2
  refine Finset.sum_congr rfl fun d _ => ?_
  refine (mulf_apply _ _ _).trans ?_
  rw [subf_apply, roll_apply]

end Cert.KerSide

end
-- ==== Proof.FiniteInputs.lean ====
/-
  From the stated precondition to the finiteness of the feature matrix.

  The precondition is the conjunction, over all 16384 × 128 entries x, of |x| < +∞, where |x| = max x (−x) in the
  extended reals and the word 0x7F800000 denotes +∞. An extended real with max x (−x) < ⊤ is neither ⊤ nor ⊥, so it is
  a real number.
-/
import proofs.«164351_j84774064488939_1_alg».proof.Pre_finite_inputs
import proofs.«164351_j84774064488939_1_alg».proof.Proof.Gen.Pre_finite_inputs
import proofs.«164351_j84774064488939_1_alg».proof.Proof.Spec
import Idealize.ShloMosaic.Lib.ReduceAll
import Idealize.ShloMosaic.Lib.ValueIdx
import Idealize.ShloMosaic.PureOps.Ideal.Laws

noncomputable section

namespace Cert.Spec

open Idealize.ShloMosaic Idealize.ShloMosaic.ValueIdx

/-- The shape of a scalar has exactly one index. -/
instance subsingleton_scalar_idx : Subsingleton Cert.Pre_finite_inputs.S_.Idx :=
  ⟨fun a b => funext fun d => d.elim0⟩

/-- The word 0x7F800000 denotes +∞. -/
theorem inf_eq : Ideal.ofBits .f32 0x7F800000#32 = (⊤ : EReal) := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | coe r => exact ⟨r, rfl⟩
  | top => simp [Ideal.cmp] at h

/-- The precondition says that every entry of the feature matrix is a real number. -/
theorem finite_of_pre [Cert.Pre_finite_inputs.Facts]
    (a0 : (⟨Cert.Pre_finite_inputs.S16384x128, .f32⟩ : BufTy).Contents (Elt Ideal))
    (a1 : (⟨Cert.Pre_finite_inputs.S16384, .i32⟩ : BufTy).Contents (Elt Ideal))
    (h : Cert.Pre_finite_inputs.fn (F := Ideal) a0 a1 = fun _ => 1#1) : Cert.Spec.Finite a0 := by
  intro j
  have h0 := congrFun h ValueIdx.ix0
  dsimp only [Cert.Pre_finite_inputs.fn] at h0
  have hj := Host.reduce_andi_all _ _ _ _ _ h0 j
  exact real_of_abs_lt_inf (a0 j) hj

end Cert.Spec

end
-- ==== Proof.RefTerms.lean ====
/-
  The reference program's intermediate values as closed terms of its feature matrix, written with the program's own
  operations: the squared norms of the rows, the matrix of all pairwise squared distances in the three-term form
  |x_i|² + |x_j|² − 2⟨x_i, x_j⟩, the matrix of Cauchy weights 1 / (max d 0 + 1), the integer table of (row, partner)
  positions at which the weights are gathered, the gathered weights and the row sums of the weights, and the scalar
  the program finally forms from those two vectors (the mean of −log of the gathered weights plus the mean of the log
  of the row sums).
-/
import proofs.«164351_j84774064488939_1_alg».proof.ReferenceIdeal
import proofs.«164351_j84774064488939_1_alg».proof.Proof.Gen.ReferenceIdeal
import Idealize.ShloMosaic.PureOps.Ideal

noncomputable section

namespace Cert.RefSide

open Idealize.ShloMosaic Cert.ReferenceIdeal Cert.ReferenceIdeal.Facts₀

/-- The squared norm of every row: the sum over the 128 entries of the entry squared, from the zero word. -/
def sqArr (x : FVec Ideal S16384x128 .f32) : FVec Ideal S16384 .f32 :=
  Host.reduceAdd (F := Ideal) (mulf (F := Ideal) x x) (constant (F := Ideal) S_ .f32 0x00000000#32)
    reducesTo_S16384x128_S16384_d1 h_S_

/-- |x_i|² + |x_j|² at (i, j): the norms laid out as a column and as a row, each spread over the square, and added. -/
def normSum (x : FVec Ideal S16384x128 .f32) : FVec Ideal S16384x16384 .f32 :=
  addf (F := Ideal)
    (broadcastInDim S16384x16384 ![0, 1] bcast_S16384x1_S16384x16384_0_1
      (broadcastInDim S16384x1 ![0] bcast_S16384_S16384x1_0 (sqArr x)))
    (broadcastInDim S16384x16384 ![0, 1] bcast_S1x16384_S16384x16384_0_1
      (broadcastInDim S1x16384 ![1] bcast_S16384_S1x16384_1 (sqArr x)))

/-- ⟨x_i, x_j⟩ at (i, j): the matrix times its transpose. -/
def gram (x : FVec Ideal S16384x128 .f32) : FVec Ideal S16384x16384 .f32 :=
  Host.dotGeneral (F := Ideal) dot_S16384x128_S128x16384_S16384x16384_1_0_0_1_n_n none x
    (transpose S128x16384 [1, 0] x transposes_S16384x128_S128x16384_1_0)

/-- The squared distance of rows i and j in its three-term form. -/
def distArr (x : FVec Ideal S16384x128 .f32) : FVec Ideal S16384x16384 .f32 :=
  subf (F := Ideal) (normSum x)
    (mulf (F := Ideal)
      (broadcastInDim S16384x16384 ![] bcast_S_S16384x16384 (constant (F := Ideal) S_ .f32 0x40000000#32)) (gram x))

/-- The Cauchy weight of every pair of rows: 1 / (max d 0 + 1). -/
def wArr (x : FVec Ideal S16384x128 .f32) : FVec Ideal S16384x16384 .f32 :=
  Host.divf (F := Ideal)
    (broadcastInDim S16384x16384 ![] bcast_S_S16384x16384 (constant (F := Ideal) S_ .f32 0x3F800000#32))
    (addf (F := Ideal)
      (maximumf (F := Ideal) (distArr x)
        (broadcastInDim S16384x16384 ![] bcast_S_S16384x16384 (constant (F := Ideal) S_ .f32 0x00000000#32)))
      (broadcastInDim S16384x16384 ![] bcast_S_S16384x16384 (constant (F := Ideal) S_ .f32 0x3F800000#32)))

/-- The row numbers 0 … 16383 as 32-bit words. -/
def iotaArr : IVec S16384 32 := iotaInDim S16384 32 0

/-- The row number plus 8192. -/
def shifted : IVec S16384 32 :=
  addi iotaArr (broadcastInDim S16384 ![] bcast_S_S16384 (constantI S_ 32 8192#32))

/-- The divisor of the remainder: 16384, replaced by 1 were it zero. -/
def divisor : IVec S_ 32 :=
  select (cmpi .eq (id (constantI S_ 32 16384#32) : IVec S_ 32) (constantI S_ 32 0#32)) (constantI S_ 32 1#32)
    (id (constantI S_ 32 16384#32) : IVec S_ 32)

/-- The truncated remainder of the shifted row number by the divisor. -/
def truncRem : IVec S16384 32 :=
  Host.remsi shifted (broadcastInDim S16384 ![] bcast_S_S16384 divisor)

/-- The remainder with the divisor's sign: where the truncated remainder is nonzero and its sign differs from the
    divisor's, the divisor is added. -/
def remArr : IVec S16384 32 :=
  select
    (andi
      (cmpi .ne
        (cmpi .slt truncRem (broadcastInDim S16384 ![] bcast_S_S16384 (constantI S_ 32 0#32)))
        (broadcastInDim S16384 ![] bcast_S_S16384 (cmpi .slt divisor (constantI S_ 32 0#32))))
      (cmpi .ne truncRem (broadcastInDim S16384 ![] bcast_S_S16384 (constantI S_ 32 0#32))))
    (addi truncRem (broadcastInDim S16384 ![] bcast_S_S16384 divisor))
    truncRem

/-- A position counted from the end when negative: 16384 is added to a negative word. -/
def wrapNeg (v : IVec S16384 32) : IVec S16384 32 :=
  select (cmpi .slt v (broadcastInDim S16384 ![] bcast_S_S16384 (constantI S_ 32 0#32)))
    (addi v (broadcastInDim S16384 ![] bcast_S_S16384 (constantI S_ 32 16384#32))) v

/-- The table of positions: row i holds (i, partner of i), each as a 32-bit word. -/
def idxArr : IVec S16384x2 32 :=
  concatenate S16384x2 1
    [⟨S16384x1, broadcastInDim S16384x1 ![0] bcast_S16384_S16384x1_0 (wrapNeg iotaArr)⟩,
     ⟨S16384x1, broadcastInDim S16384x1 ![0] bcast_S16384_S16384x1_0 (wrapNeg remArr)⟩]
    concatenates_S16384x1_S16384x1_S16384x2_d1

/-- The weight of every row with its partner: the weights gathered at the table's positions. -/
def pairArr (x : FVec Ideal S16384x128 .f32) : FVec Ideal S16384 .f32 :=
  Host.gather gather_S16384x16384_S16384x2_S16384_n_01_n_n_01_1_11 (wArr x) idxArr

/-- The sum of every row of weights, from the zero word. -/
def sumArr (x : FVec Ideal S16384x128 .f32) : FVec Ideal S16384 .f32 :=
  Host.reduceAdd (F := Ideal) (wArr x) (constant (F := Ideal) S_ .f32 0x00000000#32)
    reducesTo_S16384x16384_S16384_d1 h_S_

/-- The scalar formed from the gathered weights p and the row sums s: the sum of −log p divided by 16384, plus the
    sum of (log s)·1 divided by 16384. -/
def tail (p s : FVec Ideal S16384 .f32) : FVec Ideal S_ .f32 :=
  addf (F := Ideal)
    (Host.divf (F := Ideal)
      (Host.reduceAdd (F := Ideal) (Host.negf (F := Ideal) (Host.log (F := Ideal) p))
        (constant (F := Ideal) S_ .f32 0x00000000#32) reducesTo_S16384_S_d0 h_S_)
      (constant (F := Ideal) S_ .f32 0x46800000#32))
    (Host.divf (F := Ideal)
      (Host.reduceAdd (F := Ideal)
        (mulf (F := Ideal) (Host.log (F := Ideal) s)
          (broadcastInDim S16384 ![] bcast_S_S16384 (constant (F := Ideal) S_ .f32 0x3F800000#32)))
        (constant (F := Ideal) S_ .f32 0x00000000#32) reducesTo_S16384_S_d0 h_S_)
      (constant (F := Ideal) S_ .f32 0x46800000#32))

end Cert.RefSide

end
-- ==== Proof.KEntry.lean ====
/-
  What the three runs of the kernel body share.

  The grid is 8 row blocks by 32 column blocks, walked row block by row block: point t is column block t % 32 of row
  block t / 32. The body keeps a running column of 2048 row sums in a scratch buffer: at the first column block of a
  run it stores the zero column into it, at every column block it adds the block's 2048 partial sums to it, and at the
  last column block it copies the finished column into the output window's staging buffer, which it touches at no
  other point. Here: the arrays as the region finds them, a window's block at a point, the two conditions of the body
  in closed form over the grid, where the output window is idle and where it is written back, and the names of the
  staging and scratch memrefs the runs are stated over.
-/
import proofs.«164351_j84774064488939_1_alg».proof.Proof.Gen.Kernel.Launch
import proofs.«164351_j84774064488939_1_alg».proof.Proof.Gen.Kernel.Skeleton
import proofs.«164351_j84774064488939_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and a window's block -/

/-- The TensorCore buffers of core `c` when the region is entered: no host operation comes before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's staging buffer holds its block at every point, fetched there or not (it is fetched only at
    the first column block of a run, and its block index does not move within a run), for any proof data over `V`'s
    arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same of the column-block window, which is fetched at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- The body's first condition, as it computes it from the grid coordinates: the column block is the first. -/
abbrev atFirst (i : grid0.Coords) : Prop := (Scalar.cmpi .ne (Scalar.extui (Scalar.cmpi .eq (BitVec.ofNat 32 (i 1).val) 0#32)) 0#32) = 1#1
/-- It holds exactly at the points t with t % 32 = 0. -/
theorem atFirst_iff : ∀ t : Fin cfg0.N, atFirst (grid0.coords t) ↔ t.val % 32 = 0 :=
  (by decide +kernel : ∀ t : Fin grid0.N, atFirst (grid0.coords t) ↔ t.val % 32 = 0)

/-- The body's second condition: the column block is the last. -/
abbrev atLast (i : grid0.Coords) : Prop := k0_cond2 i = 1#1
/-- It holds exactly at the points t with t % 32 = 31. -/
theorem atLast_iff : ∀ t : Fin cfg0.N, atLast (grid0.coords t) ↔ t.val % 32 = 31 :=
  (by decide +kernel : ∀ t : Fin grid0.N, atLast (grid0.coords t) ↔ t.val % 32 = 31)

/-! ## Where the windows are idle -/

/-- The two input windows are never idle. -/
theorem live0 : ∀ t : Fin cfg0.N, cfg0.idle 0 (grid0.coords t) = false := by decide +kernel
theorem live1 : ∀ t : Fin cfg0.N, cfg0.idle 1 (grid0.coords t) = false := by decide +kernel
/-- Away from the last column block the output window is idle, and its block is not written back. -/
theorem idle2_of_not_last : ∀ t : Fin cfg0.N, ¬atLast (grid0.coords t) → cfg0.idle 2 (grid0.coords t) = true := by decide +kernel
theorem noFlush2_of_not_last : ∀ t : Fin cfg0.N, ¬atLast (grid0.coords t) → (cfg0.win 2).flush t = false := by decide +kernel
/-- At the last column block it is live. -/
theorem live2_of_last : ∀ t : Fin cfg0.N, atLast (grid0.coords t) → cfg0.idle 2 (grid0.coords t) = false := by decide +kernel

/-! ## The memrefs the runs are stated over -/

/-- One staging buffer of the output window, through which its contents are stated (the choice does not matter). -/
abbrev outV : View sig .tc .vmem S2048x1 .f32 := (Memref.whole cc0_stg2_0 : Memref sig .tc .vmem S2048x1 .f32).view
/-- Each window's current staging memref at point `t`, as the pipeline passes it, and its wholeness. -/
abbrev rowM (t : Fin cfg0.N) : Memref sig .tc .vmem S2048x128 .f32 := win0_0.stage (cfg0.slots t 0)
abbrev rowM_whole (t : Fin cfg0.N) : (rowM t).IsWhole := hstage0_0 ((cfg0.slots t 0).cast nbuf0_0)
abbrev colM (t : Fin cfg0.N) : Memref sig .tc .vmem S512x128 .f32 := win0_1.stage (cfg0.slots t 1)
abbrev colM_whole (t : Fin cfg0.N) : (colM t).IsWhole := hstage0_1 ((cfg0.slots t 1).cast nbuf0_1)
abbrev outM (t : Fin cfg0.N) : Memref sig .tc .vmem S2048x1 .f32 := win0_2.stage (cfg0.slots t 2)
abbrev outM_whole (t : Fin cfg0.N) : (outM t).IsWhole := hstage0_2 ((cfg0.slots t 2).cast nbuf0_2)
/-- The scratch column the kernel carries between points, as a memref and as a view. -/
abbrev accM : Memref sig .tc .vmem S2048x1 .f32 := Memref.whole cc0_scratch0
abbrev accV : View sig .tc .vmem S2048x1 .f32 := accM.view

/-- The core's scoped buffers that are no staging buffer: the scratch column, owned at some contents. -/
theorem scopedRest_eq (c : Dev nD) :
    (Pipeline.scopedRest spec0 c : sProp 𝕄) = iprop(∃ d, owns (c : Thread nD τ) accM fullShare d) := by
  rw [scopedRest0_eq]; simp only [accM, owns_whole]; try rfl

end Cert.Kernel.Hand

end
-- ==== Proof.KRunFirst.lean ====
/-
  The body at the first column block of a run (the first condition holds, the second does not).

  It stores the zero column into the scratch, loads the row block, the column block and the scratch, and stores the
  zero column plus the block's partial row sums back into the scratch. The output window's staging buffer is handed
  back as it was found. What the scratch holds afterwards is given as the list of the two stores, last first.
-/
import proofs.«164351_j84774064488939_1_alg».proof.Proof.KEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body's triple at a first column block: from the two input blocks in their staging memrefs, the output's
    staging memref at any contents `xi2` and the scratch at some contents, it runs to the inputs as they were, the
    output's memref untouched and the scratch with the pieces `LS` written, which the run finds. -/
noncomputable def runFirst (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : atFirst i) (hc1 : ¬atLast i) (x0 : Vec F S2048x128 .f32) (x1 : Vec F S512x128 .f32) :
    { LS : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc0__row_sum_kernel i arg2 harg2 arg3 harg3 arg4 harg4 arg5 harg5) K } := by
  refine ⟨?_, fun xi2 E K => ?run⟩
  case run =>
    simp only [cc0__row_sum_kernel_eq_skeleton]; unfold cc0__row_sum_kernel_skel
    simp only [k0_part1_eq_skeleton]; unfold k0_part1_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.KRunMiddle.lean ====
/-
  The body at a column block that is neither the first nor the last of its run (neither condition holds).

  It loads the row block, the column block and the scratch, and stores the scratch's column plus the block's partial
  row sums back into the scratch. The output window's staging buffer is handed back as it was found.
-/
import proofs.«164351_j84774064488939_1_alg».proof.Proof.KRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body's triple at a middle column block: from the two input blocks, the output's staging memref at any
    contents `xi2` and the scratch at the column `xs` the point before left, it runs to the inputs as they were, the
    output's memref untouched and the scratch with the pieces `LS` written, which the run finds. -/
noncomputable def runMiddle (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : ¬atLast i) (x0 : Vec F S2048x128 .f32) (x1 : Vec F S512x128 .f32) (xs : Vec F S2048x1 .f32) :
    { LS : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc0__row_sum_kernel i arg2 harg2 arg3 harg3 arg4 harg4 arg5 harg5) K } := by
  refine ⟨?_, fun xi2 E K => ?run⟩
  case run =>
    simp only [cc0__row_sum_kernel_eq_skeleton]; unfold cc0__row_sum_kernel_skel
    simp only [k0_part1_eq_skeleton]; unfold k0_part1_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.KRunLast.lean ====
/-
  The body at the last column block of a run (the second condition holds, the first does not).

  It loads the row block, the column block and the scratch, stores the scratch's column plus the block's partial row
  sums back into the scratch, then loads the scratch and the output's staging buffer and stores the scratch's finished
  column into the output's staging buffer.
-/
import proofs.«164351_j84774064488939_1_alg».proof.Proof.KRunMiddle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body's triple at a last column block: from the two input blocks, the output's staging memref at anything and
    the scratch at the column `xs` the point before left, it runs to the inputs as they were, the output's memref with
    the pieces `L2` written and the scratch with the pieces `LS` written; the run finds both lists. -/
noncomputable def runLast (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : atLast i) (x0 : Vec F S2048x128 .f32) (x1 : Vec F S512x128 .f32) (xs : Vec F S2048x1 .f32) :
    Σ' (L2 : List (View.Piece (Elt F) S2048x1 .f32)), { LS : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__row_sum_kernel i arg2 harg2 arg3 harg3 arg4 harg4 arg5 harg5) K } := by
  refine ⟨?_, ?_, fun E K => ?run⟩
  case run =>
    simp only [cc0__row_sum_kernel_eq_skeleton]; unfold cc0__row_sum_kernel_skel
    simp only [k0_part1_eq_skeleton]; unfold k0_part1_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.KData.lean ====
/-
  What the scratch column and the output window hold after each grid point, and the pipeline's proof data.

  Each run leaves the scratch as a list of whole-column stores; read back, that is one column (`accFirst`, `accMiddle`,
  `accLast`), and at a last column block the output's staging buffer likewise (`outLast`). `outsAt0` walks the grid:
  after point n the scratch holds the case's column, computed from the point's two input blocks and (away from a first
  column block) from the column the point before left. The region invariant is the scratch owned at that column; before
  the first point it is the scratch at anything.
-/
import proofs.«164351_j84774064488939_1_alg».proof.Proof.KRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves, read back -/

/-- The stores of a first column block cover the scratch. -/
theorem accCover_first (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : atFirst i) (hc1 : ¬atLast i) (x0 : Vec F S2048x128 .f32) (x1 : Vec F S512x128 .f32) (y : S2048x1.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S2048x1.size (by sl_kernel_rfl) y

/-- What a first column block leaves in the scratch. -/
def accFirst (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : atFirst i) (hc1 : ¬atLast i) (x0 : Vec F S2048x128 .f32) (x1 : Vec F S512x128 .f32) : Vec F S2048x1 .f32 :=
  accV.read (Elt F) (accV.writes (Elt F) accV.junk (runFirst c i arg2 harg2 arg3 harg3 arg4 harg4 arg5 harg5 hc0 hc1 x0 x1).1)

/-- The store of a middle column block covers the scratch. -/
theorem accCover_middle (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : ¬atLast i) (x0 : Vec F S2048x128 .f32) (x1 : Vec F S512x128 .f32) (xs : Vec F S2048x1 .f32) (y : S2048x1.Idx) :
    ∃ pc ∈ (runMiddle c i arg2 harg2 arg3 harg3 arg4 harg4 arg5 harg5 hc0 hc1 x0 x1 xs).1, y ∈ pc.1.set :=
  View.cover_of_tiledL (runMiddle c i arg2 harg2 arg3 harg3 arg4 harg4 arg5 harg5 hc0 hc1 x0 x1 xs).1 S2048x1.size (by sl_kernel_rfl) y

/-- What a middle column block leaves in the scratch. -/
def accMiddle (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : ¬atLast i) (x0 : Vec F S2048x128 .f32) (x1 : Vec F S512x128 .f32) (xs : Vec F S2048x1 .f32) : Vec F S2048x1 .f32 :=
  accV.read (Elt F) (accV.writes (Elt F) accV.junk (runMiddle c i arg2 harg2 arg3 harg3 arg4 harg4 arg5 harg5 hc0 hc1 x0 x1 xs).1)

/-- The store of a last column block into the output's staging buffer covers it. -/
theorem outCover_last (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : atLast i) (x0 : Vec F S2048x128 .f32) (x1 : Vec F S512x128 .f32) (xs : Vec F S2048x1 .f32) (y : S2048x1.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S2048x1.size (by sl_kernel_rfl) y

/-- What a last column block leaves in the output's staging buffer. -/
def outLast (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : atLast i) (x0 : Vec F S2048x128 .f32) (x1 : Vec F S512x128 .f32) (xs : Vec F S2048x1 .f32) : Vec F S2048x1 .f32 :=
  outV.read (Elt F) (outV.writes (Elt F) outV.junk (runLast c i arg2 harg2 arg3 harg3 arg4 harg4 arg5 harg5 hc0 hc1 x0 x1 xs).1)

/-- The store of a last column block into the scratch covers it. -/
theorem accCover_last (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : atLast i) (x0 : Vec F S2048x128 .f32) (x1 : Vec F S512x128 .f32) (xs : Vec F S2048x1 .f32) (y : S2048x1.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S2048x1.size (by sl_kernel_rfl) y

/-- What a last column block leaves in the scratch. -/
def accLast (c : Dev nD) (i : grid0.Coords)
    (arg2 : Memref sig .tc .vmem S2048x128 .f32) (harg2 : arg2.IsWhole) (arg3 : Memref sig .tc .vmem S512x128 .f32) (harg3 : arg3.IsWhole)
    (arg4 : Memref sig .tc .vmem S2048x1 .f32) (harg4 : arg4.IsWhole) (arg5 : Memref sig .tc .vmem S2048x1 .f32) (harg5 : arg5.IsWhole)
    (hc0 : ¬atFirst i) (hc1 : atLast i) (x0 : Vec F S2048x128 .f32) (x1 : Vec F S512x128 .f32) (xs : Vec F S2048x1 .f32) : Vec F S2048x1 .f32 :=
  accV.read (Elt F) (accV.writes (Elt F) accV.junk (runLast c i arg2 harg2 arg3 harg3 arg4 harg4 arg5 harg5 hc0 hc1 x0 x1 xs).2.1)

/-! ## Point by point -/

/-- THE ACCUMULATION. After the body at position `n`: (the output window's staging contents, the scratch column). The
    scratch column is the case's, from the point's input blocks and, away from a first column block, the column the
    point before left. The output's contents are named only at a last column block (what the body stores there);
    elsewhere the window is idle and not written back, nothing reads the name, and it is set to the scratch column. -/
def outsAt0 (c : Dev nD) : (n : ℕ) → n < cfg0.N → Vec F S2048x1 .f32 × Vec F S2048x1 .f32
  | 0, hn =>
    (accFirst c (grid0.coords ⟨0, hn⟩) (rowM ⟨0, hn⟩) (rowM_whole ⟨0, hn⟩) (colM ⟨0, hn⟩) (colM_whole ⟨0, hn⟩) (outM ⟨0, hn⟩) (outM_whole ⟨0, hn⟩) accM (Memref.isWhole_whole _) ((atFirst_iff ⟨0, hn⟩).mpr (Nat.zero_mod _)) (fun h => (fun h => by (try dsimp only at h); omega) ((atLast_iff ⟨0, hn⟩).mp h)) (iblk m c 0 ⟨0, hn⟩) (iblk m c 1 ⟨0, hn⟩),
     accFirst c (grid0.coords ⟨0, hn⟩) (rowM ⟨0, hn⟩) (rowM_whole ⟨0, hn⟩) (colM ⟨0, hn⟩) (colM_whole ⟨0, hn⟩) (outM ⟨0, hn⟩) (outM_whole ⟨0, hn⟩) accM (Memref.isWhole_whole _) ((atFirst_iff ⟨0, hn⟩).mpr (Nat.zero_mod _)) (fun h => (fun h => by (try dsimp only at h); omega) ((atLast_iff ⟨0, hn⟩).mp h)) (iblk m c 0 ⟨0, hn⟩) (iblk m c 1 ⟨0, hn⟩))
  | n + 1, hn =>
    if h0 : (n + 1) % 32 = 0 then
      (accFirst c (grid0.coords ⟨n + 1, hn⟩) (rowM ⟨n + 1, hn⟩) (rowM_whole ⟨n + 1, hn⟩) (colM ⟨n + 1, hn⟩) (colM_whole ⟨n + 1, hn⟩) (outM ⟨n + 1, hn⟩) (outM_whole ⟨n + 1, hn⟩) accM (Memref.isWhole_whole _) ((atFirst_iff ⟨n + 1, hn⟩).mpr h0) (fun h => (fun h => by (try dsimp only at h); omega) ((atLast_iff ⟨n + 1, hn⟩).mp h)) (iblk m c 0 ⟨n + 1, hn⟩) (iblk m c 1 ⟨n + 1, hn⟩),
       accFirst c (grid0.coords ⟨n + 1, hn⟩) (rowM ⟨n + 1, hn⟩) (rowM_whole ⟨n + 1, hn⟩) (colM ⟨n + 1, hn⟩) (colM_whole ⟨n + 1, hn⟩) (outM ⟨n + 1, hn⟩) (outM_whole ⟨n + 1, hn⟩) accM (Memref.isWhole_whole _) ((atFirst_iff ⟨n + 1, hn⟩).mpr h0) (fun h => (fun h => by (try dsimp only at h); omega) ((atLast_iff ⟨n + 1, hn⟩).mp h)) (iblk m c 0 ⟨n + 1, hn⟩) (iblk m c 1 ⟨n + 1, hn⟩))
    else
      if h1 : (n + 1) % 32 = 31 then
        (outLast c (grid0.coords ⟨n + 1, hn⟩) (rowM ⟨n + 1, hn⟩) (rowM_whole ⟨n + 1, hn⟩) (colM ⟨n + 1, hn⟩) (colM_whole ⟨n + 1, hn⟩) (outM ⟨n + 1, hn⟩) (outM_whole ⟨n + 1, hn⟩) accM (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (outsAt0 c n (Nat.lt_of_succ_lt hn)).2,
         accLast c (grid0.coords ⟨n + 1, hn⟩) (rowM ⟨n + 1, hn⟩) (rowM_whole ⟨n + 1, hn⟩) (colM ⟨n + 1, hn⟩) (colM_whole ⟨n + 1, hn⟩) (outM ⟨n + 1, hn⟩) (outM_whole ⟨n + 1, hn⟩) accM (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (outsAt0 c n (Nat.lt_of_succ_lt hn)).2)
      else
        (accMiddle c (grid0.coords ⟨n + 1, hn⟩) (rowM ⟨n + 1, hn⟩) (rowM_whole ⟨n + 1, hn⟩) (colM ⟨n + 1, hn⟩) (colM_whole ⟨n + 1, hn⟩) (outM ⟨n + 1, hn⟩) (outM_whole ⟨n + 1, hn⟩) accM (Memref.isWhole_whole _) (fun h => h0 ((atFirst_iff ⟨n + 1, hn⟩).mp h)) (fun h => h1 ((atLast_iff ⟨n + 1, hn⟩).mp h)) (iblk m c 0 ⟨n + 1, hn⟩) (iblk m c 1 ⟨n + 1, hn⟩) (outsAt0 c n (Nat.lt_of_succ_lt hn)).2,
         accMiddle c (grid0.coords ⟨n + 1, hn⟩) (rowM ⟨n + 1, hn⟩) (rowM_whole ⟨n + 1, hn⟩) (colM ⟨n + 1, hn⟩) (colM_whole ⟨n + 1, hn⟩) (outM ⟨n + 1, hn⟩) (outM_whole ⟨n + 1, hn⟩) accM (Memref.isWhole_whole _) (fun h => h0 ((atFirst_iff ⟨n + 1, hn⟩).mp h)) (fun h => h1 ((atLast_iff ⟨n + 1, hn⟩).mp h)) (iblk m c 0 ⟨n + 1, hn⟩) (iblk m c 1 ⟨n + 1, hn⟩) (outsAt0 c n (Nat.lt_of_succ_lt hn)).2)

/-- `outsAt0` at a first column block. -/
theorem outsAt0_first (c : Dev nD) (t : Fin cfg0.N) (h0 : t.val % 32 = 0) (h1 : ¬t.val % 32 = 31) :
    outsAt0 m c t.val t.isLt =
      (accFirst c (grid0.coords t) (rowM t) (rowM_whole t) (colM t) (colM_whole t) (outM t) (outM_whole t) accM (Memref.isWhole_whole _) ((atFirst_iff t).mpr h0) (fun h => h1 ((atLast_iff t).mp h)) (iblk m c 0 t) (iblk m c 1 t),
       accFirst c (grid0.coords t) (rowM t) (rowM_whole t) (colM t) (colM_whole t) (outM t) (outM_whole t) accM (Memref.isWhole_whole _) ((atFirst_iff t).mpr h0) (fun h => h1 ((atLast_iff t).mp h)) (iblk m c 0 t) (iblk m c 1 t)) := by
  obtain ⟨n, hn⟩ := t
  cases n with
  | zero => exact rfl
  | succ n => exact (dif_pos h0).trans rfl

/-- `outsAt0` at a middle column block, over the column the point before left. -/
theorem outsAt0_middle (c : Dev nD) (t : Fin cfg0.N) (h0 : ¬t.val % 32 = 0) (h1 : ¬t.val % 32 = 31) :
    outsAt0 m c t.val t.isLt =
      (accMiddle c (grid0.coords t) (rowM t) (rowM_whole t) (colM t) (colM_whole t) (outM t) (outM_whole t) accM (Memref.isWhole_whole _) (fun h => h0 ((atFirst_iff t).mp h)) (fun h => h1 ((atLast_iff t).mp h)) (iblk m c 0 t) (iblk m c 1 t) (outsAt0 m c (t.val - 1) (Nat.lt_of_le_of_lt (Nat.sub_le _ _) t.isLt)).2,
       accMiddle c (grid0.coords t) (rowM t) (rowM_whole t) (colM t) (colM_whole t) (outM t) (outM_whole t) accM (Memref.isWhole_whole _) (fun h => h0 ((atFirst_iff t).mp h)) (fun h => h1 ((atLast_iff t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last column block, over the column the point before left. -/
theorem outsAt0_last (c : Dev nD) (t : Fin cfg0.N) (h0 : ¬t.val % 32 = 0) (h1 : t.val % 32 = 31) :
    outsAt0 m c t.val t.isLt =
      (outLast c (grid0.coords t) (rowM t) (rowM_whole t) (colM t) (colM_whole t) (outM t) (outM_whole t) accM (Memref.isWhole_whole _) (fun h => h0 ((atFirst_iff t).mp h)) ((atLast_iff t).mpr h1) (iblk m c 0 t) (iblk m c 1 t) (outsAt0 m c (t.val - 1) (Nat.lt_of_le_of_lt (Nat.sub_le _ _) t.isLt)).2,
       accLast c (grid0.coords t) (rowM t) (rowM_whole t) (colM t) (colM_whole t) (outM t) (outM_whole t) accM (Memref.isWhole_whole _) (fun h => h0 ((atFirst_iff t).mp h)) ((atLast_iff t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the core's scoped rest (the scratch at anything); afterwards the scratch
    owned at the column the point before left. -/
def PhiS (c : Dev nD) : (n : ℕ) → n ≤ cfg0.N → sProp 𝕄
  | 0, _ => Pipeline.scopedRest spec0 c
  | n + 1, hn => owns (c : Thread nD τ) (Memref.whole cc0_scratch0) fullShare (outsAt0 m c n hn).2

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) accM fullShare (outsAt0 m c n hn).2 := rfl

theorem PhiS_pos (c : Dev nD) (n : ℕ) (h : n ≤ cfg0.N) (hz : n ≠ 0) :
    PhiS m c n h = owns (c : Thread nD τ) accM fullShare (outsAt0 m c (n - 1) (by omega)).2 := by
  cases n with
  | zero => exact absurd rfl hz
  | succ n => rfl

/-! ## The pipeline's proof data -/

/-- The proof data of the pipeline on core `c`: the arrays as the region finds them; after the body at point `t` each
    input's buffer at its block and the output's at `outsAt0`'s first component; the invariant `PhiS`; nothing owed.
    The two input windows read one array, each at half the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the launch hands the region is the invariant before the first point. -/
theorem hin (c : Dev nD) : Pipeline.scopedRest spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scoped rest back: the column's name is forgotten. -/
theorem Phi_out (c : Dev nD) (t : Fin (cfg0.N + 1)) (ht : t.val ≠ 0) : (dats m 0 c).Φ t ⊢ Pipeline.scopedRest spec0 c := by
  rw [show (dats m 0 c).Φ t = PhiS m c t.val (Nat.le_of_lt_succ t.isLt) from rfl, PhiS_pos m c _ _ ht, scopedRest_eq]
  iintro HS
  iexists _; iexact HS

/-- The same after the last point. -/
theorem hout (c : Dev nD) : (dats m 0 c).Φ (Fin.last cfg0.N) ⊢ Pipeline.scopedRest spec0 c :=
  Phi_out m c _ (by rw [Fin.val_last]; have : cfg0.N = 256 := N_0; omega)

end Cert.Kernel.Hand

end
-- ==== Proof.KBody.lean ====
/-
  The body obligation: at every grid point the kernel body, called on the windows' current staging memrefs, takes the
  region invariant and the buffers as the pipeline hands them to the invariant at the next point and the buffers as the
  proof data says it leaves them.

  The closed forms of the two conditions say which of the three cases a point is in. The two input buffers hold their
  blocks at every point. The output's buffer is handed back untouched away from a last column block (the window is idle
  there and not written back) and holds the finished column at one. The scratch goes in at anything at the very first
  point and at the column the point before left at every other, and comes out at this point's column.
-/
import proofs.«164351_j84774064488939_1_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (rowM t) fullShare ((dats m 0 c).before 0 t d))
    ∗ (∃ d, owns (c : Thread nD τ) (colM t) fullShare ((dats m 0 c).before 1 t d))
    ∗ (∃ d, owns (c : Thread nD τ) (outM t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (rowM t) fullShare ((dats m 0 c).after 0 t) from by
    unfold Dat.leavesExact; rw [live0 t], after0_0]
  rw [show (dats m 0 c).leavesExact 1 t = owns (c : Thread nD τ) (colM t) fullShare ((dats m 0 c).after 1 t) from by
    unfold Dat.leavesExact; rw [live1 t], after0_1]
  by_cases h0 : t.val % 32 = 0
  · have h1 : ¬t.val % 32 = 31 := by omega
    rw [Dat.leavesExact_idle (dats m 0 c) 2 t (idle2_of_not_last t (fun h => h1 ((atLast_iff t).mp h))) (noFlush2_of_not_last t (fun h => h1 ((atLast_iff t).mp h)))]
    rw [outsAt0_first m c t h0 h1]
    unfold accFirst; (try dsimp only)
    by_cases hz : t.val = 0
    · rw [PhiS_castSucc m c t, PhiS_zero m c _ _ hz, scopedRest_eq]
      iintro ⟨HS, Ho, ⟨%d0, H0⟩, ⟨%d1, H1⟩, ⟨%d2, H2⟩⟩
      iapply ((runFirst c (grid0.coords t) _ _ _ _ _ _ _ _ ((atFirst_iff t).mpr h0) (fun h => h1 ((atLast_iff t).mp h)) (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS]
      · unfold owns; iexists _; isplitr
        swap; · iexact HS
        ipureintro; exact View.read_writes_of_cover _ _ _ _ _ (accCover_first c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS, Ho, ⟨%d0, H0⟩, ⟨%d1, H1⟩, ⟨%d2, H2⟩⟩
      iapply ((runFirst c (grid0.coords t) _ _ _ _ _ _ _ _ ((atFirst_iff t).mpr h0) (fun h => h1 ((atLast_iff t).mp h)) (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS]
      · unfold owns; iexists _; isplitr
        swap; · iexact HS
        ipureintro; exact View.read_writes_of_cover _ _ _ _ _ (accCover_first c _ _ _ _ _ _ _ _ _ _ _ _ _)
      isplitl [Ho]; · iexact Ho
      isplitl [H0]; · iexact H0
      isplitl [H1]; · iexact H1
      iexists _; iexact H2
  · have hz : t.val ≠ 0 := fun e => h0 (by rw [e])
    by_cases h1 : t.val % 32 = 31
    · rw [show (dats m 0 c).leavesExact 2 t = owns (c : Thread nD τ) (outM t) fullShare ((dats m 0 c).after 2 t) from by
        unfold Dat.leavesExact; rw [live2_of_last t ((atLast_iff t).mpr h1)], after0_2]
      rw [outsAt0_last m c t h0 h1]
      unfold outLast accLast; (try dsimp only)
      rw [PhiS_castSucc m c t, PhiS_pos m c _ _ hz]
      iintro ⟨HS, Ho, ⟨%d0, H0⟩, ⟨%d1, H1⟩, ⟨%d2, H2⟩⟩
      iapply ((runLast c (grid0.coords t) _ _ _ _ _ _ _ _ (fun h => h0 ((atFirst_iff t).mp h)) ((atLast_iff t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS]
      · unfold owns; iexists _; isplitr
        swap; · iexact HS
        ipureintro; exact View.read_writes_of_cover _ _ _ _ _ (accCover_last c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (outCover_last c _ _ _ _ _ _ _ _ _ _ _ _ _ _)
    · rw [Dat.leavesExact_idle (dats m 0 c) 2 t (idle2_of_not_last t (fun h => h1 ((atLast_iff t).mp h))) (noFlush2_of_not_last t (fun h => h1 ((atLast_iff t).mp h)))]
      rw [outsAt0_middle m c t h0 h1]
      unfold accMiddle; (try dsimp only)
      rw [PhiS_castSucc m c t, PhiS_pos m c _ _ hz]
      iintro ⟨HS, Ho, ⟨%d0, H0⟩, ⟨%d1, H1⟩, ⟨%d2, H2⟩⟩
      iapply ((runMiddle c (grid0.coords t) _ _ _ _ _ _ _ _ (fun h => h0 ((atFirst_iff t).mp h)) (fun h => h1 ((atLast_iff t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS]
      · unfold owns; iexists _; isplitr
        swap; · iexact HS
        ipureintro; exact View.read_writes_of_cover _ _ _ _ _ (accCover_middle c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KAround.lean ====
/-
  The run of @main around the kernel region, for any proof data of the region.

  The region's three windows stand on two arrays: both input windows read the feature matrix (by blocks of 2048 rows
  and by blocks of 512 rows), the output window writes the row sums. The region theorem that admits this holds the
  feature matrix twice, once per window, at the two halves of the full share; so at the region's entry the whole
  array is split in two, and at its exit, where both halves still hold the launch contents, it is joined again for
  the host lines that follow (which read the feature matrix and the row sums and write neither). The region's
  invariant is the kernel's scratch column alone. The result: every weakly fair execution terminates with the
  feature matrix as launched and every buffer that bypasses the region at what the host lines compute from the
  region's exit contents.
-/
import proofs.«164351_j84774064488939_1_alg».proof.Proof.Gen.Kernel.Launch
import proofs.«164351_j84774064488939_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents around the region

@main is the region followed by three stretches of host lines. Two of the region's three windows read the SAME array
(the feature matrix, once by blocks of 2048 rows and once by blocks of 512 rows); the third writes the row sums. So
the region touches two distinct arrays, and the host lines after it read both. -/

/-- The host lines after the region, stretch by stretch. -/
abbrev tailOps : List (List (HloOp τ sig (Elt F))) := [hostOps1, hostOps1_1, hostOps1_2]

/-- The two distinct arrays behind the three windows: the feature matrix and the row sums. -/
abbrev win2 : Fin 2 → Pipeline.WinSpec sig grid0.rank :=
  fun | 0 => spec0 0 | 1 => spec0 2 | ⟨_ + 2, h⟩ => absurd h (Nat.not_lt.2 (Nat.le_add_left _ _))

/-- Core c's buffer contents when the region is entered: the launch contents (no host line precedes the region). -/
abbrev E0 (c : Dev nD) : Valuation τ sig (Elt F) := StableHlo.after (List.flatten []) (fun b => m (c, b))
/-- The same read at a TensorCore reference. -/
abbrev E (c : Dev nD) (b : Ref sig .tc) : Buf (Elt F) ((c : Thread nD τ).loc b) := E0 m c (Proc.devRef .tc b)

variable (dats : (p : Fin 1) → (c : Dev nD) → Dat τ (Elt F) Unit ℕ (UR sig nD τ) ℕ (cfgs p) c)

/-- What the two arrays hold when the region is left: the feature matrix as the proof data's first window ends with
    it, the row sums as its third window does. -/
def exitA (c : Dev nD) : (w : Fin 2) → Buf (Elt F) ((win2 w).arr.view.loc (c.tc : Thread nD τ)) :=
  fun | ⟨0, _⟩ => (dats 0 c).arrAt 0 cfg0.N | ⟨1, _⟩ => (dats 0 c).arrAt 2 cfg0.N
/-- Core c's buffer contents when the region is left. -/
def exitV (c : Dev nD) : Valuation τ sig (Elt F) := Pipeline.withArrays win2 c (E0 m c) (exitA dats c)
/-- Core c's buffer contents after the host lines that follow the region. -/
def endV (c : Dev nD) (b : Ref sig .tc) : Buf (Elt F) ((c.tc : Thread nD τ).loc b) :=
  StableHlo.after (tailOps (F := F)).flatten (exitV m dats c) (Proc.devRef .tc b)

theorem win2_inj : Function.Injective (Pipeline.arrRef win2) := by decide

theorem hmain : Pipeline.HMainK (Ix := Unit) (Name := ℕ) (U := UR sig nD τ) (Lvl := ℕ) cfgs 0 defs₀ Variants.none m (main (F := F)) (E m)
      (fun _ => Pipeline.chain ((tailOps (F := F)).map StableHlo.seq)) :=
  Pipeline.hmain_around cfgs 0 defs₀ Variants.none m main [] tailOps (by simp only [List.Forall])
    (by simp only [List.Forall]) main_chain

/-! ## The shares of the feature matrix

Both input windows read the feature matrix, so the region holds it twice, at the two halves of the full share. -/

theorem share0 (hq0 : ∀ c, (dats 0 c).q 0 = fullShare.left) (c : Dev nD) : (dats 0 c).share 0 = fullShare.left := by
  unfold Dat.share; exact (if_neg (by decide)).trans (hq0 c)
theorem share1 (hq1 : ∀ c, (dats 0 c).q 1 = fullShare.right) (c : Dev nD) : (dats 0 c).share 1 = fullShare.right := by
  unfold Dat.share; exact (if_neg (by decide)).trans (hq1 c)
theorem share2 (c : Dev nD) : (dats 0 c).share 2 = fullShare := by
  unfold Dat.share; exact if_pos (by decide)

/-- The distinct arrays behind the windows are the feature matrix and the row sums. -/
theorem arrs_eq : Finset.univ.image (Pipeline.arrRef spec0) = [main_arg0, main_v0].toFinset := by decide

/-- The proof data's arrays, window by window: the feature matrix at its two half shares and the row sums whole. -/
theorem arrays_three (hq0 : ∀ c, (dats 0 c).q 0 = fullShare.left) (hq1 : ∀ c, (dats 0 c).q 1 = fullShare.right) (c : Dev nD)
    (G : (w : Fin cfg0.W) → Buf (Elt F) ((cfg0.win w).arr.view.loc (c.tc : Thread nD τ))) :
    ((dats 0 c).arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_v0) ↦{fullShare} G 2)) := by
  unfold Dat.arrays
  rw [bigSep_W0, (arr_whole0 0).set_eq_univ, (arr_whole0 2).set_eq_univ, share0 dats hq0 c, share1 dats hq1 c, share2 dats c]

/-- The distinct arrays held whole, one by one. -/
theorem arrBufs_two (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v0) ↦{fullShare} W main_v0)) :=
  bigSep_eq_bigSepL_of_eq [main_arg0, main_v0] arrs_eq (by decide) _

/-- At entry: the feature matrix held whole splits into the two halves the input windows hold. -/
theorem entry_split (hq0 : ∀ c, (dats 0 c).q 0 = fullShare.left) (hq1 : ∀ c, (dats 0 c).q 1 = fullShare.right)
    (hA : ∀ c w, (dats 0 c).A w = E m c (Pipeline.arrRef spec0 w)) (c : Dev nD) :
    (Pipeline.arrBufs spec0 c (E m c) : sProp 𝕄) ⊢ (dats 0 c).arrays fun w => (dats 0 c).arrAt w 0 := by
  rw [arrays_three dats hq0 hq1 c]
  rw [arrBufs_two]
  rw [show (dats 0 c).arrAt 0 0 = E m c main_arg0 from hA c 0, show (dats 0 c).arrAt 1 0 = E m c main_arg0 from hA c 1,
    show (dats 0 c).arrAt 2 0 = E m c main_v0 from hA c 2]
  iintro ⟨H0, H2⟩
  ihave H0 := (pointsTo_share (PosShare.mem_left_op_right fullShare)).1 $$ H0
  icases H0 with ⟨Hl, Hr⟩
  isplitl [Hl]; · iexact Hl
  isplitl [Hr]; · iexact Hr
  iexact H2

/-! ## The host lines after the region

They run within the two arrays and the buffers that bypass the region; none of them writes either array. For them the
feature matrix is held whole again: its two halves, which hold the same contents, are rejoined at the region's exit
and split again once the lines have run. -/

/-- The two arrays are unscoped. -/
theorem win2_unscoped : ∀ w, (Pipeline.arrRef win2 w).isScoped = false := by decide

/-- The buffers that bypass the region are the same whether the windows' arrays are counted once or twice. -/
theorem arrs2_eq : Finset.univ.image (Pipeline.arrRef win2) = Finset.univ.image (Pipeline.arrRef spec0) := by decide

theorem rest2_eq (c : Dev nD) (W : (b : Ref sig .tc) → Buf (Elt F) ((c.tc : Thread nD τ).loc b)) :
    (Pipeline.unscopedRestP Pipeline.Prefetch.none win2 c W : sProp 𝕄) = Pipeline.unscopedRestP Pipeline.Prefetch.none spec0 c W := by
  unfold Pipeline.unscopedRestP; rw [arrs2_eq]

/-- The two arrays held whole, one by one. -/
theorem arrPts2 (c : Dev nD) (A : (w : Fin 2) → Buf (Elt F) ((win2 w).arr.view.loc (c.tc : Thread nD τ))) :
    (Pipeline.arrPts win2 c A : sProp 𝕄)
      = iprop((((c.tc : Thread nD τ).loc main_arg0) ↦{fullShare} A 0) ∗ (((c.tc : Thread nD τ).loc main_v0) ↦{fullShare} A 1)) :=
  bigSep_univ_eq_bigSepL [(0 : Fin 2), (1 : Fin 2)] (by decide) (by decide) _

theorem hostOps1_fresh : (hostOps1 : List (HloOp τ sig (Elt F))).Forall fun op => op.fresh = ∅ := by
  simp only [List.Forall]; rfl
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem tail_sub : ∀ ops ∈ (tailOps : List (List (HloOp τ sig (Elt F)))), ∀ op ∈ ops,
    op.bufs ⊆ Pipeline.tailRefs sig Pipeline.Prefetch.none win2 := by
  rw [Pipeline.tailRefs_none win2 win2_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Each line writes its own result buffer, which is neither the feature matrix nor the row sums. -/
theorem hostOps1_keeps : (hostOps1 : List (HloOp τ sig (Elt F))).Forall fun op => ∀ w, Proc.devRef .tc (Pipeline.arrRef win2 w) ∉ op.writes := by
  simp only [List.Forall]
  intro w; fin_cases w <;> simp only [StableHlo.reshape_writes, Finset.mem_singleton] <;> exact StableHlo.devRef_ne_of_ne (by decide)
theorem hostOps1_1_keeps : (hostOps1_1 : List (HloOp τ sig (Elt F))).Forall fun op => ∀ w, Proc.devRef .tc (Pipeline.arrRef win2 w) ∉ op.writes := by
  simp only [List.Forall]
  repeat' constructor
  all_goals intro w; fin_cases w <;> simp only [StableHlo.TRef.unary, StableHlo.TRef.binary, StableHlo.unary_writes, StableHlo.binary_writes, Finset.mem_singleton] <;> exact StableHlo.devRef_ne_of_ne (by decide)
theorem hostOps1_2_keeps : (hostOps1_2 : List (HloOp τ sig (Elt F))).Forall fun op => ∀ w, Proc.devRef .tc (Pipeline.arrRef win2 w) ∉ op.writes := by
  simp only [List.Forall]
  repeat' constructor
  all_goals intro w; fin_cases w <;> simp only [StableHlo.nullary_writes, StableHlo.unary_writes, StableHlo.binary_writes, Finset.mem_singleton] <;> exact StableHlo.devRef_ne_of_ne (by decide)

theorem tail_keeps : ∀ ops ∈ (tailOps : List (List (HloOp τ sig (Elt F)))), ∀ op ∈ ops,
    ∀ w, Proc.devRef .tc (Pipeline.arrRef win2 w) ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-- Both input windows end with the feature matrix as they found it, so the two halves hold the same contents. -/
theorem exit_same (hA : ∀ c w, (dats 0 c).A w = E m c (Pipeline.arrRef spec0 w)) (c : Dev nD) :
    (dats 0 c).arrAt 1 cfg0.N = (dats 0 c).arrAt 0 cfg0.N :=
  ((dats 0 c).arrAt_in 1 rfl _).trans ((hA c 1).trans (((dats 0 c).arrAt_in 0 rfl _).trans (hA c 0)).symm)

set_option backward.isDefEq.respectTransparency.types false in
/-- From the region's exit the host lines run, and hand back the arrays as the region left them and the bypassing
    buffers at what the lines computed. -/
theorem exit_tail (hq0 : ∀ c, (dats 0 c).q 0 = fullShare.left) (hq1 : ∀ c, (dats 0 c).q 1 = fullShare.right)
    (hA : ∀ c w, (dats 0 c).A w = E m c (Pipeline.arrRef spec0 w)) (c : Dev nD) (Q' : PUnit → sProp 𝕄) :
    iprop((iprop((dats 0 c).arrays (fun w => (dats 0 c).arrAt w cfg0.N) ∗ Pipeline.unscopedRestP Pipeline.Prefetch.none spec0 c (endV m dats c)) -∗ Q' ⟨⟩)
        ∗ boundary (c.tc : Thread nD τ) ∗ (dats 0 c).arrays (fun w => (dats 0 c).arrAt w cfg0.N)
        ∗ Pipeline.unscopedRestP Pipeline.Prefetch.none spec0 c (E m c))
      ⊢ wp frame (wpE (Pipeline.defs (fun q => (cfgs q).toPCfg (Val := Elt F)) defs₀) (Variants.lift Variants.none) (c.tc : Thread nD τ) none) Set.univ
          (Pipeline.chain ((tailOps (F := F)).map StableHlo.seq)) Q' := by
  rw [arrays_three dats hq0 hq1 c, exit_same m dats hA c]
  iintro ⟨Hk, Hb, ⟨Hl, Hr, H2⟩, HZ⟩
  ihave H0 := (pointsTo_share (PosShare.mem_left_op_right fullShare)).2 $$ [Hl Hr]
  · isplitl [Hl] <;> iassumption
  iapply (Pipeline.tail_seqs (fun q => (cfgs q).toPCfg (Val := Elt F)) defs₀ Variants.none Pipeline.Prefetch.none win2 win2_inj c (E0 m c) (exitA dats c)
    tailOps tail_sub tail_fresh tail_keeps Q')
  rw [arrPts2, rest2_eq, rest2_eq]
  isplitl [Hk]
  · iintro ⟨⟨H0, H2⟩, HZ'⟩
    iapply Hk
    ihave H0 := (pointsTo_share (PosShare.mem_left_op_right fullShare)).1 $$ H0
    icases H0 with ⟨Hl, Hr⟩
    isplitr [HZ']
    · isplitl [Hl]; · iexact Hl
      isplitl [Hr]; · iexact Hr
      iexact H2
    iexact HZ'
  isplitl [Hb]; · iexact Hb
  isplitl [H0 H2]
  · isplitl [H0]; · iexact H0
    iexact H2
  iexact HZ

set_option backward.isDefEq.respectTransparency.types false in
theorem run_around
    (hq0 : ∀ c, (dats 0 c).q 0 = fullShare.left) (hq1 : ∀ c, (dats 0 c).q 1 = fullShare.right)
    (hA : ∀ c w, (dats 0 c).A w = E m c (Pipeline.arrRef spec0 w))
    (howed : ∀ c t, (dats 0 c).owed t = 0)
    (hbody : ∀ c, BodyObligationLoose (dats 0 c) (defs₀ (F := F)) Variants.none () Set.univ)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) (s₀ m ρ) (fun r => ∀ c : Dev nD,
      (∀ b ∈ Pipeline.restRefsP sig Pipeline.Prefetch.none spec0, r.2.mem ((c.tc : Thread nD τ).loc b) = endV m dats c b)
      ∧ r.2.mem ((c.tc : Thread nD τ).loc main_arg0) = m ((c.tc : Thread nD τ).loc main_arg0)) := by
  classical
  exact Pipeline.θ_run_region_noSem_pf_tail (fun q => (cfgs q).toPCfg (Val := Elt F)) (fun q => (cfgs q).toPCfg_adm) dats () cellOf_inj (0 : Fin 1)
    winFacts₀0 (Pipeline.PreFacts.none _) emb₁ defs₀ Variants.none m ρ main
    (fun _ => Pipeline.chain ((tailOps (F := F)).map StableHlo.seq)) hbody block_pos0 arr_whole0 stage_whole0 howed
    (u₀ := initOf (Pipeline.cells cfgs cellOf_inj) (Pipeline.launchToks cfgs cellOf_inj))
    (hu₀ := .rfl)
    (V := E m) (hmain := hmain m)
    (hsplit := entry_split m dats hq0 hq1 hA)
    (hpf := fun _ k => k.elim0)
    (X := fun _ => iprop(emp)) (Y := fun _ => iprop(emp))
    (Z := fun c => Pipeline.unscopedRestP (Ix := Unit) (Name := ℕ) (U := UR sig nD τ) (Lvl := ℕ) Pipeline.Prefetch.none spec0 c (E m c))
    (Z' := fun c => Pipeline.unscopedRestP (Ix := Unit) (Name := ℕ) (U := UR sig nD τ) (Lvl := ℕ) Pipeline.Prefetch.none spec0 c (endV m dats c))
    (hX := fun c => by
      iintro H
      isplitr; · iempintro
      iexact H)
    (hin := fun c => (show _ ⊢ (Pipeline.scopedRest spec0 c : sProp 𝕄) from by iintro ⟨-, -, HR⟩; iexact HR).trans (hin c))
    (hout := fun c => (hout c).trans (by
      iintro H
      isplitr; · iempintro
      iexact H))
    (htail := exit_tail m dats hq0 hq1 hA)
    (QY := fun c s => ∀ b ∈ Pipeline.restRefsP sig Pipeline.Prefetch.none spec0, s.mem ((c.tc : Thread nD τ).loc b) = endV m dats c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (endV m dats c) s')
      isplitl [HU] <;> iassumption)
    (hQ := fun s h c => ⟨(h c).2.2, ((h c).1 0).trans (((dats 0 c).arrAt_in 0 rfl _).trans (hA c 0))⟩)

end Cert.Kernel.Around

end
-- ==== Proof.KResult.lean ====
/-
  What the run around the region delivers: the two arguments as launched, and the result as a function of them.

  The host lines after the region are read off their fold one by one: the roll of the feature matrix by half its
  rows (two slices and a concatenate), the sum of squared differences to it, the clamp and the Cauchy weight; the
  column of row sums read as a vector; the two logarithms, their means, and the sum. No line writes the index
  argument, and the region does not name it, so it ends as launched; the feature matrix is an input of the region
  and ends as launched too.
-/
import proofs.«164351_j84774064488939_1_alg».proof.Proof.KAround
import Idealize.ShloMosaic.Lib.StableHlo.Run

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-! ## What the host lines compute

The lines after the region take the feature matrix x and the region's column of row sums o. One chain forms, row by
row, the squared distance to the partner row as the sum of squared differences against the matrix rolled by half its
rows, clamps it at zero and takes the Cauchy weight (`pairTerm`); the other reads the column of row sums as a vector.
The loss is the mean of minus the logarithm of the first plus the mean of the logarithm of the second (`lossTail`). -/

/-- The feature matrix rolled by half its rows: its second half above its first. -/
def rolled (x : FVec F S16384x128 .f32) : FVec F S16384x128 .f32 :=
  concatenate S16384x128 0 [⟨S8192x128, extractStridedSlice S8192x128 ![8192, 0] x slices_S16384x128_S8192x128_8192_0⟩,
    ⟨S8192x128, extractStridedSlice S8192x128 ![0, 0] x slices_S16384x128_S8192x128_0_0⟩] concatenates_S8192x128_S8192x128_S16384x128_d0

/-- The partner weights: 1 / (max (Σ_d (x − rolled x)²) 0 + 1), row by row. -/
def pairTerm (x : FVec F S16384x128 .f32) : FVec F S16384 .f32 :=
  Host.divf (broadcastInDim S16384 ![] bcast_S_S16384 (constant S_ .f32 0x3F800000#32))
    (addf (maximumf (Host.reduceAdd (mulf (subf x (rolled x)) (subf x (rolled x))) (constant S_ .f32 0x00000000#32) reducesTo_S16384x128_S16384_d1 h_S_)
        (broadcastInDim S16384 ![] bcast_S_S16384 (constant S_ .f32 0x00000000#32)))
      (broadcastInDim S16384 ![] bcast_S_S16384 (constant S_ .f32 0x3F800000#32)))

/-- The loss from the partner weights p and the row sums s: mean (−log p) + mean (log s · 1). -/
def lossTail (p s : FVec F S16384 .f32) : FVec F S_ .f32 :=
  addf
    (Host.divf (Host.reduceAdd (Host.negf (Host.log p)) (constant S_ .f32 0x00000000#32) reducesTo_S16384_S_d0 h_S_) (constant S_ .f32 0x46800000#32))
    (Host.divf (Host.reduceAdd (mulf (Host.log s) (broadcastInDim S16384 ![] bcast_S_S16384 (constant S_ .f32 0x3F800000#32)))
        (constant S_ .f32 0x00000000#32) reducesTo_S16384_S_d0 h_S_) (constant S_ .f32 0x46800000#32))

/-! ## The exit contents of the two arrays -/

theorem exitV_arg0 (c : Dev nD) : exitV m dats c (Proc.devRef .tc main_arg0) = (dats 0 c).arrAt 0 cfg0.N :=
  Pipeline.withArrays_arr win2 win2_inj c (E0 m c) (exitA dats c) 0
theorem exitV_v0 (c : Dev nD) : exitV m dats c (Proc.devRef .tc main_v0) = (dats 0 c).arrAt 2 cfg0.N :=
  Pipeline.withArrays_arr win2 win2_inj c (E0 m c) (exitA dats c) 1

/-- The result buffer and the index argument bypass the region. -/
theorem v21_rest : main_v21 ∈ Pipeline.restRefsP sig Pipeline.Prefetch.none spec0 := by decide
theorem arg1_rest : main_arg1 ∈ Pipeline.restRefsP sig Pipeline.Prefetch.none spec0 := by decide

set_option maxHeartbeats 4000000 in
/-- The result after the host lines: the loss of the partner weights of the feature matrix and the region's row sums. -/
theorem endV_v21 (c : Dev nD) :
    endV m dats c main_v21
      = lossTail (pairTerm ((dats 0 c).arrAt 0 cfg0.N)) (shapeCast S16384 ((dats 0 c).arrAt 2 cfg0.N) shapeCasts_S16384x1_S16384) := by
  unfold endV
  simp only [tailOps, hostOps1, hostOps1_1, hostOps1_2, List.flatten_cons, List.flatten_nil, List.append_nil, List.cons_append, List.nil_append,
    StableHlo.TRef.unary, StableHlo.TRef.binary, StableHlo.TRef.toBuf, StableHlo.TRef.ofBuf, StableHlo.TRef.of, cast_eq]
  after_results_simp
  repeat (first
    | rw [StableHlo.unary_result] | rw [StableHlo.reshape_result]
    | (rw [StableHlo.unary_result_ne]; rotate_left; decide)
    | (rw [StableHlo.reshape_result_ne]; rotate_left; decide))
  rw [exitV_arg0, exitV_v0]
  unfold lossTail pairTerm rolled
  rfl

/-! ## The index argument ends as launched

No host line writes it and the region does not name it. -/

theorem hostOps1_skips : (hostOps1 : List (HloOp τ sig (Elt F))).Forall fun op => Proc.devRef .tc main_arg1 ∉ op.writes := by
  simp only [List.Forall]
  simp only [StableHlo.reshape_writes, Finset.mem_singleton]; exact StableHlo.devRef_ne_of_ne (by decide)
theorem hostOps1_1_skips : (hostOps1_1 : List (HloOp τ sig (Elt F))).Forall fun op => Proc.devRef .tc main_arg1 ∉ op.writes := by
  simp only [List.Forall]
  repeat' constructor
  all_goals simp only [StableHlo.TRef.unary, StableHlo.TRef.binary, StableHlo.unary_writes, StableHlo.binary_writes, Finset.mem_singleton] <;> exact StableHlo.devRef_ne_of_ne (by decide)
theorem hostOps1_2_skips : (hostOps1_2 : List (HloOp τ sig (Elt F))).Forall fun op => Proc.devRef .tc main_arg1 ∉ op.writes := by
  simp only [List.Forall]
  repeat' constructor
  all_goals simp only [StableHlo.nullary_writes, StableHlo.unary_writes, StableHlo.binary_writes, Finset.mem_singleton] <;> exact StableHlo.devRef_ne_of_ne (by decide)

theorem endV_arg1 (c : Dev nD) : endV m dats c main_arg1 = m ((c.tc : Thread nD τ).loc main_arg1) := by
  unfold endV
  rw [StableHlo.after_of_forall_not_mem _ _ fun op hop => ?_]
  · unfold exitV
    rw [Pipeline.withArrays_of_ne win2 c (E0 m c) (exitA dats c) main_arg1 (by decide)]
    rfl
  · obtain ⟨ops, hops, hop⟩ := List.mem_flatten.mp hop
    simp only [tailOps, List.mem_cons, List.mem_nil_iff, or_false] at hops
    rcases hops with rfl | rfl | rfl
    · exact (List.forall_iff_forall_mem.mp hostOps1_skips) op hop
    · exact (List.forall_iff_forall_mem.mp hostOps1_1_skips) op hop
    · exact (List.forall_iff_forall_mem.mp hostOps1_2_skips) op hop

/-- The frame: every weakly fair execution terminates, faulting nowhere, with both arguments as launched. -/
theorem frame_of
    (hq0 : ∀ c, (dats 0 c).q 0 = fullShare.left) (hq1 : ∀ c, (dats 0 c).q 1 = fullShare.right)
    (hA : ∀ c w, (dats 0 c).A w = E m c (Pipeline.arrRef spec0 w))
    (howed : ∀ c t, (dats 0 c).owed t = 0)
    (hbody : ∀ c, BodyObligationLoose (dats 0 c) (defs₀ (F := F)) Variants.none () Set.univ)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2, ((h c).1 main_arg1 arg1_rest).trans (endV_arg1 m dats c)⟩)
    (run_around m ρ dats hq0 hq1 hA howed hbody hin hout)

/-- The run with the result named: the loss of the partner weights of the launched feature matrix and of the row sums
    the region leaves. -/
theorem result_of
    (hq0 : ∀ c, (dats 0 c).q 0 = fullShare.left) (hq1 : ∀ c, (dats 0 c).q 1 = fullShare.right)
    (hA : ∀ c w, (dats 0 c).A w = E m c (Pipeline.arrRef spec0 w))
    (howed : ∀ c t, (dats 0 c).owed t = 0)
    (hbody : ∀ c, BodyObligationLoose (dats 0 c) (defs₀ (F := F)) Variants.none () Set.univ)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) ⟨m, fun _ => 0, ρ⟩ (fun r => ∀ c : Dev nD,
      r.2.mem ((c.tc : Thread nD τ).loc main_v21)
          = lossTail (pairTerm (m ((c.tc : Thread nD τ).loc main_arg0))) (shapeCast S16384 ((dats 0 c).arrAt 2 cfg0.N) shapeCasts_S16384x1_S16384)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 main_v21 v21_rest).trans ((endV_v21 m dats c).trans (by
      rw [show (dats 0 c).arrAt 0 cfg0.N = m ((c.tc : Thread nD τ).loc main_arg0) from ((dats 0 c).arrAt_in 0 rfl _).trans (hA c 0)])),
    (h c).2, ((h c).1 main_arg1 arg1_rest).trans (endV_arg1 m dats c)⟩)
    (run_around m ρ dats hq0 hq1 hA howed hbody hin hout)

end Cert.Kernel.Around

end
-- ==== Proof.RefOps.lean ====
/-
  The reference program as a straight line. Its @main is 84 host operations once the call of the remainder function
  (and, inside it, of the select function) is unfolded at its call site over the call's own buffers: the list below,
  in order, and the proof that @main is the sequence of that list. Every operation touches TensorCore buffers only and
  the signature scopes nothing, which is what the run of a straight line asks.
-/
import proofs.«164351_j84774064488939_1_alg».proof.Proof.RefTerms
import Idealize.ShloMosaic.Lib.StableHlo.Run

noncomputable section

namespace Cert.RefSide

open Cert.ReferenceIdeal Cert.ReferenceIdeal.Facts₀ Idealize.ShloMosaic Idealize.ShloMosaic.TcCoe Idealize.SL.Sem
  Idealize.ShloMosaic.StableHlo

variable {F : FTy → Type} [FloatOps F]

/-- @main's 84 operations, in order: the first 27 of its own, the 21 of the remainder function into the call's
    buffers (the fifth of them the select function's one), then its remaining 36. -/
abbrev ops : List (HloOp τ sig (Elt F)) :=
  [
    StableHlo.binary main_arg0 main_arg0 main_v0 (mulf : (⟨S16384x128, .f32⟩ : BufTy).Contents (Elt F) → (⟨S16384x128, .f32⟩ : BufTy).Contents (Elt F) → (⟨S16384x128, .f32⟩ : BufTy).Contents (Elt F)),
    StableHlo.nullary main_cst (constant S_ .f32 0x00000000#32),
    StableHlo.binary main_v0 main_cst main_v1 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    StableHlo.unary main_v1 main_v2 (broadcastInDim S16384x1 ![0] bcast_S16384_S16384x1_0 : (⟨S16384, .f32⟩ : BufTy).Contents (Elt F) → (⟨S16384x1, .f32⟩ : BufTy).Contents (Elt F)),
    StableHlo.unary main_v1 main_v3 (broadcastInDim S1x16384 ![1] bcast_S16384_S1x16384_1 : (⟨S16384, .f32⟩ : BufTy).Contents (Elt F) → (⟨S1x16384, .f32⟩ : BufTy).Contents (Elt F)),
    StableHlo.unary main_v2 main_v4 (broadcastInDim S16384x16384 ![0, 1] bcast_S16384x1_S16384x16384_0_1 : (⟨S16384x1, .f32⟩ : BufTy).Contents (Elt F) → (⟨S16384x16384, .f32⟩ : BufTy).Contents (Elt F)),
    StableHlo.unary main_v3 main_v5 (broadcastInDim S16384x16384 ![0, 1] bcast_S1x16384_S16384x16384_0_1 : (⟨S1x16384, .f32⟩ : BufTy).Contents (Elt F) → (⟨S16384x16384, .f32⟩ : BufTy).Contents (Elt F)),
    StableHlo.binary main_v4 main_v5 main_v6 (addf : (⟨S16384x16384, .f32⟩ : BufTy).Contents (Elt F) → (⟨S16384x16384, .f32⟩ : BufTy).Contents (Elt F) → (⟨S16384x16384, .f32⟩ : BufTy).Contents (Elt F)),
    StableHlo.unary main_arg0 main_v7 ((transpose S128x16384 [1, 0] · transposes_S16384x128_S128x16384_1_0) : (⟨S16384x128, .f32⟩ : BufTy).Contents (Elt F) → (⟨S128x16384, .f32⟩ : BufTy).Contents (Elt F)),
    StableHlo.binary main_arg0 main_v7 main_v8 ((fun l r => Host.dotGeneral dot_S16384x128_S128x16384_S16384x16384_1_0_0_1_n_n none l r) : (⟨S16384x128, .f32⟩ : BufTy).Contents (Elt F) → (⟨S128x16384, .f32⟩ : BufTy).Contents (Elt F) → (⟨S16384x16384, .f32⟩ : BufTy).Contents (Elt F)),
    StableHlo.nullary main_cst_0 (constant S_ .f32 0x40000000#32),
    StableHlo.unary main_cst_0 main_v9 (broadcastInDim S16384x16384 ![] bcast_S_S16384x16384 : (⟨S_, .f32⟩ : BufTy).Contents (Elt F) → (⟨S16384x16384, .f32⟩ : BufTy).Contents (Elt F)),
    StableHlo.binary main_v9 main_v8 main_v10 (mulf : (⟨S16384x16384, .f32⟩ : BufTy).Contents (Elt F) → (⟨S16384x16384, .f32⟩ : BufTy).Contents (Elt F) → (⟨S16384x16384, .f32⟩ : BufTy).Contents (Elt F)),
    StableHlo.binary main_v6 main_v10 main_v11 (subf : (⟨S16384x16384, .f32⟩ : BufTy).Contents (Elt F) → (⟨S16384x16384, .f32⟩ : BufTy).Contents (Elt F) → (⟨S16384x16384, .f32⟩ : BufTy).Contents (Elt F)),
    StableHlo.nullary main_cst_1 (constant S_ .f32 0x00000000#32),
    StableHlo.unary main_cst_1 main_v12 (broadcastInDim S16384x16384 ![] bcast_S_S16384x16384 : (⟨S_, .f32⟩ : BufTy).Contents (Elt F) → (⟨S16384x16384, .f32⟩ : BufTy).Contents (Elt F)),
    StableHlo.binary main_v11 main_v12 main_v13 (maximumf : (⟨S16384x16384, .f32⟩ : BufTy).Contents (Elt F) → (⟨S16384x16384, .f32⟩ : BufTy).Contents (Elt F) → (⟨S16384x16384, .f32⟩ : BufTy).Contents (Elt F)),
    StableHlo.nullary main_cst_2 (constant S_ .f32 0x3F800000#32),
    StableHlo.unary main_cst_2 main_v14 (broadcastInDim S16384x16384 ![] bcast_S_S16384x16384 : (⟨S_, .f32⟩ : BufTy).Contents (Elt F) → (⟨S16384x16384, .f32⟩ : BufTy).Contents (Elt F)),
    StableHlo.binary main_v13 main_v14 main_v15 (addf : (⟨S16384x16384, .f32⟩ : BufTy).Contents (Elt F) → (⟨S16384x16384, .f32⟩ : BufTy).Contents (Elt F) → (⟨S16384x16384, .f32⟩ : BufTy).Contents (Elt F)),
    StableHlo.nullary main_cst_3 (constant S_ .f32 0x3F800000#32),
    StableHlo.unary main_cst_3 main_v16 (broadcastInDim S16384x16384 ![] bcast_S_S16384x16384 : (⟨S_, .f32⟩ : BufTy).Contents (Elt F) → (⟨S16384x16384, .f32⟩ : BufTy).Contents (Elt F)),
    StableHlo.binary main_v16 main_v15 main_v17 (Host.divf : (⟨S16384x16384, .f32⟩ : BufTy).Contents (Elt F) → (⟨S16384x16384, .f32⟩ : BufTy).Contents (Elt F) → (⟨S16384x16384, .f32⟩ : BufTy).Contents (Elt F)),
    StableHlo.nullary main_v18 (iotaInDim S16384 32 0),
    StableHlo.nullary main_c (constantI S_ 32 8192#32),
    StableHlo.unary main_c main_v19 (broadcastInDim S16384 ![] bcast_S_S16384 : (⟨S_, .i32⟩ : BufTy).Contents (Elt F) → (⟨S16384, .i32⟩ : BufTy).Contents (Elt F)),
    StableHlo.binary main_v18 main_v19 main_v20 (addi : (⟨S16384, .i32⟩ : BufTy).Contents (Elt F) → (⟨S16384, .i32⟩ : BufTy).Contents (Elt F) → (⟨S16384, .i32⟩ : BufTy).Contents (Elt F)),
    StableHlo.nullary main_c_4 (constantI S_ 32 16384#32),
    StableHlo.TRef.unary (.of main_c_4) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S16384 ![] bcast_S_S16384),
    StableHlo.TRef.binary (.of main_v20) main_call0.v3 main_call0.v4 Host.remsi,
    StableHlo.TRef.nullary main_call0.c_1 (constantI S_ 32 0#32),
    StableHlo.TRef.unary main_call0.c_1 main_call0.v5 (broadcastInDim S16384 ![] bcast_S_S16384),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S16384 ![] bcast_S_S16384),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S16384 ![] bcast_S_S16384),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S16384 ![] bcast_S_S16384),
    StableHlo.TRef.binary main_call0.v4 main_call0.v13 main_call0.v14 addi,
    StableHlo.TRef.ternary main_call0.v12 main_call0.v14 main_call0.v4 main_call0.v15 select,
    StableHlo.nullary main_c_5 (constantI S_ 32 0#32),
    StableHlo.unary main_c_5 main_v22 (broadcastInDim S16384 ![] bcast_S_S16384 : (⟨S_, .i32⟩ : BufTy).Contents (Elt F) → (⟨S16384, .i32⟩ : BufTy).Contents (Elt F)),
    StableHlo.binary main_v18 main_v22 main_v23 (cmpi .slt : (⟨S16384, .i32⟩ : BufTy).Contents (Elt F) → (⟨S16384, .i32⟩ : BufTy).Contents (Elt F) → (⟨S16384, .i1⟩ : BufTy).Contents (Elt F)),
    StableHlo.nullary main_c_6 (constantI S_ 32 16384#32),
    StableHlo.unary main_c_6 main_v24 (broadcastInDim S16384 ![] bcast_S_S16384 : (⟨S_, .i32⟩ : BufTy).Contents (Elt F) → (⟨S16384, .i32⟩ : BufTy).Contents (Elt F)),
    StableHlo.binary main_v18 main_v24 main_v25 (addi : (⟨S16384, .i32⟩ : BufTy).Contents (Elt F) → (⟨S16384, .i32⟩ : BufTy).Contents (Elt F) → (⟨S16384, .i32⟩ : BufTy).Contents (Elt F)),
    StableHlo.ternary main_v23 main_v25 main_v18 main_v26 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_7 (constantI S_ 32 0#32),
    StableHlo.unary main_c_7 main_v27 (broadcastInDim S16384 ![] bcast_S_S16384 : (⟨S_, .i32⟩ : BufTy).Contents (Elt F) → (⟨S16384, .i32⟩ : BufTy).Contents (Elt F)),
    StableHlo.binary main_v21 main_v27 main_v28 (cmpi .slt : (⟨S16384, .i32⟩ : BufTy).Contents (Elt F) → (⟨S16384, .i32⟩ : BufTy).Contents (Elt F) → (⟨S16384, .i1⟩ : BufTy).Contents (Elt F)),
    StableHlo.nullary main_c_8 (constantI S_ 32 16384#32),
    StableHlo.unary main_c_8 main_v29 (broadcastInDim S16384 ![] bcast_S_S16384 : (⟨S_, .i32⟩ : BufTy).Contents (Elt F) → (⟨S16384, .i32⟩ : BufTy).Contents (Elt F)),
    StableHlo.binary main_v21 main_v29 main_v30 (addi : (⟨S16384, .i32⟩ : BufTy).Contents (Elt F) → (⟨S16384, .i32⟩ : BufTy).Contents (Elt F) → (⟨S16384, .i32⟩ : BufTy).Contents (Elt F)),
    StableHlo.ternary main_v28 main_v30 main_v21 main_v31 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v26 main_v32 (broadcastInDim S16384x1 ![0] bcast_S16384_S16384x1_0 : (⟨S16384, .i32⟩ : BufTy).Contents (Elt F) → (⟨S16384x1, .i32⟩ : BufTy).Contents (Elt F)),
    StableHlo.unary main_v31 main_v33 (broadcastInDim S16384x1 ![0] bcast_S16384_S16384x1_0 : (⟨S16384, .i32⟩ : BufTy).Contents (Elt F) → (⟨S16384x1, .i32⟩ : BufTy).Contents (Elt F)),
    StableHlo.binary main_v32 main_v33 main_v34 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.binary main_v17 main_v34 main_v35 ((fun x i => Host.gather gather_S16384x16384_S16384x2_S16384_n_01_n_n_01_1_11 x i) : (⟨S16384x16384, .f32⟩ : BufTy).Contents (Elt F) → (⟨S16384x2, .i32⟩ : BufTy).Contents (Elt F) → (⟨S16384, .f32⟩ : BufTy).Contents (Elt F)),
    StableHlo.unary main_v35 main_v36 (Host.log : (⟨S16384, .f32⟩ : BufTy).Contents (Elt F) → (⟨S16384, .f32⟩ : BufTy).Contents (Elt F)),
    StableHlo.unary main_v36 main_v37 (Host.negf : (⟨S16384, .f32⟩ : BufTy).Contents (Elt F) → (⟨S16384, .f32⟩ : BufTy).Contents (Elt F)),
    StableHlo.nullary main_cst_9 (constant S_ .f32 0x00000000#32),
    StableHlo.binary main_v17 main_cst_9 main_v38 ((fun x v => Host.reduceAdd x v reducesTo_S16384x16384_S16384_d1 h_S_) : (⟨S16384x16384, .f32⟩ : BufTy).Contents (Elt F) → (⟨S_, .f32⟩ : BufTy).Contents (Elt F) → (⟨S16384, .f32⟩ : BufTy).Contents (Elt F)),
    StableHlo.unary main_v38 main_v39 (Host.log : (⟨S16384, .f32⟩ : BufTy).Contents (Elt F) → (⟨S16384, .f32⟩ : BufTy).Contents (Elt F)),
    StableHlo.nullary main_cst_10 (constant S_ .f32 0x3F800000#32),
    StableHlo.unary main_cst_10 main_v40 (broadcastInDim S16384 ![] bcast_S_S16384 : (⟨S_, .f32⟩ : BufTy).Contents (Elt F) → (⟨S16384, .f32⟩ : BufTy).Contents (Elt F)),
    StableHlo.binary main_v39 main_v40 main_v41 (mulf : (⟨S16384, .f32⟩ : BufTy).Contents (Elt F) → (⟨S16384, .f32⟩ : BufTy).Contents (Elt F) → (⟨S16384, .f32⟩ : BufTy).Contents (Elt F)),
    StableHlo.nullary main_cst_11 (constant S_ .f32 0x00000000#32),
    StableHlo.binary main_v37 main_cst_11 main_v42 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_12 (constant S_ .f32 0x46800000#32),
    StableHlo.binary main_v42 main_cst_12 main_v43 (Host.divf : (⟨S_, .f32⟩ : BufTy).Contents (Elt F) → (⟨S_, .f32⟩ : BufTy).Contents (Elt F) → (⟨S_, .f32⟩ : BufTy).Contents (Elt F)),
    StableHlo.nullary main_cst_13 (constant S_ .f32 0x00000000#32),
    StableHlo.binary main_v41 main_cst_13 main_v44 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_14 (constant S_ .f32 0x46800000#32),
    StableHlo.binary main_v44 main_cst_14 main_v45 (Host.divf : (⟨S_, .f32⟩ : BufTy).Contents (Elt F) → (⟨S_, .f32⟩ : BufTy).Contents (Elt F) → (⟨S_, .f32⟩ : BufTy).Contents (Elt F)),
    StableHlo.binary main_v43 main_v45 main_v46 (addf : (⟨S_, .f32⟩ : BufTy).Contents (Elt F) → (⟨S_, .f32⟩ : BufTy).Contents (Elt F) → (⟨S_, .f32⟩ : BufTy).Contents (Elt F)) ]

set_option maxHeartbeats 4000000 in
theorem main_eq (c : Dev nD) : main (F := F) c = seq ops := by
  simp only [main, main_part0, main_part1, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., nullary_bufs_sub .., binary_bufs_sub .., unary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    nullary_bufs_sub .., unary_bufs_sub .., binary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    binary_bufs_sub .., unary_bufs_sub .., unary_bufs_sub .., nullary_bufs_sub .., binary_bufs_sub .., unary_bufs_sub ..,
    nullary_bufs_sub .., unary_bufs_sub .., binary_bufs_sub .., nullary_bufs_sub .., binary_bufs_sub .., nullary_bufs_sub ..,
    binary_bufs_sub .., nullary_bufs_sub .., binary_bufs_sub .., nullary_bufs_sub .., binary_bufs_sub .., binary_bufs_sub ..⟩

end Cert.RefSide

end
-- ==== Proof.RefRun.lean ====
/-
  The reference program's run. A straight line of host operations runs to its end from any memory, every buffer ending
  at the fold of the operations over the launch contents. The fold is read in four stretches, each from an arbitrary
  valuation: the 23 operations that form the matrix of weights from the feature matrix; the 26 that form the row
  numbers and the partner's number (the remainder function's among them); the 17 that assemble the table of positions;
  and the 18 that gather, sum, take logarithms and average. Composed, the result buffer holds the scalar `tail` of the
  gathered weights and the row sums, both terms of the feature matrix alone; the two argument buffers are written by no
  operation and end as they began.
-/
import proofs.«164351_j84774064488939_1_alg».proof.Proof.RefOps

noncomputable section

namespace Cert.RefSide

open Cert.ReferenceIdeal Cert.ReferenceIdeal.Facts₀ Idealize.ShloMosaic Idealize.ShloMosaic.TcCoe Idealize.SL.Sem
  Idealize.ShloMosaic.StableHlo

/-- The fold over a concatenation is the fold over the second list from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

section Windows
variable {F : FTy → Type} [FloatOps F]

/-- The weights: operations 1 to 23, from the feature matrix to the matrix of Cauchy weights. -/
abbrev w1 : List (HloOp τ sig (Elt F)) :=
  [
    StableHlo.binary main_arg0 main_arg0 main_v0 (mulf : (⟨S16384x128, .f32⟩ : BufTy).Contents (Elt F) → (⟨S16384x128, .f32⟩ : BufTy).Contents (Elt F) → (⟨S16384x128, .f32⟩ : BufTy).Contents (Elt F)),
    StableHlo.nullary main_cst (constant S_ .f32 0x00000000#32),
    StableHlo.binary main_v0 main_cst main_v1 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    StableHlo.unary main_v1 main_v2 (broadcastInDim S16384x1 ![0] bcast_S16384_S16384x1_0 : (⟨S16384, .f32⟩ : BufTy).Contents (Elt F) → (⟨S16384x1, .f32⟩ : BufTy).Contents (Elt F)),
    StableHlo.unary main_v1 main_v3 (broadcastInDim S1x16384 ![1] bcast_S16384_S1x16384_1 : (⟨S16384, .f32⟩ : BufTy).Contents (Elt F) → (⟨S1x16384, .f32⟩ : BufTy).Contents (Elt F)),
    StableHlo.unary main_v2 main_v4 (broadcastInDim S16384x16384 ![0, 1] bcast_S16384x1_S16384x16384_0_1 : (⟨S16384x1, .f32⟩ : BufTy).Contents (Elt F) → (⟨S16384x16384, .f32⟩ : BufTy).Contents (Elt F)),
    StableHlo.unary main_v3 main_v5 (broadcastInDim S16384x16384 ![0, 1] bcast_S1x16384_S16384x16384_0_1 : (⟨S1x16384, .f32⟩ : BufTy).Contents (Elt F) → (⟨S16384x16384, .f32⟩ : BufTy).Contents (Elt F)),
    StableHlo.binary main_v4 main_v5 main_v6 (addf : (⟨S16384x16384, .f32⟩ : BufTy).Contents (Elt F) → (⟨S16384x16384, .f32⟩ : BufTy).Contents (Elt F) → (⟨S16384x16384, .f32⟩ : BufTy).Contents (Elt F)),
    StableHlo.unary main_arg0 main_v7 ((transpose S128x16384 [1, 0] · transposes_S16384x128_S128x16384_1_0) : (⟨S16384x128, .f32⟩ : BufTy).Contents (Elt F) → (⟨S128x16384, .f32⟩ : BufTy).Contents (Elt F)),
    StableHlo.binary main_arg0 main_v7 main_v8 ((fun l r => Host.dotGeneral dot_S16384x128_S128x16384_S16384x16384_1_0_0_1_n_n none l r) : (⟨S16384x128, .f32⟩ : BufTy).Contents (Elt F) → (⟨S128x16384, .f32⟩ : BufTy).Contents (Elt F) → (⟨S16384x16384, .f32⟩ : BufTy).Contents (Elt F)),
    StableHlo.nullary main_cst_0 (constant S_ .f32 0x40000000#32),
    StableHlo.unary main_cst_0 main_v9 (broadcastInDim S16384x16384 ![] bcast_S_S16384x16384 : (⟨S_, .f32⟩ : BufTy).Contents (Elt F) → (⟨S16384x16384, .f32⟩ : BufTy).Contents (Elt F)),
    StableHlo.binary main_v9 main_v8 main_v10 (mulf : (⟨S16384x16384, .f32⟩ : BufTy).Contents (Elt F) → (⟨S16384x16384, .f32⟩ : BufTy).Contents (Elt F) → (⟨S16384x16384, .f32⟩ : BufTy).Contents (Elt F)),
    StableHlo.binary main_v6 main_v10 main_v11 (subf : (⟨S16384x16384, .f32⟩ : BufTy).Contents (Elt F) → (⟨S16384x16384, .f32⟩ : BufTy).Contents (Elt F) → (⟨S16384x16384, .f32⟩ : BufTy).Contents (Elt F)),
    StableHlo.nullary main_cst_1 (constant S_ .f32 0x00000000#32),
    StableHlo.unary main_cst_1 main_v12 (broadcastInDim S16384x16384 ![] bcast_S_S16384x16384 : (⟨S_, .f32⟩ : BufTy).Contents (Elt F) → (⟨S16384x16384, .f32⟩ : BufTy).Contents (Elt F)),
    StableHlo.binary main_v11 main_v12 main_v13 (maximumf : (⟨S16384x16384, .f32⟩ : BufTy).Contents (Elt F) → (⟨S16384x16384, .f32⟩ : BufTy).Contents (Elt F) → (⟨S16384x16384, .f32⟩ : BufTy).Contents (Elt F)),
    StableHlo.nullary main_cst_2 (constant S_ .f32 0x3F800000#32),
    StableHlo.unary main_cst_2 main_v14 (broadcastInDim S16384x16384 ![] bcast_S_S16384x16384 : (⟨S_, .f32⟩ : BufTy).Contents (Elt F) → (⟨S16384x16384, .f32⟩ : BufTy).Contents (Elt F)),
    StableHlo.binary main_v13 main_v14 main_v15 (addf : (⟨S16384x16384, .f32⟩ : BufTy).Contents (Elt F) → (⟨S16384x16384, .f32⟩ : BufTy).Contents (Elt F) → (⟨S16384x16384, .f32⟩ : BufTy).Contents (Elt F)),
    StableHlo.nullary main_cst_3 (constant S_ .f32 0x3F800000#32),
    StableHlo.unary main_cst_3 main_v16 (broadcastInDim S16384x16384 ![] bcast_S_S16384x16384 : (⟨S_, .f32⟩ : BufTy).Contents (Elt F) → (⟨S16384x16384, .f32⟩ : BufTy).Contents (Elt F)),
    StableHlo.binary main_v16 main_v15 main_v17 (Host.divf : (⟨S16384x16384, .f32⟩ : BufTy).Contents (Elt F) → (⟨S16384x16384, .f32⟩ : BufTy).Contents (Elt F) → (⟨S16384x16384, .f32⟩ : BufTy).Contents (Elt F)) ]

/-- The numbers: operations 24 to 49, the row numbers and the sign-corrected remainder of the row number plus 8192 by 16384. -/
abbrev w2 : List (HloOp τ sig (Elt F)) :=
  [
    StableHlo.nullary main_v18 (iotaInDim S16384 32 0),
    StableHlo.nullary main_c (constantI S_ 32 8192#32),
    StableHlo.unary main_c main_v19 (broadcastInDim S16384 ![] bcast_S_S16384 : (⟨S_, .i32⟩ : BufTy).Contents (Elt F) → (⟨S16384, .i32⟩ : BufTy).Contents (Elt F)),
    StableHlo.binary main_v18 main_v19 main_v20 (addi : (⟨S16384, .i32⟩ : BufTy).Contents (Elt F) → (⟨S16384, .i32⟩ : BufTy).Contents (Elt F) → (⟨S16384, .i32⟩ : BufTy).Contents (Elt F)),
    StableHlo.nullary main_c_4 (constantI S_ 32 16384#32),
    StableHlo.TRef.unary (.of main_c_4) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S16384 ![] bcast_S_S16384),
    StableHlo.TRef.binary (.of main_v20) main_call0.v3 main_call0.v4 Host.remsi,
    StableHlo.TRef.nullary main_call0.c_1 (constantI S_ 32 0#32),
    StableHlo.TRef.unary main_call0.c_1 main_call0.v5 (broadcastInDim S16384 ![] bcast_S_S16384),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S16384 ![] bcast_S_S16384),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S16384 ![] bcast_S_S16384),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S16384 ![] bcast_S_S16384),
    StableHlo.TRef.binary main_call0.v4 main_call0.v13 main_call0.v14 addi,
    StableHlo.TRef.ternary main_call0.v12 main_call0.v14 main_call0.v4 main_call0.v15 select ]

/-- The table: operations 50 to 66, both columns counted from the end when negative, laid side by side. -/
abbrev w3 : List (HloOp τ sig (Elt F)) :=
  [
    StableHlo.nullary main_c_5 (constantI S_ 32 0#32),
    StableHlo.unary main_c_5 main_v22 (broadcastInDim S16384 ![] bcast_S_S16384 : (⟨S_, .i32⟩ : BufTy).Contents (Elt F) → (⟨S16384, .i32⟩ : BufTy).Contents (Elt F)),
    StableHlo.binary main_v18 main_v22 main_v23 (cmpi .slt : (⟨S16384, .i32⟩ : BufTy).Contents (Elt F) → (⟨S16384, .i32⟩ : BufTy).Contents (Elt F) → (⟨S16384, .i1⟩ : BufTy).Contents (Elt F)),
    StableHlo.nullary main_c_6 (constantI S_ 32 16384#32),
    StableHlo.unary main_c_6 main_v24 (broadcastInDim S16384 ![] bcast_S_S16384 : (⟨S_, .i32⟩ : BufTy).Contents (Elt F) → (⟨S16384, .i32⟩ : BufTy).Contents (Elt F)),
    StableHlo.binary main_v18 main_v24 main_v25 (addi : (⟨S16384, .i32⟩ : BufTy).Contents (Elt F) → (⟨S16384, .i32⟩ : BufTy).Contents (Elt F) → (⟨S16384, .i32⟩ : BufTy).Contents (Elt F)),
    StableHlo.ternary main_v23 main_v25 main_v18 main_v26 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_7 (constantI S_ 32 0#32),
    StableHlo.unary main_c_7 main_v27 (broadcastInDim S16384 ![] bcast_S_S16384 : (⟨S_, .i32⟩ : BufTy).Contents (Elt F) → (⟨S16384, .i32⟩ : BufTy).Contents (Elt F)),
    StableHlo.binary main_v21 main_v27 main_v28 (cmpi .slt : (⟨S16384, .i32⟩ : BufTy).Contents (Elt F) → (⟨S16384, .i32⟩ : BufTy).Contents (Elt F) → (⟨S16384, .i1⟩ : BufTy).Contents (Elt F)),
    StableHlo.nullary main_c_8 (constantI S_ 32 16384#32),
    StableHlo.unary main_c_8 main_v29 (broadcastInDim S16384 ![] bcast_S_S16384 : (⟨S_, .i32⟩ : BufTy).Contents (Elt F) → (⟨S16384, .i32⟩ : BufTy).Contents (Elt F)),
    StableHlo.binary main_v21 main_v29 main_v30 (addi : (⟨S16384, .i32⟩ : BufTy).Contents (Elt F) → (⟨S16384, .i32⟩ : BufTy).Contents (Elt F) → (⟨S16384, .i32⟩ : BufTy).Contents (Elt F)),
    StableHlo.ternary main_v28 main_v30 main_v21 main_v31 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v26 main_v32 (broadcastInDim S16384x1 ![0] bcast_S16384_S16384x1_0 : (⟨S16384, .i32⟩ : BufTy).Contents (Elt F) → (⟨S16384x1, .i32⟩ : BufTy).Contents (Elt F)),
    StableHlo.unary main_v31 main_v33 (broadcastInDim S16384x1 ![0] bcast_S16384_S16384x1_0 : (⟨S16384, .i32⟩ : BufTy).Contents (Elt F) → (⟨S16384x1, .i32⟩ : BufTy).Contents (Elt F)),
    StableHlo.binary main_v32 main_v33 main_v34 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)) ]

/-- The scalar: operations 67 to 84, the gather, the row sums, the logarithms and the two means. -/
abbrev w4 : List (HloOp τ sig (Elt F)) :=
  [
    StableHlo.binary main_v17 main_v34 main_v35 ((fun x i => Host.gather gather_S16384x16384_S16384x2_S16384_n_01_n_n_01_1_11 x i) : (⟨S16384x16384, .f32⟩ : BufTy).Contents (Elt F) → (⟨S16384x2, .i32⟩ : BufTy).Contents (Elt F) → (⟨S16384, .f32⟩ : BufTy).Contents (Elt F)),
    StableHlo.unary main_v35 main_v36 (Host.log : (⟨S16384, .f32⟩ : BufTy).Contents (Elt F) → (⟨S16384, .f32⟩ : BufTy).Contents (Elt F)),
    StableHlo.unary main_v36 main_v37 (Host.negf : (⟨S16384, .f32⟩ : BufTy).Contents (Elt F) → (⟨S16384, .f32⟩ : BufTy).Contents (Elt F)),
    StableHlo.nullary main_cst_9 (constant S_ .f32 0x00000000#32),
    StableHlo.binary main_v17 main_cst_9 main_v38 ((fun x v => Host.reduceAdd x v reducesTo_S16384x16384_S16384_d1 h_S_) : (⟨S16384x16384, .f32⟩ : BufTy).Contents (Elt F) → (⟨S_, .f32⟩ : BufTy).Contents (Elt F) → (⟨S16384, .f32⟩ : BufTy).Contents (Elt F)),
    StableHlo.unary main_v38 main_v39 (Host.log : (⟨S16384, .f32⟩ : BufTy).Contents (Elt F) → (⟨S16384, .f32⟩ : BufTy).Contents (Elt F)),
    StableHlo.nullary main_cst_10 (constant S_ .f32 0x3F800000#32),
    StableHlo.unary main_cst_10 main_v40 (broadcastInDim S16384 ![] bcast_S_S16384 : (⟨S_, .f32⟩ : BufTy).Contents (Elt F) → (⟨S16384, .f32⟩ : BufTy).Contents (Elt F)),
    StableHlo.binary main_v39 main_v40 main_v41 (mulf : (⟨S16384, .f32⟩ : BufTy).Contents (Elt F) → (⟨S16384, .f32⟩ : BufTy).Contents (Elt F) → (⟨S16384, .f32⟩ : BufTy).Contents (Elt F)),
    StableHlo.nullary main_cst_11 (constant S_ .f32 0x00000000#32),
    StableHlo.binary main_v37 main_cst_11 main_v42 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_12 (constant S_ .f32 0x46800000#32),
    StableHlo.binary main_v42 main_cst_12 main_v43 (Host.divf : (⟨S_, .f32⟩ : BufTy).Contents (Elt F) → (⟨S_, .f32⟩ : BufTy).Contents (Elt F) → (⟨S_, .f32⟩ : BufTy).Contents (Elt F)),
    StableHlo.nullary main_cst_13 (constant S_ .f32 0x00000000#32),
    StableHlo.binary main_v41 main_cst_13 main_v44 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_14 (constant S_ .f32 0x46800000#32),
    StableHlo.binary main_v44 main_cst_14 main_v45 (Host.divf : (⟨S_, .f32⟩ : BufTy).Contents (Elt F) → (⟨S_, .f32⟩ : BufTy).Contents (Elt F) → (⟨S_, .f32⟩ : BufTy).Contents (Elt F)),
    StableHlo.binary main_v43 main_v45 main_v46 (addf : (⟨S_, .f32⟩ : BufTy).Contents (Elt F) → (⟨S_, .f32⟩ : BufTy).Contents (Elt F) → (⟨S_, .f32⟩ : BufTy).Contents (Elt F)) ]

end Windows

/-- The 84 operations are the four stretches in order. -/
theorem ops_split : (ops : List (HloOp τ sig (Elt Ideal))) = w1 ++ (w2 ++ (w3 ++ w4)) := rfl

/-! ### The weights -/

theorem w1_v17 (V : Valuation τ sig (Elt Ideal)) :
    after (w1 (F := Ideal)) V (main_v17 : DevRef τ sig) = wArr (V (main_arg0 : DevRef τ sig)) := by
  after_results_simp
  rfl

theorem w1_arg0 (V : Valuation τ sig (Elt Ideal)) :
    after (w1 (F := Ideal)) V (main_arg0 : DevRef τ sig) = V (main_arg0 : DevRef τ sig) := by
  after_results_simp

theorem w1_arg1 (V : Valuation τ sig (Elt Ideal)) :
    after (w1 (F := Ideal)) V (main_arg1 : DevRef τ sig) = V (main_arg1 : DevRef τ sig) := by
  after_results_simp

/-! ### The numbers -/

theorem w2_v18 (V : Valuation τ sig (Elt Ideal)) :
    after (w2 (F := Ideal)) V (main_v18 : DevRef τ sig) = iotaArr := by
  after_results_simp
  rfl

attribute [local irreducible] Host.remsi select cmpi addi andi broadcastInDim constantI in
set_option maxHeartbeats 4000000 in
/-- The remainder function's lines are built over typed references; their fold at the call's result buffer is read
    by computation: each operation's result decides whether the buffer read is the one it writes, and the typed
    references' transports are the identity at these literal references. The integer operations themselves are kept
    folded meanwhile, so that only the chain of results is opened. -/
theorem w2_v21 (V : Valuation τ sig (Elt Ideal)) :
    after (w2 (F := Ideal)) V (main_v21 : DevRef τ sig) = remArr := by
  simp only [after_cons, after_nil]
  rfl

theorem w2_v17 (V : Valuation τ sig (Elt Ideal)) :
    after (w2 (F := Ideal)) V (main_v17 : DevRef τ sig) = V (main_v17 : DevRef τ sig) := by
  after_results_simp

theorem w2_arg0 (V : Valuation τ sig (Elt Ideal)) :
    after (w2 (F := Ideal)) V (main_arg0 : DevRef τ sig) = V (main_arg0 : DevRef τ sig) := by
  after_results_simp

theorem w2_arg1 (V : Valuation τ sig (Elt Ideal)) :
    after (w2 (F := Ideal)) V (main_arg1 : DevRef τ sig) = V (main_arg1 : DevRef τ sig) := by
  after_results_simp

/-! ### The table -/

theorem w3_v34 (V : Valuation τ sig (Elt Ideal)) :
    after (w3 (F := Ideal)) V (main_v34 : DevRef τ sig)
      = concatenate S16384x2 1
          [⟨S16384x1, broadcastInDim S16384x1 ![0] bcast_S16384_S16384x1_0 (wrapNeg (V (main_v18 : DevRef τ sig)))⟩,
           ⟨S16384x1, broadcastInDim S16384x1 ![0] bcast_S16384_S16384x1_0 (wrapNeg (V (main_v21 : DevRef τ sig)))⟩]
          concatenates_S16384x1_S16384x1_S16384x2_d1 := by
  after_results_simp
  rfl

theorem w3_v17 (V : Valuation τ sig (Elt Ideal)) :
    after (w3 (F := Ideal)) V (main_v17 : DevRef τ sig) = V (main_v17 : DevRef τ sig) := by
  after_results_simp

theorem w3_arg0 (V : Valuation τ sig (Elt Ideal)) :
    after (w3 (F := Ideal)) V (main_arg0 : DevRef τ sig) = V (main_arg0 : DevRef τ sig) := by
  after_results_simp

theorem w3_arg1 (V : Valuation τ sig (Elt Ideal)) :
    after (w3 (F := Ideal)) V (main_arg1 : DevRef τ sig) = V (main_arg1 : DevRef τ sig) := by
  after_results_simp

/-! ### The scalar -/

theorem w4_v46 (V : Valuation τ sig (Elt Ideal)) :
    after (w4 (F := Ideal)) V (main_v46 : DevRef τ sig)
      = tail (Host.gather gather_S16384x16384_S16384x2_S16384_n_01_n_n_01_1_11 (V (main_v17 : DevRef τ sig))
                (V (main_v34 : DevRef τ sig)))
             (Host.reduceAdd (F := Ideal) (V (main_v17 : DevRef τ sig)) (constant (F := Ideal) S_ .f32 0x00000000#32)
                reducesTo_S16384x16384_S16384_d1 h_S_) := by
  after_results_simp
  rfl

theorem w4_arg0 (V : Valuation τ sig (Elt Ideal)) :
    after (w4 (F := Ideal)) V (main_arg0 : DevRef τ sig) = V (main_arg0 : DevRef τ sig) := by
  after_results_simp

theorem w4_arg1 (V : Valuation τ sig (Elt Ideal)) :
    after (w4 (F := Ideal)) V (main_arg1 : DevRef τ sig) = V (main_arg1 : DevRef τ sig) := by
  after_results_simp

/-! ### Composed -/

/-- The fold of the 84 operations read at the result buffer. -/
theorem out_eq (V : Valuation τ sig (Elt Ideal)) :
    after (ops (F := Ideal)) V (main_v46 : DevRef τ sig)
      = tail (pairArr (V (main_arg0 : DevRef τ sig))) (sumArr (V (main_arg0 : DevRef τ sig))) := by
  rw [ops_split, after_append, after_append, after_append, w4_v46, w3_v34, w3_v17, w2_v18, w2_v21, w2_v17, w1_v17]
  rfl

/-- No operation writes the first argument's buffer. -/
theorem arg0_eq (V : Valuation τ sig (Elt Ideal)) :
    after (ops (F := Ideal)) V (main_arg0 : DevRef τ sig) = V (main_arg0 : DevRef τ sig) := by
  rw [ops_split, after_append, after_append, after_append, w4_arg0, w3_arg0, w2_arg0, w1_arg0]

/-- No operation writes the second argument's buffer. -/
theorem arg1_eq (V : Valuation τ sig (Elt Ideal)) :
    after (ops (F := Ideal)) V (main_arg1 : DevRef τ sig) = V (main_arg1 : DevRef τ sig) := by
  rw [ops_split, after_append, after_append, after_append, w4_arg1, w3_arg1, w2_arg1, w1_arg1]

/-- On every device, from any memory with zero counters: every weakly fair execution of @main terminates with the
    result buffer at `tail` of the gathered weights and the row sums of the feature matrix, and the two arguments
    unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v46)
          = tail (pairArr (m ((c.tc : Thread nD τ).loc main_arg0))) (sumArr (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v46).trans (out_eq _), (h c main_arg0).trans (arg0_eq _),
      (h c main_arg1).trans (arg1_eq _)⟩)
    (run_seq scopedRefs_eq scopedSems_eq defs main (fun _ => ops) main_eq (fun _ => ops_sub) m g)

end Cert.RefSide

end
-- ==== Proof.RefDist.lean ====
/-
  The reference's matrix of weights and its row sums, read one entry at a time over the extended reals.

  Entry i of the vector of squared norms is Σ_d x_i,d² (a sum from the zero word); entry (i, j) of the sum of norms is
  |x_i|² + |x_j|² (the vector laid out as a column and as a row and spread over the square); entry (i, j) of the matrix
  times its transpose is Σ_d x_i,d x_j,d; so entry (i, j) of the squared distances is the three-term form, and of the
  weights the Cauchy weight of it. Entry i of the row sums is the sum over j of the weights (from the zero word).
-/
import proofs.«164351_j84774064488939_1_alg».proof.Proof.RefTerms
import proofs.«164351_j84774064488939_1_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.RefSide

open Idealize.ShloMosaic Idealize.ShloMosaic.ValueIdx Cert.ReferenceIdeal Cert.ReferenceIdeal.Facts₀

/-- The host's sum over the 128 features from the zero word, at row i. -/
theorem hostSum128 (v : FVec Ideal S16384x128 .f32) (h' : S16384x128.ReducesTo [1] S16384) (hu : 0 < S_.numel)
    (i : Fin 16384) :
    Host.reduceAdd (F := Ideal) v (constant (F := Ideal) S_ .f32 0x00000000#32) h' hu (ix1 i) = ∑ d : Fin 128, v (ix2 i d) := by
  refine (Ideal.hostReduceAdd_single h' (by decide) v _ (ix1 i)).trans ?_
  refine (congrArg (· + _) (Ideal.ofBits_zero_f32)).trans ?_
  refine (zero_add _).trans ?_
  refine Finset.sum_congr rfl fun d _ => congrArg v ?_
  funext a
  match a with
  | ⟨0, _⟩ => rfl
  | ⟨1, _⟩ => rfl

/-- The host's sum over the 16384 columns from the zero word, at row i. -/
theorem hostSum16384 (v : FVec Ideal S16384x16384 .f32) (h' : S16384x16384.ReducesTo [1] S16384) (hu : 0 < S_.numel)
    (i : Fin 16384) :
    Host.reduceAdd (F := Ideal) v (constant (F := Ideal) S_ .f32 0x00000000#32) h' hu (ix1 i) = ∑ j : Fin 16384, v (ix2 i j) := by
  refine (Ideal.hostReduceAdd_single h' (by decide) v _ (ix1 i)).trans ?_
  refine (congrArg (· + _) (Ideal.ofBits_zero_f32)).trans ?_
  refine (zero_add _).trans ?_
  refine Finset.sum_congr rfl fun d _ => congrArg v ?_
  funext a
  match a with
  | ⟨0, _⟩ => rfl
  | ⟨1, _⟩ => rfl

/-- A scalar constant spread over the square reads its word's value everywhere. -/
theorem splat2_apply (w : BitVec 32) (h : S_.BroadcastsInDim S16384x16384 (![] : Fin 0 → Fin S16384x16384.rank))
    (j : S16384x16384.Idx) :
    broadcastInDim S16384x16384 ![] h (constant (F := Ideal) S_ .f32 w) j = Ideal.ofBits .f32 w :=
  broadcastInDim_apply _ h _ j ix0 (fun a => a.elim0)

/-- Entry i of the squared norms. -/
theorem sqArr_apply (x : FVec Ideal S16384x128 .f32) (i : Fin 16384) : sqArr x (ix1 i) = Cert.Spec.sqn x i := by
  unfold sqArr
  refine (hostSum128 _ _ _ i).trans ?_
  exact Finset.sum_congr rfl fun d _ => rfl

/-- A vector laid out as a column and spread along the rows of the square reads, at (i, j), the vector at i. -/
theorem colSpread_apply (v : FVec Ideal S16384 .f32)
    (h1 : S16384.BroadcastsInDim S16384x1 (![0] : Fin 1 → Fin S16384x1.rank))
    (h2 : S16384x1.BroadcastsInDim S16384x16384 (![0, 1] : Fin 2 → Fin S16384x16384.rank)) (i j : Fin 16384) :
    broadcastInDim S16384x16384 ![0, 1] h2 (broadcastInDim S16384x1 ![0] h1 v) (ix2 i j) = v (ix1 i) := by
  refine (broadcastInDim_apply _ h2 _ (ix2 i j) (ix2 i (0 : Fin 1)) fun a => ?_).trans ?_
  · match a with
    | ⟨0, _⟩ => show i.val = if (16384 : ℕ) = 1 then 0 else i.val; exact (if_neg (by decide)).symm
    | ⟨1, _⟩ => show (0 : ℕ) = if (1 : ℕ) = 1 then 0 else j.val; exact (if_pos rfl).symm
  · refine broadcastInDim_apply _ h1 _ (ix2 i (0 : Fin 1)) (ix1 i) fun a => ?_
    match a with
    | ⟨0, _⟩ => show i.val = if (16384 : ℕ) = 1 then 0 else i.val; exact (if_neg (by decide)).symm

/-- A vector laid out as a row and spread down the columns of the square reads, at (i, j), the vector at j. -/
theorem rowSpread_apply (v : FVec Ideal S16384 .f32)
    (h1 : S16384.BroadcastsInDim S1x16384 (![1] : Fin 1 → Fin S1x16384.rank))
    (h2 : S1x16384.BroadcastsInDim S16384x16384 (![0, 1] : Fin 2 → Fin S16384x16384.rank)) (i j : Fin 16384) :
    broadcastInDim S16384x16384 ![0, 1] h2 (broadcastInDim S1x16384 ![1] h1 v) (ix2 i j) = v (ix1 j) := by
  refine (broadcastInDim_apply _ h2 _ (ix2 i j) (ix2 (0 : Fin 1) j) fun a => ?_).trans ?_
  · match a with
    | ⟨0, _⟩ => show (0 : ℕ) = if (1 : ℕ) = 1 then 0 else i.val; exact (if_pos rfl).symm
    | ⟨1, _⟩ => show j.val = if (16384 : ℕ) = 1 then 0 else j.val; exact (if_neg (by decide)).symm
  · refine broadcastInDim_apply _ h1 _ (ix2 (0 : Fin 1) j) (ix1 j) fun a => ?_
    match a with
    | ⟨0, _⟩ => show j.val = if (16384 : ℕ) = 1 then 0 else j.val; exact (if_neg (by decide)).symm

/-- Entry (i, j) of the sum of norms. -/
theorem normSum_apply (x : FVec Ideal S16384x128 .f32) (i j : Fin 16384) :
    normSum x (ix2 i j) = Cert.Spec.sqn x i + Cert.Spec.sqn x j := by
  unfold normSum
  refine (addf_apply _ _ _).trans ?_
  exact congrArg₂ (· + ·) ((colSpread_apply _ _ _ i j).trans (sqArr_apply x i)) ((rowSpread_apply _ _ _ i j).trans (sqArr_apply x j))

/-! ## The matrix times its transpose -/

/-- The left operand's entry the product reads at output (i, j) and feature d: (i, d). -/
theorem gram_lhsIdx (i j : Fin 16384) (d : Fin 128) :
    dot_S16384x128_S128x16384_S16384x16384_1_0_0_1_n_n.lhsIdx (ix2 i j)
        ((contrEquiv1 dot_S16384x128_S128x16384_S16384x16384_1_0_0_1_n_n 128 rfl rfl).symm d) = ix2 i d := by
  funext a
  match a with
  | ⟨0, _⟩ => exact Fin.ext (by simp [DotDims.lhsIdx, dot_S16384x128_S128x16384_S16384x16384_1_0_0_1_n_n]; rfl)
  | ⟨1, _⟩ =>
    refine Fin.ext ?_
    show (dot_S16384x128_S128x16384_S16384x16384_1_0_0_1_n_n.lhsIdx (ix2 i j)
        ((contrEquiv1 dot_S16384x128_S128x16384_S16384x16384_1_0_0_1_n_n 128 rfl rfl).symm d) (1 : Fin 2)).val = d.val
    exact (DotDims.lhsIdx_val_of_single dot_S16384x128_S128x16384_S16384x16384_1_0_0_1_n_n (cl := (1 : Fin 2)) rfl _ _).trans
      (contrEquiv1_symm_val dot_S16384x128_S128x16384_S16384x16384_1_0_0_1_n_n 128 rfl rfl d)

/-- The right operand's entry the product reads at output (i, j) and feature d: (d, j). -/
theorem gram_rhsIdx (i j : Fin 16384) (d : Fin 128) :
    dot_S16384x128_S128x16384_S16384x16384_1_0_0_1_n_n.rhsIdx (ix2 i j)
        ((contrEquiv1 dot_S16384x128_S128x16384_S16384x16384_1_0_0_1_n_n 128 rfl rfl).symm d) = ix2 d j := by
  funext a
  match a with
  | ⟨0, _⟩ =>
    refine Fin.ext ?_
    show (dot_S16384x128_S128x16384_S16384x16384_1_0_0_1_n_n.rhsIdx (ix2 i j)
        ((contrEquiv1 dot_S16384x128_S128x16384_S16384x16384_1_0_0_1_n_n 128 rfl rfl).symm d) (0 : Fin 2)).val = d.val
    exact (DotDims.rhsIdx_val_of_single dot_S16384x128_S128x16384_S16384x16384_1_0_0_1_n_n (cr := (0 : Fin 2)) rfl _ _).trans
      (contrEquiv1_symm_val dot_S16384x128_S128x16384_S16384x16384_1_0_0_1_n_n 128 rfl rfl d)
  | ⟨1, _⟩ => exact Fin.ext (by simp [DotDims.rhsIdx, dot_S16384x128_S128x16384_S16384x16384_1_0_0_1_n_n]; rfl)

/-- Entry (i, j) of the matrix times its transpose: the inner product of rows i and j. -/
theorem gram_apply (x : FVec Ideal S16384x128 .f32) (i j : Fin 16384) : gram x (ix2 i j) = Cert.Spec.dotp x i j := by
  unfold gram
  refine (Ideal.dotGeneral_apply dot_S16384x128_S128x16384_S16384x16384_1_0_0_1_n_n none .single x _ (ix2 i j)).trans ?_
  refine (Equiv.sum_comp (contrEquiv1 dot_S16384x128_S128x16384_S16384x16384_1_0_0_1_n_n 128 rfl rfl).symm _).symm.trans ?_
  refine Finset.sum_congr rfl fun d _ => ?_
  rw [gram_lhsIdx, gram_rhsIdx]
  exact congrArg (x (ix2 i d) * ·) (transpose_ix2_apply x _ d j)

/-! ## The squared distances, the weights, the row sums -/

/-- Entry (i, j) of the squared distances: the three-term form. -/
theorem distArr_apply (x : FVec Ideal S16384x128 .f32) (i j : Fin 16384) :
    distArr x (ix2 i j) = Cert.Spec.dist2 x i j := by
  unfold distArr
  refine (subf_apply _ _ _).trans ?_
  refine congrArg₂ (· - ·) (normSum_apply x i j) ?_
  refine (mulf_apply _ _ _).trans ?_
  exact congrArg₂ (· * ·) (splat2_apply _ _ _) (gram_apply x i j)

/-- Entry (i, j) of the weights: the Cauchy weight of the squared distance of rows i and j. -/
theorem wArr_apply (x : FVec Ideal S16384x128 .f32) (i j : Fin 16384) :
    wArr x (ix2 i j) = Cert.Spec.cauchy (Cert.Spec.dist2 x i j) := by
  unfold wArr
  refine (hostDivf_apply _ _ _).trans ?_
  unfold Cert.Spec.cauchy
  refine congrArg₂ Ideal.div (splat2_apply _ _ _) ?_
  refine (addf_apply _ _ _).trans ?_
  refine congrArg₂ (· + ·) ?_ (splat2_apply _ _ _)
  refine (maximumf_apply _ _ _).trans ?_
  exact congrArg₂ max (distArr_apply x i j) (splat2_apply _ _ _)

/-- THE ROW SUMS, index by index: entry i is the sum of row i's weights over every column. -/
theorem sumArr_eq (x : FVec Ideal S16384x128 .f32) : sumArr x = fun j => Cert.Spec.rowSum x (j 0) := by
  funext j
  obtain ⟨i, rfl⟩ : ∃ i : Fin 16384, j = ix1 i := ⟨j 0, eq_ix1 j⟩
  unfold sumArr
  refine (hostSum16384 _ _ _ i).trans ?_
  exact Finset.sum_congr rfl fun k _ => wArr_apply x i k

end Cert.RefSide

end
-- ==== Proof.RefIndex.lean ====
/-
  The integer arithmetic of the reference's table of positions, on 32-bit words. For a row number k below 16384:
  the word of k is not negative, so the "count from the end when negative" correction leaves it alone; k + 8192 is below
  2³¹, so its truncated remainder by 16384 is the remainder of natural numbers, (k + 8192) mod 16384; that remainder is
  not negative and neither is the divisor, so the sign correction of the remainder leaves it alone too; and a word
  below 16384 read as a signed integer and clamped to [0, 16383] is the number itself.
-/
import Idealize.ShloMosaic.Lib.ValueIdx

namespace Cert.RefSide

open Idealize.ShloMosaic Idealize.ShloMosaic.ValueIdx

/-- A number below 16384, as a 32-bit word, reads back as itself unsigned … -/
theorem toNat_word (k : Nat) (hk : k < 16384) : (BitVec.ofNat 32 k).toNat = k := by
  rw [BitVec.toNat_ofNat]; omega

/-- … and signed. -/
theorem toInt_word (k : Nat) (hk : k < 16384) : (BitVec.ofNat 32 k).toInt = (k : Int) := by
  rw [BitVec.toInt_eq_toNat_of_lt (by rw [toNat_word k hk]; omega), toNat_word k hk]

/-- Read signed and clamped to [0, 16383] it is the number. -/
theorem clamp_word (k : Nat) (hk : k < 16384) : min (BitVec.ofNat 32 k).toInt.toNat (16384 - 1) = k := by
  rw [toInt_word k hk]; simp; omega

/-- It is not below zero as a signed word. -/
theorem slt_zero_word (k : Nat) (hk : k < 16384) : IntOp.cmpi .slt (BitVec.ofNat 32 k) 0#32 = 0#1 := by
  have h : (BitVec.ofNat 32 k).slt 0#32 = false := by
    rw [BitVec.slt_eq_decide, toInt_word k hk, BitVec.toInt_zero]; simp
  simp only [IntOp.cmpi, h]; rfl

/-- So the correction "add 16384 to a negative position" leaves it alone. -/
theorem wrap_word (k : Nat) (hk : k < 16384) :
    Scalar.select (IntOp.cmpi .slt (BitVec.ofNat 32 k) 0#32) (IntOp.addi (BitVec.ofNat 32 k) 16384#32) (BitVec.ofNat 32 k)
      = BitVec.ofNat 32 k := by
  rw [slt_zero_word k hk, select_zero]

/-- The divisor: 16384 is not zero, so it is kept. -/
theorem divisor_word : Scalar.select (IntOp.cmpi .eq (id 16384#32) 0#32) 1#32 (id 16384#32) = 16384#32 := by decide

/-- The truncated remainder of k + 8192 by 16384 is the remainder of natural numbers. -/
theorem truncRem_word (k : Nat) (hk : k < 16384) :
    IntOp.remsi .host (IntOp.addi (BitVec.ofNat 32 k) 8192#32) 16384#32 = BitVec.ofNat 32 ((k + 8192) % 16384) := by
  have hx : IntOp.addi (BitVec.ofNat 32 k) 8192#32 = BitVec.ofNat 32 (k + 8192) := by
    unfold IntOp.addi; rw [BitVec.ofNat_add]
  rw [hx]
  have hc : ¬ IntOp.SDivCorner (BitVec.ofNat 32 (k + 8192)) 16384#32 := by
    rintro (h | ⟨-, h⟩)
    · exact absurd h (by decide)
    · exact absurd h (by decide)
  unfold IntOp.remsi
  rw [if_neg hc]
  have hn : (BitVec.ofNat 32 (k + 8192)).toNat = k + 8192 := by rw [BitVec.toNat_ofNat]; omega
  have hm : (BitVec.ofNat 32 (k + 8192)).msb = false := by
    rw [BitVec.msb_eq_false_iff_two_mul_lt, hn]; omega
  have hm' : (16384#32 : BitVec 32).msb = false := by decide
  unfold BitVec.srem
  rw [hm, hm']
  apply BitVec.eq_of_toNat_eq
  show ((BitVec.ofNat 32 (k + 8192)).umod 16384#32).toNat = _
  rw [BitVec.toNat_ofNat]
  show (BitVec.ofNat 32 (k + 8192)).toNat % (16384#32 : BitVec 32).toNat = _
  rw [hn]
  have : (16384#32 : BitVec 32).toNat = 16384 := by decide
  rw [this]
  have := Nat.mod_lt (k + 8192) (show 0 < 16384 by norm_num)
  omega

/-- A remainder r below 16384 by the positive divisor 16384 needs no sign correction. -/
theorem signFix_word (r : Nat) (hr : r < 16384) :
    Scalar.select
        (IntOp.andi
          (IntOp.cmpi .ne (IntOp.cmpi .slt (BitVec.ofNat 32 r) 0#32) (IntOp.cmpi .slt 16384#32 0#32))
          (IntOp.cmpi .ne (BitVec.ofNat 32 r) 0#32))
        (IntOp.addi (BitVec.ofNat 32 r) 16384#32) (BitVec.ofNat 32 r)
      = BitVec.ofNat 32 r := by
  rw [slt_zero_word r hr]
  have h0 : IntOp.andi (IntOp.cmpi .ne (0#1) (IntOp.cmpi .slt 16384#32 0#32)) (IntOp.cmpi .ne (BitVec.ofNat 32 r) 0#32) = 0#1 := by
    rcases BitVec.eq_zero_or_eq_one (IntOp.cmpi .ne (BitVec.ofNat 32 r) 0#32) with h | h <;> rw [h] <;> decide
  rw [h0, select_zero]

end Cert.RefSide
-- ==== Proof.RefGather.lean ====
/-
  The reference's gather of each row's weight with its partner, read one entry at a time.

  The table of positions holds, in row i, the pair (i, (i + 8192) mod 16384) as 32-bit words: the first column is the row
  number after the "count from the end when negative" correction, which leaves a number below 16384 alone; the second is
  the remainder of i + 8192 by 16384 with the divisor's sign, which for these non-negative numbers is the remainder of
  natural numbers, after the same correction. The gather reads each position signed and clamped into the matrix, which
  leaves numbers below 16384 alone: entry i of the result is the weight at (i, partner of i).
-/
import proofs.«164351_j84774064488939_1_alg».proof.Proof.RefTerms
import proofs.«164351_j84774064488939_1_alg».proof.Proof.RefIndex
import proofs.«164351_j84774064488939_1_alg».proof.Proof.RefDist
import proofs.«164351_j84774064488939_1_alg».proof.Proof.Spec
import Idealize.ShloMosaic.Lib.ValueIdx
import Idealize.ShloMosaic.Lib.Pipeline.Value
import Idealize.ShloMosaic.Lib.ValueLayout
import Idealize.ShloMosaic.Lib.IdealHost

noncomputable section

namespace Cert.RefSide

open Idealize.ShloMosaic Idealize.ShloMosaic.ValueIdx Cert.ReferenceIdeal Cert.ReferenceIdeal.Facts₀

/-! ## The table of positions -/

/-- The row numbers as words. -/
theorem iotaArr_apply (i : Fin 16384) : iotaArr (ix1 i) = BitVec.ofNat 32 i.val := rfl

/-- The correction for negative positions, at a row. -/
theorem wrapNeg_apply (v : IVec S16384 32) (i : Fin 16384) :
    wrapNeg v (ix1 i)
      = Scalar.select (IntOp.cmpi .slt (v (ix1 i)) 0#32) (IntOp.addi (v (ix1 i)) 16384#32) (v (ix1 i)) := rfl

/-- The divisor is 16384. -/
theorem divisor_apply (j : S_.Idx) : divisor j = 16384#32 := by
  show Scalar.select (IntOp.cmpi .eq (16384#32 : BitVec 32) 0#32) 1#32 16384#32 = 16384#32
  decide

/-- The divisor is the constant 16384. -/
theorem divisor_eq : divisor = fun _ => 16384#32 := funext divisor_apply

/-- The truncated remainder at row i is (i + 8192) mod 16384. -/
theorem truncRem_apply (i : Fin 16384) : truncRem (ix1 i) = BitVec.ofNat 32 ((i.val + 8192) % 16384) := by
  show IntOp.remsi .host (IntOp.addi (BitVec.ofNat 32 i.val) 8192#32) (divisor _) = _
  rw [divisor_apply]
  exact truncRem_word i.val i.isLt

/-- The remainder with the divisor's sign at row i is (i + 8192) mod 16384. -/
theorem remArr_apply (i : Fin 16384) : remArr (ix1 i) = BitVec.ofNat 32 ((i.val + 8192) % 16384) := by
  unfold remArr
  rw [divisor_eq]
  show Scalar.select
      (IntOp.andi
        (IntOp.cmpi .ne (IntOp.cmpi .slt (truncRem (ix1 i)) 0#32) (IntOp.cmpi .slt 16384#32 0#32))
        (IntOp.cmpi .ne (truncRem (ix1 i)) 0#32))
      (IntOp.addi (truncRem (ix1 i)) 16384#32) (truncRem (ix1 i)) = _
  rw [truncRem_apply]
  exact signFix_word _ (Nat.mod_lt _ (by norm_num))

/-- A vector laid out as a column reads, at (i, 0), the vector at i. -/
theorem col_apply {α : Type} (v : S16384.Idx → α)
    (h : S16384.BroadcastsInDim S16384x1 (![0] : Fin 1 → Fin S16384x1.rank)) (i : Fin 16384) (z : Fin 1) :
    broadcastInDim S16384x1 ![0] h v (ix2 i z) = v (ix1 i) := by
  refine broadcastInDim_apply _ h _ (ix2 i z) (ix1 i) fun a => ?_
  match a with
  | ⟨0, _⟩ => show i.val = if (16384 : ℕ) = 1 then 0 else i.val; exact (if_neg (by decide)).symm

/-- The table's first column at row i is i. -/
theorem idxArr_row (i : Fin 16384) : idxArr (ix2 i (0 : Fin 2)) = BitVec.ofNat 32 i.val := by
  unfold idxArr
  refine (concatenate_pair_apply_left (t := S16384x2) (s₁ := S16384x1) (s₂ := S16384x1) (1 : Fin 2) _ _ _
    (ix2 i (0 : Fin 2)) rfl (ix2 i (0 : Fin 1)) (fun b => by match b with | ⟨0, _⟩ => rfl | ⟨1, _⟩ => rfl)).trans ?_
  refine (col_apply _ _ i 0).trans ?_
  rw [wrapNeg_apply, iotaArr_apply]
  exact wrap_word i.val i.isLt

/-- The table's second column at row i is (i + 8192) mod 16384. -/
theorem idxArr_partner (i : Fin 16384) : idxArr (ix2 i (1 : Fin 2)) = BitVec.ofNat 32 ((i.val + 8192) % 16384) := by
  unfold idxArr
  refine (concatenate_pair_apply_right (t := S16384x2) (s₁ := S16384x1) (s₂ := S16384x1) (1 : Fin 2) _ _ _
    (ix2 i (1 : Fin 2)) rfl rfl (ix2 i (0 : Fin 1))
    (fun b hb => by
      match b, hb with
      | ⟨0, _⟩, _ => rfl
      | ⟨1, _⟩, hb => exact absurd rfl hb)
    (by show 0 + 1 = 1; rfl)).trans ?_
  refine (col_apply _ _ i 0).trans ?_
  rw [wrapNeg_apply, remArr_apply]
  exact wrap_word _ (Nat.mod_lt _ (by norm_num))

/-! ## The gather -/

/-- The position the gather reads for result entry i, when the table's row i holds the words of a and b, both below
    16384: (a, b). On each axis the start is the table's word read signed and clamped to [0, 16383], and there is no
    batching or offset coordinate (both operand axes are collapsed). -/
theorem gather_operandIdx (idx : IVec S16384x2 32) (i : Fin 16384) (a b : ℕ) (ha : a < 16384) (hb : b < 16384)
    (h0 : idx (ix2 i (0 : Fin 2)) = BitVec.ofNat 32 a) (h1 : idx (ix2 i (1 : Fin 2)) = BitVec.ofNat 32 b) :
    gather_S16384x16384_S16384x2_S16384_n_01_n_n_01_1_11.operandIdx (ix1 i) idx = ix2 (⟨a, ha⟩ : Fin 16384) (⟨b, hb⟩ : Fin 16384) := by
  funext ax
  match ax with
  | ⟨0, _⟩ =>
    refine Fin.ext ?_
    show gather_S16384x16384_S16384x2_S16384_n_01_n_n_01_1_11.start (ix1 i) idx (0 : Fin 2)
        + gather_S16384x16384_S16384x2_S16384_n_01_n_n_01_1_11.batchCoord (ix1 i) (0 : Fin 2)
        + gather_S16384x16384_S16384x2_S16384_n_01_n_n_01_1_11.offCoord (ix1 i) (0 : Fin 2) = a
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S16384x16384_S16384x2_S16384_n_01_n_n_01_1_11.startIndexMap by decide)]
    have hsi : gather_S16384x16384_S16384x2_S16384_n_01_n_n_01_1_11.siIdx (ix1 i)
        ⟨List.idxOf (0 : Fin 2) gather_S16384x16384_S16384x2_S16384_n_01_n_n_01_1_11.startIndexMap,
          List.idxOf_lt_length_iff.2 (by decide)⟩ = ix2 i (0 : Fin 2) := by
      funext c; refine Fin.ext ?_
      match c with
      | ⟨0, _⟩ => rfl
      | ⟨1, _⟩ => rfl
    rw [hsi, h0]
    exact clamp_word a ha
  | ⟨1, _⟩ =>
    refine Fin.ext ?_
    show gather_S16384x16384_S16384x2_S16384_n_01_n_n_01_1_11.start (ix1 i) idx (1 : Fin 2)
        + gather_S16384x16384_S16384x2_S16384_n_01_n_n_01_1_11.batchCoord (ix1 i) (1 : Fin 2)
        + gather_S16384x16384_S16384x2_S16384_n_01_n_n_01_1_11.offCoord (ix1 i) (1 : Fin 2) = b
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S16384x16384_S16384x2_S16384_n_01_n_n_01_1_11.startIndexMap by decide)]
    have hsi : gather_S16384x16384_S16384x2_S16384_n_01_n_n_01_1_11.siIdx (ix1 i)
        ⟨List.idxOf (1 : Fin 2) gather_S16384x16384_S16384x2_S16384_n_01_n_n_01_1_11.startIndexMap,
          List.idxOf_lt_length_iff.2 (by decide)⟩ = ix2 i (1 : Fin 2) := by
      funext c; refine Fin.ext ?_
      match c with
      | ⟨0, _⟩ => rfl
      | ⟨1, _⟩ => rfl
    rw [hsi, h1]
    exact clamp_word b hb

/-- THE PARTNER WEIGHTS, index by index: entry i is the weight of row i and its partner from the three-term distance. -/
theorem pairArr_eq (x : FVec Ideal S16384x128 .f32) : pairArr x = fun j => Cert.Spec.pairRef x (j 0) := by
  funext j
  obtain ⟨i, rfl⟩ : ∃ i : Fin 16384, j = ix1 i := ⟨j 0, eq_ix1 j⟩
  unfold pairArr Host.gather
  rw [gather_operandIdx idxArr i i.val ((i.val + 8192) % 16384) i.isLt (Nat.mod_lt _ (by norm_num))
    (idxArr_row i) (idxArr_partner i)]
  exact wArr_apply x i (Cert.Spec.partner i)

end Cert.RefSide

end
-- ==== Proof.lean ====
/-
  The certificate: a tiled row-sum kernel for a Cauchy similarity loss against its plain reference.

  From a feature matrix x of 16384 rows and 128 columns both programs form, for every pair of rows, the squared
  distance |x_i|² + |x_j|² − 2⟨x_i, x_j⟩ clamped at zero and its Cauchy weight 1 / (d + 1); they sum each row's weights,
  take the weight of each row and the row half the matrix away, and return the mean of minus the logarithm of the pair
  weights plus the mean of the logarithm of the row sums.

  The kernel computes the row sums on a grid of 8 row blocks by 32 column blocks, adding each block's 512 weights into a
  scratch column that it clears at a row block's first column block and copies out at its last; the pair weights it
  computes on the host from the sum of squared differences against the matrix rolled by half its rows. The reference
  forms the whole 16384 × 16384 weight matrix, sums its rows at once, and gathers the pair weights out of it.

  At the ideal instance the two agree: a sum of extended reals does not depend on how it is grouped, and for real
  entries Σ_d (a_d − b_d)² = Σ a_d² + Σ b_d² − 2 Σ a_d b_d. The second law distributes a product over a difference, which
  fails at infinities, so the precondition (every entry finite) is used exactly there. The idealization rewrote no
  operation, so the word-level kernel needs only its frame.

  The frames of both kernel programs are one argument, written once for any float instance: the region's two input
  windows read the same array, which the region holds at the two halves of its share; the body is run in its three
  cases (first, middle and last column block of a row block) with the scratch column's contents named point by point.
-/
import proofs.«164351_j84774064488939_1_alg».proof.Defs
import proofs.«164351_j84774064488939_1_alg».proof.Proof.Gen.Kernel
import proofs.«164351_j84774064488939_1_alg».proof.Proof.Gen.KernelIdeal
import proofs.«164351_j84774064488939_1_alg».proof.Proof.Gen.ReferenceIdeal
import proofs.«164351_j84774064488939_1_alg».proof.Proof.Gen.Pre_finite_inputs
import proofs.«164351_j84774064488939_1_alg».proof.Proof.KIBody
import proofs.«164351_j84774064488939_1_alg».proof.Proof.KIResult
import proofs.«164351_j84774064488939_1_alg».proof.Proof.KerRowSumsFinal
import proofs.«164351_j84774064488939_1_alg».proof.Proof.KerColumn
import proofs.«164351_j84774064488939_1_alg».proof.Proof.KerPair
import proofs.«164351_j84774064488939_1_alg».proof.Proof.SpecLaws
import proofs.«164351_j84774064488939_1_alg».proof.Proof.FiniteInputs
import proofs.«164351_j84774064488939_1_alg».proof.Proof.RefTerms
import proofs.«164351_j84774064488939_1_alg».proof.Proof.KBody
import proofs.«164351_j84774064488939_1_alg».proof.Proof.KResult
import proofs.«164351_j84774064488939_1_alg».proof.Proof.RefRun
import proofs.«164351_j84774064488939_1_alg».proof.Proof.RefDist
import proofs.«164351_j84774064488939_1_alg».proof.Proof.RefGather
set_option maxRecDepth 16384

noncomputable section

namespace Cert.Proof

open Idealize.ShloMosaic Idealize.ShloMosaic.TcCoe Idealize.SL.Sem

/-! ## The word-level kernel: its frame -/

theorem frame_k : Cert.frame_Kernel := fun m ρ _ =>
  Cert.Kernel.Around.frame_of m ρ (Cert.Kernel.Hand.dats m) (fun _ => rfl) (fun _ => rfl) (Cert.Kernel.Hand.A_eq m)
    (fun _ _ => rfl) (fun c => (Cert.Kernel.Hand.body_obligation m c).loose) (Cert.Kernel.Hand.hin m) (Cert.Kernel.Hand.hout m)

/-! ## The idealized kernel: its frame and its result -/

theorem frame_ki : Cert.frame_KernelIdeal := fun m ρ _ =>
  Cert.KernelIdeal.Around.frame_of m ρ (Cert.KernelIdeal.Hand.dats m) (fun _ => rfl) (fun _ => rfl) (Cert.KernelIdeal.Hand.A_eq m)
    (fun _ _ => rfl) (fun c => (Cert.KernelIdeal.Hand.body_obligation m c).loose) (Cert.KernelIdeal.Hand.hin m) (Cert.KernelIdeal.Hand.hout m)

/-- The two programs end with the same operations on their two vectors. -/
theorem tail_eq (p s : FVec Ideal Cert.ReferenceIdeal.S16384 .f32) :
    Cert.RefSide.tail p s = Cert.KernelIdeal.Around.lossTail (F := Ideal) p s := rfl

/-- The partner weights as the host lines form them are the term whose entries are read in KerPair. -/
theorem pairTerm_eq (x : FVec Ideal Cert.KernelIdeal.S16384x128 .f32) :
    Cert.KernelIdeal.Around.pairTerm (F := Ideal) x = Cert.KerSide.pairArr x := rfl

/-- For a matrix of real entries the kernel's two vectors are the partner weights in the three-term form and the
    row sums over all columns. -/
theorem kernel_vectors (m : (ℓ : Loc Cert.KernelIdeal.nD Cert.KernelIdeal.τ Cert.KernelIdeal.sig) → Buf (Elt Ideal) ℓ) (c : Dev Cert.KernelIdeal.nD)
    (hfin : Cert.Spec.Finite (m ((c.tc : Thread Cert.KernelIdeal.nD Cert.KernelIdeal.τ).loc Cert.KernelIdeal.main_arg0))) :
    Cert.KernelIdeal.Around.lossTail (F := Ideal)
        (Cert.KernelIdeal.Around.pairTerm (m ((c.tc : Thread Cert.KernelIdeal.nD Cert.KernelIdeal.τ).loc Cert.KernelIdeal.main_arg0)))
        (shapeCast Cert.KernelIdeal.S16384 ((Cert.KernelIdeal.Hand.dats m 0 c).arrAt 2 Cert.KernelIdeal.cfg0.N) Cert.KernelIdeal.Gen.shapeCasts_S16384x1_S16384)
      = Cert.KernelIdeal.Around.lossTail (F := Ideal)
          (fun j => Cert.Spec.pairRef (m ((c.tc : Thread Cert.KernelIdeal.nD Cert.KernelIdeal.τ).loc Cert.KernelIdeal.main_arg0)) (j 0))
          (fun j => Cert.Spec.rowSum (m ((c.tc : Thread Cert.KernelIdeal.nD Cert.KernelIdeal.τ).loc Cert.KernelIdeal.main_arg0)) (j 0)) := by
  have e1 := (pairTerm_eq (m ((c.tc : Thread Cert.KernelIdeal.nD Cert.KernelIdeal.τ).loc Cert.KernelIdeal.main_arg0))).trans
    ((Cert.KerSide.pairArr_eq _).trans (funext fun j => Cert.Spec.pair_eq _ hfin (j 0)))
  have e2 : shapeCast Cert.KernelIdeal.S16384 ((Cert.KernelIdeal.Hand.dats m 0 c).arrAt 2 Cert.KernelIdeal.cfg0.N) Cert.KernelIdeal.Gen.shapeCasts_S16384x1_S16384
      = fun j => Cert.Spec.rowSum (m ((c.tc : Thread Cert.KernelIdeal.nD Cert.KernelIdeal.τ).loc Cert.KernelIdeal.main_arg0)) (j 0) := by
    funext j
    obtain ⟨i, rfl⟩ : ∃ i : Fin 16384, j = ValueIdx.ix1 i := ⟨j 0, ValueIdx.eq_ix1 j⟩
    refine (Cert.KerSide.column_apply (F := Ideal) _ i).trans ?_
    exact congrFun (Cert.KerSide.rowSums_final m c) (ValueIdx.ix2 i (0 : Fin 1))
  rw [e1, e2]

/-! ## The reference: its frame is its run with the result dropped -/

theorem frame_ri : Cert.frame_ReferenceIdeal := fun m ρ _ =>
  (θ_run Cert.ReferenceIdeal.defs _ _).mono (fun _ h c => (h c).2) (Cert.RefSide.run m ρ)

/-- At the ideal instance, from memories agreeing on the arguments, both programs run and end with equal results:
    the kernel's run names its result as the loss of its two vectors, which for finite inputs are the reference's
    two vectors (the square of a difference expanded; the row sum taken block by block), and the two programs end with
    the same operations on them. -/
theorem algebraic : Cert.algebraic_KernelIdeal_ReferenceIdeal := by
  intro m ρ m' ρ' hpre hagree
  refine ⟨_, Cert.KernelIdeal.Around.result_of m ρ (Cert.KernelIdeal.Hand.dats m) (fun _ => rfl) (fun _ => rfl) (Cert.KernelIdeal.Hand.A_eq m)
    (fun _ _ => rfl) (fun c => (Cert.KernelIdeal.Hand.body_obligation m c).loose) (Cert.KernelIdeal.Hand.hin m) (Cert.KernelIdeal.Hand.hout m), ?_⟩
  refine (θ_run Cert.ReferenceIdeal.defs _ _).mono (fun _ h c => ⟨(h c).1.trans ?_, (h c).2⟩) (Cert.RefSide.run m' ρ')
  rw [(hagree c).1, Cert.RefSide.pairArr_eq, Cert.RefSide.sumArr_eq, tail_eq]
  exact (kernel_vectors m c (Cert.Spec.finite_of_pre _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
